-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v58_1)) (v1 : (c : Dev Cert.KernelIdeal.nD) → Buf (Elt Ideal) ((c.tc : Thread Cert.KernelIdeal.nD Cert.KernelIdeal.τ).loc Cert.KernelIdeal.main_v58_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_1) = v0 c
          ∧ r.2.mem ((c.tc : Thread Cert.KernelIdeal.nD Cert.KernelIdeal.τ).loc Cert.KernelIdeal.main_v58_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x40 .f32) (main_arg12 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg11
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x40 .f32) (main_arg12 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x40 .f32) (main_arg12 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S2000x1 : Shape := ⟨2, ![2000, 1]⟩
abbrev S1600000x128 : Shape := ⟨2, ![1600000, 128]⟩
abbrev S1x128 : Shape := ⟨2, ![1, 128]⟩
abbrev S1x40 : Shape := ⟨2, ![1, 40]⟩
abbrev S100000x40 : Shape := ⟨2, ![100000, 40]⟩
abbrev S2000x40 : Shape := ⟨2, ![2000, 40]⟩
abbrev S2000 : Shape := ⟨1, ![2000]⟩

abbrev nBuf : Space → Nat
  | .hbm => 140
  | .vmem => 52
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x40, .f32⟩
  | 12 => ⟨S40, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S100000x1, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S1x128, .f32⟩
  | 54 => ⟨S100000x128, .f32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S100000x128, .f32⟩
  | 69 => ⟨S100000x128, .f32⟩
  | 70 => ⟨S100000x128, .f32⟩
  | 71 => ⟨S_, .f32⟩
  | 72 => ⟨S_, .f32⟩
  | 73 => ⟨S_, .f32⟩
  | 74 => ⟨S_, .f32⟩
  | 75 => ⟨S128, .f32⟩
  | 76 => ⟨S1x128, .f32⟩
  | 77 => ⟨S1x128, .f32⟩
  | 78 => ⟨S1x128, .f32⟩
  | 79 => ⟨S_, .f32⟩
  | 80 => ⟨S_, .i1⟩
  | 81 => ⟨S_, .f32⟩
  | 82 => ⟨S_, .f32⟩
  | 83 => ⟨S1x128, .f32⟩
  | 84 => ⟨S1x128, .f32⟩
  | 85 => ⟨S1x128, .f32⟩
  | 86 => ⟨S1x128, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S1x128, .f32⟩
  | 103 => ⟨S100000x128, .f32⟩
  | 104 => ⟨S_, .f32⟩
  | 105 => ⟨S128, .f32⟩
  | 106 => ⟨S1x128, .f32⟩
  | 107 => ⟨S_, .f32⟩
  | 108 => ⟨S1x128, .f32⟩
  | 109 => ⟨S1x128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S100000x128, .f32⟩
  | 118 => ⟨S100000x128, .f32⟩
  | 119 => ⟨S100000x128, .f32⟩
  | 120 => ⟨S_, .f32⟩
  | 121 => ⟨S_, .f32⟩
  | 122 => ⟨S_, .f32⟩
  | 123 => ⟨S_, .f32⟩
  | 124 => ⟨S128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S1x128, .f32⟩
  | 5 => ⟨S1x128, .f32⟩
  | 6 => ⟨S1x128, .f32⟩
  | 7 => ⟨S1x128, .f32⟩
  | 8 => ⟨S100000x128, .f32⟩
  | 9 => ⟨S1x40, .f32⟩
  | 10 => ⟨S100000x128, .f32⟩
  | 11 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S2000x1, .f32⟩
  | .local _ .vmem, ⟨26, _⟩ => ⟨S2000x1, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x40, .f32⟩
  | .local _ .vmem, ⟨47, _⟩ => ⟨S1x40, .f32⟩
  | .local _ .vmem, ⟨48, _⟩ => ⟨S2000x128, .f32⟩
  | .local _ .vmem, ⟨49, _⟩ => ⟨S2000x128, .f32⟩
  | .local _ .vmem, ⟨50, _⟩ => ⟨S2000x40, .f32⟩
  | .local _ .vmem, ⟨51, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_cst_4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_6 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_7 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_8 : Ref sig .tc := ⟨.hbm, 55, rfl⟩
abbrev main_v28 : Ref sig .tc := ⟨.hbm, 56, rfl⟩
abbrev main_v29 : Ref sig .tc := ⟨.hbm, 57, rfl⟩
abbrev main_cst_9 : Ref sig .tc := ⟨.hbm, 58, rfl⟩
abbrev main_v30 : Ref sig .tc := ⟨.hbm, 59, rfl⟩
abbrev main_v31 : Ref sig .tc := ⟨.hbm, 60, rfl⟩
abbrev main_c_10 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_cst_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_cst_1 : Ref sig .tc := ⟨.hbm, 72, rfl⟩
abbrev main_call2_v8 : Ref sig .tc := ⟨.hbm, 73, rfl⟩
abbrev main_call2_cst_2 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_cst_3 : Ref sig .tc := ⟨.hbm, 79, rfl⟩
abbrev main_call2_v13 : Ref sig .tc := ⟨.hbm, 80, rfl⟩
abbrev main_call2_cst_4 : Ref sig .tc := ⟨.hbm, 81, rfl⟩
abbrev main_call2_call0_v0 : Ref sig .tc := ⟨.hbm, 82, rfl⟩
abbrev main_call2_call0_v1 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c_11 : Ref sig .tc := ⟨.hbm, 89, rfl⟩
abbrev main_v37 : Ref sig .tc := ⟨.hbm, 90, rfl⟩
abbrev main_v38 : Ref sig .tc := ⟨.hbm, 91, rfl⟩
abbrev main_c_12 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_cst_13 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_cst_14 : Ref sig .tc := ⟨.hbm, 104, rfl⟩
abbrev main_v49 : Ref sig .tc := ⟨.hbm, 105, rfl⟩
abbrev main_v50 : Ref sig .tc := ⟨.hbm, 106, rfl⟩
abbrev main_cst_15 : Ref sig .tc := ⟨.hbm, 107, rfl⟩
abbrev main_v51 : Ref sig .tc := ⟨.hbm, 108, rfl⟩
abbrev main_v52 : Ref sig .tc := ⟨.hbm, 109, rfl⟩
abbrev main_c_16 : Ref sig .tc := ⟨.hbm, 110, rfl⟩
abbrev main_call3_cst : Ref sig .tc := ⟨.hbm, 111, rfl⟩
abbrev main_call3_v0 : Ref sig .tc := ⟨.hbm, 112, rfl⟩
abbrev main_call3_v1 : Ref sig .tc := ⟨.hbm, 113, rfl⟩
abbrev main_call3_cst_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_cst_1 : Ref sig .tc := ⟨.hbm, 121, rfl⟩
abbrev main_call3_v8 : Ref sig .tc := ⟨.hbm, 122, rfl⟩
abbrev main_call3_cst_2 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_v12 : Ref sig .tc := ⟨.hbm, 127, rfl⟩
abbrev main_call3_cst_3 : Ref sig .tc := ⟨.hbm, 128, rfl⟩
abbrev main_call3_v13 : Ref sig .tc := ⟨.hbm, 129, rfl⟩
abbrev main_call3_cst_4 : Ref sig .tc := ⟨.hbm, 130, rfl⟩
abbrev main_call3_call0_v0 : Ref sig .tc := ⟨.hbm, 131, rfl⟩
abbrev main_call3_call0_v1 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58_0 : Ref sig .tc := ⟨.hbm, 138, rfl⟩
abbrev main_v58_1 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc6_stg4_0 : Ref sig .tc := ⟨.vmem, 50, rfl⟩
abbrev cc6_stg4_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49
abbrev cc6_sem4_0 : DmaSem sig := 50
abbrev cc6_sem4_1 : DmaSem sig := 51

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x40 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S40_S1x40 : S40.ShapeCasts S1x40
  reduces_S2000x128_S2000 : S2000x128.Reduces [1] S2000
  shapeCasts_S2000_S2000x1 : S2000.ShapeCasts S2000x1
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S100000x128.size a
  hwx6_3 : ∀ i : grid6.Coords, EltTy.bits .f32 = 32 ∨ (Rect.block (s := S100000x128) S2000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x40.size a ≤ S100000x40.size a
  hwx6_4 : ∀ i : grid6.Coords, EltTy.bits .f32 = 32 ∨ (Rect.block (s := S100000x40) S2000x40.size (cc6_transform_4 i) (hinb6_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v35) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v48) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v53) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v55) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v56) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v56) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v57) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v58_0) S2000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v58_1) S2000x40.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 191
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x40, .f32⟩
  | 12 => ⟨S40, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S100000x128, .f32⟩
  | 38 => ⟨S100000x1, .f32⟩
  | 39 => ⟨S100000x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S100000x1, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S100000x1, .f32⟩
  | 109 => ⟨S100000x128, .f32⟩
  | 110 => ⟨S100000x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S100000x1, .f32⟩
  | 125 => ⟨S100000x128, .f32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S128, .f32⟩
  | 4 => ⟨S_, .f32⟩
  | 5 => ⟨S128, .f32⟩
  | 6 => ⟨S128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S100000x128, .f32⟩
  | 15 => ⟨S100000x128, .f32⟩
  | 16 => ⟨S100000x128, .f32⟩
  | 17 => ⟨S_, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .i1⟩
  | 26 => ⟨S_, .f32⟩
  | 27 => ⟨S_, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S_, .f32⟩
  | 34 => ⟨S128, .f32⟩
  | 35 => ⟨S128, .f32⟩
  | 36 => ⟨S128, .f32⟩
  | 37 => ⟨S1x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S_, .f32⟩
  | 51 => ⟨S100000, .f32⟩
  | 52 => ⟨S100000x1, .f32⟩
  | 53 => ⟨S100000x1, .f32⟩
  | 54 => ⟨S_, .f32⟩
  | 55 => ⟨S100000x1, .f32⟩
  | 56 => ⟨S100000x1, .f32⟩
  | 57 => ⟨S100000x128, .f32⟩
  | 58 => ⟨S100000x128, .f32⟩
  | 59 => ⟨S100000x40, .f32⟩
  | 60 => ⟨S1x40, .f32⟩
  | 61 => ⟨S100000x40, .f32⟩
  | 62 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_cst_4 : Ref sig .tc := ⟨.hbm, 31, rfl⟩
abbrev main_v9 : Ref sig .tc := ⟨.hbm, 32, rfl⟩
abbrev main_v10 : Ref sig .tc := ⟨.hbm, 33, rfl⟩
abbrev main_cst_5 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_6 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_8 : Ref sig .tc := ⟨.hbm, 60, rfl⟩
abbrev main_v33 : Ref sig .tc := ⟨.hbm, 61, rfl⟩
abbrev main_cst_9 : Ref sig .tc := ⟨.hbm, 62, rfl⟩
abbrev main_v34 : Ref sig .tc := ⟨.hbm, 63, rfl⟩
abbrev main_v35 : Ref sig .tc := ⟨.hbm, 64, rfl⟩
abbrev main_c_10 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_cst_3 : Ref sig .tc := ⟨.hbm, 82, rfl⟩
abbrev main_call2_v12 : Ref sig .tc := ⟨.hbm, 83, rfl⟩
abbrev main_call2_cst_4 : Ref sig .tc := ⟨.hbm, 84, rfl⟩
abbrev main_call2_call0_v0 : Ref sig .tc := ⟨.hbm, 85, rfl⟩
abbrev main_call2_call0_v1 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_11 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_call3_cst : Ref sig .tc := ⟨.hbm, 104, rfl⟩
abbrev main_call3_v0 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_c_12 : Ref sig .tc := ⟨.hbm, 111, rfl⟩
abbrev main_v57 : Ref sig .tc := ⟨.hbm, 112, rfl⟩
abbrev main_v58 : Ref sig .tc := ⟨.hbm, 113, rfl⟩
abbrev main_c_13 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_14 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_15 : Ref sig .tc := ⟨.hbm, 130, rfl⟩
abbrev main_v73 : Ref sig .tc := ⟨.hbm, 131, rfl⟩
abbrev main_cst_16 : Ref sig .tc := ⟨.hbm, 132, rfl⟩
abbrev main_v74 : Ref sig .tc := ⟨.hbm, 133, rfl⟩
abbrev main_v75 : Ref sig .tc := ⟨.hbm, 134, rfl⟩
abbrev main_c_17 : Ref sig .tc := ⟨.hbm, 135, rfl⟩
abbrev main_call4_cst : Ref sig .tc := ⟨.hbm, 136, rfl⟩
abbrev main_call4_v0 : Ref sig .tc := ⟨.hbm, 137, rfl⟩
abbrev main_call4_v1 : Ref sig .tc := ⟨.hbm, 138, rfl⟩
abbrev main_call4_cst_0 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_v6 : Ref sig .tc := ⟨.hbm, 144, rfl⟩
abbrev main_call4_v7 : Ref sig .tc := ⟨.hbm, 145, rfl⟩
abbrev main_call4_cst_1 : Ref sig .tc := ⟨.hbm, 146, rfl⟩
abbrev main_call4_v8 : Ref sig .tc := ⟨.hbm, 147, rfl⟩
abbrev main_call4_cst_2 : Ref sig .tc := ⟨.hbm, 148, rfl⟩
abbrev main_call4_v9 : Ref sig .tc := ⟨.hbm, 149, rfl⟩
abbrev main_call4_v10 : Ref sig .tc := ⟨.hbm, 150, rfl⟩
abbrev main_call4_v11 : Ref sig .tc := ⟨.hbm, 151, rfl⟩
abbrev main_call4_cst_3 : Ref sig .tc := ⟨.hbm, 152, rfl⟩
abbrev main_call4_v12 : Ref sig .tc := ⟨.hbm, 153, rfl⟩
abbrev main_call4_cst_4 : Ref sig .tc := ⟨.hbm, 154, rfl⟩
abbrev main_call4_call0_v0 : Ref sig .tc := ⟨.hbm, 155, rfl⟩
abbrev main_call4_call0_v1 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_cst_18 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_call5_cst : Ref sig .tc := ⟨.hbm, 174, rfl⟩
abbrev main_call5_v0 : Ref sig .tc := ⟨.hbm, 175, rfl⟩
abbrev main_v92 : Ref sig .tc := ⟨.hbm, 176, rfl⟩
abbrev main_call6_v0 : Ref sig .tc := ⟨.hbm, 177, rfl⟩
abbrev main_call6_cst : Ref sig .tc := ⟨.hbm, 178, rfl⟩
abbrev main_call6_v1 : Ref sig .tc := ⟨.hbm, 179, rfl⟩
abbrev main_call6_v2 : Ref sig .tc := ⟨.hbm, 180, rfl⟩
abbrev main_v93 : Ref sig .tc := ⟨.hbm, 181, rfl⟩
abbrev main_cst_19 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S100000x128_S100000_d1 : S100000x128.ReducesTo [1] S100000
  bcast_S_S100000x1 : S_.BroadcastsInDim S100000x1 (![] : Fin 0 → Fin S100000x1.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The two-layer graph convolution as whole-array functions, written with the host operations.

  Nodes carry rows of 128 features. An edge list (sources `es`, destinations `ed`) gives each node an
  out-degree and an in-degree (counted by a scatter-add of ones and clipped below at 1); a layer multiplies
  the rows by a weight matrix, scales row `r` by outdeg(r)^(-1/2), sums over every edge the source's row
  into the destination's row, scales row `r` by indeg(r)^(-1/2), adds a bias, normalises every column by
  its mean and (biased) variance over the nodes, applies a gain and a shift and keeps the positive part.
  After two layers every row is divided by its Euclidean length (at least 1e-12) and projected to 40 classes.

  Each stage is stated twice where the two programs pass it differently shaped operands: over the
  vectors of length 100000 or 128 (`…H`), and over their one-column / one-row matrix forms (`…2`).
-/
import proofs.«142040_j24154896073101_1_alg».proof.ReferenceIdeal

noncomputable section

namespace Cert.Gcn

open Idealize.ShloMosaic Cert.ReferenceIdeal Cert.ReferenceIdeal.Facts₀

variable {F : FTy → Type} [FloatOps F] [Cert.ReferenceIdeal.Facts]

/-- A vector of 100000 entries as the column of a 100000 × 1 matrix. -/
def col1 (s : FVec F S100000 .f32) : FVec F S100000x1 .f32 :=
  broadcastInDim S100000x1 ![0] bcast_S100000_S100000x1_0 s
/-- A 100000 × 1 column repeated along 128 columns. -/
def colB (s2 : FVec F S100000x1 .f32) : FVec F S100000x128 .f32 :=
  broadcastInDim S100000x128 ![0, 1] bcast_S100000x1_S100000x128_0_1 s2
/-- A vector of 128 entries as the row of a 1 × 128 matrix. -/
def row1 (b : FVec F S128 .f32) : FVec F S1x128 .f32 :=
  broadcastInDim S1x128 ![1] bcast_S128_S1x128_1 b
/-- A 1 × 128 row repeated along 100000 rows. -/
def rowB (b2 : FVec F S1x128 .f32) : FVec F S100000x128 .f32 :=
  broadcastInDim S100000x128 ![0, 1] bcast_S1x128_S100000x128_0_1 b2

/-- The degree of every node (how often it occurs in `e`), at least 1. -/
def degree (e : IVec S1600000 32) : FVec F S100000 .f32 :=
  maximumf (broadcastInDim S100000 ![] bcast_S_S100000 (id (constant S_ .f32 0x3F800000#32)))
    (Host.scatterAdd scatter_S100000_S1600000x1_S1600000_n_0_0_1
      (broadcastInDim S100000 ![] bcast_S_S100000 (constant S_ .f32 0x00000000#32))
      (broadcastInDim S1600000x1 ![0] bcast_S1600000_S1600000x1_0 e)
      (broadcastInDim S1600000 ![] bcast_S_S1600000 (constant S_ .f32 0x3F800000#32)))

/-- degree^(-1/2). -/
def invSqrtDeg (e : IVec S1600000 32) : FVec F S100000 .f32 :=
  Host.powf (degree (F := F) e) (broadcastInDim S100000 ![] bcast_S_S100000 (constant S_ .f32 0xBF000000#32))

/-- Rows times a weight matrix, row `r` scaled by the column's entry `r`. -/
def linScale2 (h : FVec F S100000x128 .f32) (W : FVec F S128x128 .f32) (s2 : FVec F S100000x1 .f32) :
    FVec F S100000x128 .f32 :=
  mulf (Host.dotGeneral dot_S100000x128_S128x128_S100000x128_1_0_0_1_n_n none h W) (colB s2)

/-- The source index of every edge as a gather index (a negative one counted from the end). -/
def srcIdx (es : IVec S1600000 32) : IVec S1600000x1 32 :=
  broadcastInDim S1600000x1 ![0] bcast_S1600000_S1600000x1_0
    (select (cmpi .slt es (broadcastInDim S1600000 ![] bcast_S_S1600000 (constantI S_ 32 0#32)))
      (addi es (broadcastInDim S1600000 ![] bcast_S_S1600000 (constantI S_ 32 100000#32))) es)

/-- Every edge adds its source's row to its destination's row. -/
def aggregate (y : FVec F S100000x128 .f32) (es ed : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 ed)
    (Host.gather gather_S100000x128_S1600000x1_S1600000x128_1_0_n_n_0_1_1128 y (srcIdx es))

/-- Row `r` scaled by the column's entry `r`, then the bias row added. -/
def scaleShift2 (a : FVec F S100000x128 .f32) (s2 : FVec F S100000x1 .f32) (b2 : FVec F S1x128 .f32) :
    FVec F S100000x128 .f32 :=
  addf (mulf a (colB s2)) (rowB b2)

/-- The sum of every column. -/
def colSum (h : FVec F S100000x128 .f32) : FVec F S128 .f32 :=
  Host.reduceAdd h (constant S_ .f32 0x00000000#32) reducesTo_S100000x128_S128_d0 h_S_

/-- The mean of every column. -/
def meanH (h : FVec F S100000x128 .f32) : FVec F S128 .f32 :=
  Host.divf (colSum h) (broadcastInDim S128 ![] bcast_S_S128 (constant S_ .f32 0x47C35000#32))

/-- The mean of every column, as a row. -/
def mean2 (h : FVec F S100000x128 .f32) : FVec F S1x128 .f32 :=
  Host.divf (row1 (colSum h)) (broadcastInDim S1x128 ![] bcast_S_S1x128 (constant S_ .f32 0x47C35000#32))

/-- The squared deviations from the column means. -/
def sqDev (h : FVec F S100000x128 .f32) : FVec F S100000x128 .f32 :=
  mulf (subf h (rowB (mean2 h))) (subf h (rowB (mean2 h)))

/-- The number of rows less the correction 0, as a scalar. -/
def count : FVec F S_ .f32 :=
  subf (constant S_ .f32 0x47C35000#32) (sitofp .f32 (constantI S_ 32 0#32))

/-- The biased variance of every column (the not-a-number pattern where the count is not positive). -/
def varH (h : FVec F S100000x128 .f32) : FVec F S128 .f32 :=
  select (broadcastInDim S128 ![] bcast_S_S128 (cmpf .ogt (count (F := F)) (constant S_ .f32 0x00000000#32)))
    (Host.divf (colSum (sqDev h)) (broadcastInDim S128 ![] bcast_S_S128 (count (F := F))))
    (broadcastInDim S128 ![] bcast_S_S128 (id (constant S_ .f32 0x7FC00000#32)))

/-- The biased variance of every column, as a row. -/
def var2 (h : FVec F S100000x128 .f32) : FVec F S1x128 .f32 :=
  select (broadcastInDim S1x128 ![] bcast_S_S1x128 (cmpf .ogt (count (F := F)) (constant S_ .f32 0x00000000#32)))
    (Host.divf (row1 (colSum (sqDev h))) (broadcastInDim S1x128 ![] bcast_S_S1x128 (count (F := F))))
    (broadcastInDim S1x128 ![] bcast_S_S1x128 (id (constant S_ .f32 0x7FC00000#32)))

/-- Column normalisation, gain, shift and positive part, over vectors of 128. -/
def bnReluH (h : FVec F S100000x128 .f32) (g be : FVec F S128 .f32) : FVec F S100000x128 .f32 :=
  maximumf
    (addf (mulf (mulf (subf h (rowB (row1 (meanH h))))
        (rowB (row1 (Host.rsqrt (addf (varH h) (broadcastInDim S128 ![] bcast_S_S128 (constant S_ .f32 0x3727C5AC#32)))))))
      (rowB (row1 g))) (rowB (row1 be)))
    (broadcastInDim S100000x128 ![] bcast_S_S100000x128 (constant S_ .f32 0x00000000#32))

/-- The same over rows of 1 × 128: `((h - mu) * rsqrt(var + eps)) * g + be`, positive part. -/
def bnRelu2 (h : FVec F S100000x128 .f32) (mu2 v2 g2 be2 : FVec F S1x128 .f32) : FVec F S100000x128 .f32 :=
  maximumf
    (addf (mulf (mulf (subf h (rowB mu2))
        (rowB (Host.rsqrt (addf v2 (broadcastInDim S1x128 ![] bcast_S_S1x128 (constant S_ .f32 0x3727C5AC#32))))))
      (rowB g2)) (rowB be2))
    (broadcastInDim S100000x128 ![] bcast_S_S100000x128 (constant S_ .f32 0x00000000#32))

/-- The Euclidean length of every row, as a column. -/
def rowNorm (h : FVec F S100000x128 .f32) : FVec F S100000x1 .f32 :=
  Host.sqrt (col1 (Host.reduceAdd (mulf h h) (constant S_ .f32 0x00000000#32) reducesTo_S100000x128_S100000_d1 h_S_))

/-- Every row divided by its length (at least 1e-12). -/
def unitRows (h : FVec F S100000x128 .f32) : FVec F S100000x128 .f32 :=
  Host.divf h (colB (maximumf (rowNorm h) (broadcastInDim S100000x1 ![] bcast_S_S100000x1 (constant S_ .f32 0x2B8CBCCC#32))))

/-- Rows times the 128 × 40 matrix plus the bias row. -/
def project2 (f : FVec F S100000x128 .f32) (W : FVec F S128x40 .f32) (b2 : FVec F S1x40 .f32) : FVec F S100000x40 .f32 :=
  addf (Host.dotGeneral dot_S100000x128_S128x40_S100000x40_1_0_0_1_n_n none f W)
    (broadcastInDim S100000x40 ![0, 1] bcast_S1x40_S100000x40_0_1 b2)

/-- One layer, over the vectors. -/
def layer (h : FVec F S100000x128 .f32) (W : FVec F S128x128 .f32) (b g be : FVec F S128 .f32)
    (es ed : IVec S1600000 32) : FVec F S100000x128 .f32 :=
  bnReluH (scaleShift2 (aggregate (linScale2 h W (col1 (invSqrtDeg es))) es ed) (col1 (invSqrtDeg ed)) (row1 b)) g be

/-- The unit feature rows after two layers. -/
def feat (x : FVec F S100000x128 .f32) (es ed : IVec S1600000 32) (W1 : FVec F S128x128 .f32) (b1 g1 be1 : FVec F S128 .f32)
    (W2 : FVec F S128x128 .f32) (b2 g2 be2 : FVec F S128 .f32) : FVec F S100000x128 .f32 :=
  unitRows (layer (layer x W1 b1 g1 be1 es ed) W2 b2 g2 be2 es ed)

/-- The class scores. -/
def scores (x : FVec F S100000x128 .f32) (es ed : IVec S1600000 32) (W1 : FVec F S128x128 .f32) (b1 g1 be1 : FVec F S128 .f32)
    (W2 : FVec F S128x128 .f32) (b2 g2 be2 : FVec F S128 .f32) (Wout : FVec F S128x40 .f32) (bout : FVec F S40 .f32) :
    FVec F S100000x40 .f32 :=
  project2 (feat x es ed W1 b1 g1 be1 W2 b2 g2 be2) Wout (broadcastInDim S1x40 ![1] bcast_S40_S1x40_1 bout)

end Cert.Gcn

end
-- ==== Proof.KernelRun.lean ====
/-
  The idealized kernel program's run with its two results named.

  Every weakly fair execution of the program terminates without a fault; each unscoped buffer then holds the
  last boundary's contents `W21` (the fold of the host stretches and the seven regions' write-backs over the
  launch memory). Read at the two result buffers and at the thirteen argument buffers this is the run the value
  claim needs: the results at `W21`, the arguments as launched.
-/
import proofs.«142040_j24154896073101_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the class scores and the unit feature rows end at the last boundary's contents, the arguments as launched. -/
theorem run : θ_run defs (onTc (τ := τ) (main (F := F))) ⟨m, fun _ => 0, ρ⟩ (fun r => ∀ c : Dev nD,
      r.2.mem ((c.tc : Thread nD τ).loc main_v58_1) = W21 m ρ c (Proc.devRef .tc main_v58_1)
      ∧ r.2.mem ((c.tc : Thread nD τ).loc main_v58_0) = W21 m ρ c (Proc.devRef .tc main_v58_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v58_1 (by decide)),
       h c _ (mem_uc main_v58_0 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c)⟩)

end Cert.KernelIdeal.Out

end
-- ==== Proof.LibRowCol.lean ====
/-
  Vectors as one-row and one-column matrices.

  A vector of length `a` becomes a `1 × a` row or an `a × 1` column either by a reshape (the row-major order is
  unchanged) or by a `broadcast_in_dim` that maps the vector's axis to the matrix's long axis; the two arrays are
  equal, entry by entry. Also: a pointwise function commutes with such a placement.
-/
import Idealize.ShloMosaic.Lib.ValueIdx
import Idealize.ShloMosaic.Lib.ValueLayout
import Idealize.ShloMosaic.Lib.Pipeline.Value

namespace Idealize.ShloMosaic.RowCol

open Idealize.ShloMosaic ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The vector's axis sent to axis 0 of `[a, 1]`: the entry at `(i, u)` is the operand's at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun d => by
    match d with
    | ⟨0, _⟩ =>
      show i.val = if a = 1 then 0 else i.val
      split
      · omega
      · rfl)

/-- The vector's axis sent to axis 1 of `[1, a]`: the entry at `(u, i)` is the operand's at `i`. -/
theorem broadcastInDim_a_1a_apply {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun d => by
    match d with
    | ⟨0, _⟩ =>
      show i.val = if a = 1 then 0 else i.val
      split
      · omega
      · rfl)

/-- A reshape of a vector to a column is the placement of its axis on axis 0. -/
theorem reshape_col {a : ℕ} (x : (⟨1, ![a]⟩ : Shape).Idx → α) (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨i, u, rfl⟩ : ∃ (i : Fin a) (u : Fin 1), j = ix2 i u := ⟨j 0, j 1, eq_ix2 j⟩
  rw [shapeCast_a_a1_apply, broadcastInDim_a_a1_apply]

/-- A reshape of a vector to a row is the placement of its axis on axis 1. -/
theorem reshape_row {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply, broadcastInDim_a_1a_apply]

end Idealize.ShloMosaic.RowCol
-- ==== Proof.HostStretches.lean ====
/-
  The host stretches of the kernel program between its regions, read from any contents of the buffers.

  Before the first region the two degree scalings are computed (and reshaped to columns); before each
  aggregation's region the scaled rows are gathered along the edges and scatter-added, and the bias is reshaped
  to a row; before each normalisation's region the column means and variances are computed as rows and the
  gain and the shift reshaped to rows; before the last region the class bias is reshaped to a row. Each buffer
  a region reads is stated as the whole-array function of the buffers the stretch reads. A reshape of a vector
  to a row or a column is the placement of its axis on the matrix's long axis.
-/
import proofs.«142040_j24154896073101_1_alg».proof.Proof.Gen.KernelIdeal.Frame
import proofs.«142040_j24154896073101_1_alg».proof.Proof.Spec
import proofs.«142040_j24154896073101_1_alg».proof.Proof.LibRowCol
import Idealize.ShloMosaic.Lib.StableHlo.Run

set_option maxRecDepth 16384

noncomputable section
namespace Cert.KernelIdeal.Stretch
open Cert.KernelIdeal Cert.KernelIdeal.Gen
open Idealize.ShloMosaic Idealize.ShloMosaic.TcCoe Idealize.SL.Sem Idealize.ShloMosaic.StableHlo

variable [Cert.KernelIdeal.Facts] [Cert.ReferenceIdeal.Facts]
variable {F : FTy → Type} [FloatOps F]

open Cert.Gcn Idealize.ShloMosaic.RowCol

attribute [local irreducible] Host.reduceAdd Host.scatterAdd Host.gather Host.powf

variable (V : Valuation τ sig (Elt F))

/-! ## Before region 0: the degree scalings as columns -/

theorem st0_v10 :
    after hostOps0_4 (after hostOps0_3 (after hostOps0_2 (after hostOps0_1 (after hostOps0 V)))) (Proc.devRef .tc main_v10)
      = invSqrtDeg (F := F) (V (Proc.devRef .tc main_arg1)) := by
  simp only [hostOps0, hostOps0_1, hostOps0_2, hostOps0_3, hostOps0_4]
  after_results_simp
  rfl

theorem st0_v13 :
    after hostOps0_4 (after hostOps0_3 (after hostOps0_2 (after hostOps0_1 (after hostOps0 V)))) (Proc.devRef .tc main_v13)
      = invSqrtDeg (F := F) (V (Proc.devRef .tc main_arg2)) := by
  simp only [hostOps0, hostOps0_1, hostOps0_2, hostOps0_3, hostOps0_4]
  after_results_simp
  rfl

/-- The last stretch reshapes the out-degree scaling to a column. -/
theorem st04_v11 (U : Valuation τ sig (Elt F)) :
    after hostOps0_4 U (Proc.devRef .tc main_v11) = col1 (F := F) (after hostOps0_4 U (Proc.devRef .tc main_v10)) := by
  simp only [hostOps0_4]
  after_results_simp
  exact reshape_col _ _ _

/-- The last stretch reshapes the in-degree scaling to a column. -/
theorem st04_v14 (U : Valuation τ sig (Elt F)) :
    after hostOps0_4 U (Proc.devRef .tc main_v14) = col1 (F := F) (after hostOps0_4 U (Proc.devRef .tc main_v13)) := by
  simp only [hostOps0_4]
  after_results_simp
  exact reshape_col _ _ _

theorem st0_v11 :
    after hostOps0_4 (after hostOps0_3 (after hostOps0_2 (after hostOps0_1 (after hostOps0 V)))) (Proc.devRef .tc main_v11)
      = col1 (invSqrtDeg (F := F) (V (Proc.devRef .tc main_arg1))) :=
  (st04_v11 _).trans (congrArg (col1 (F := F)) (st0_v10 V))

theorem st0_v14 :
    after hostOps0_4 (after hostOps0_3 (after hostOps0_2 (after hostOps0_1 (after hostOps0 V)))) (Proc.devRef .tc main_v14)
      = col1 (invSqrtDeg (F := F) (V (Proc.devRef .tc main_arg2))) :=
  (st04_v14 _).trans (congrArg (col1 (F := F)) (st0_v13 V))

/-! ## Before region 1 -/

theorem st1_v25 : after hostOps1 V (Proc.devRef .tc main_v25)
    = aggregate (F := F) (V (Proc.devRef .tc main_v15)) (V (Proc.devRef .tc main_arg1)) (V (Proc.devRef .tc main_arg2)) := by
  simp only [hostOps1]
  after_results_simp
  rfl

theorem st1_v26 : after hostOps1 V (Proc.devRef .tc main_v26) = row1 (F := F) (V (Proc.devRef .tc main_arg4)) := by
  simp only [hostOps1]
  after_results_simp
  exact reshape_row _ _ _

/-! ## Before region 2 -/

theorem st2_v31 : after hostOps2_2 (after hostOps2_1 (after hostOps2 V)) (Proc.devRef .tc main_v31) = mean2 (F := F) (V (Proc.devRef .tc main_v27)) := by
  simp only [hostOps2, hostOps2_1, hostOps2_2]
  after_results_simp
  rfl

set_option maxRecDepth 8192 in
set_option maxHeartbeats 2000000 in
theorem st2_v32 : after hostOps2_2 (after hostOps2_1 (after hostOps2 V)) (Proc.devRef .tc main_v32) = var2 (F := F) (V (Proc.devRef .tc main_v27)) := by
  simp only [hostOps2, hostOps2_1, hostOps2_2]
  after_results_simp
  rfl

theorem st2_v33 : after hostOps2_2 (after hostOps2_1 (after hostOps2 V)) (Proc.devRef .tc main_v33) = row1 (F := F) (V (Proc.devRef .tc main_arg5)) := by
  simp only [hostOps2, hostOps2_1, hostOps2_2]
  after_results_simp
  exact reshape_row _ _ _

theorem st2_v34 : after hostOps2_2 (after hostOps2_1 (after hostOps2 V)) (Proc.devRef .tc main_v34) = row1 (F := F) (V (Proc.devRef .tc main_arg6)) := by
  simp only [hostOps2, hostOps2_1, hostOps2_2]
  after_results_simp
  exact reshape_row _ _ _

/-! ## Before region 4 -/

theorem st4_v46 : after hostOps4 V (Proc.devRef .tc main_v46)
    = aggregate (F := F) (V (Proc.devRef .tc main_v36)) (V (Proc.devRef .tc main_arg1)) (V (Proc.devRef .tc main_arg2)) := by
  simp only [hostOps4]
  after_results_simp
  rfl

theorem st4_v47 : after hostOps4 V (Proc.devRef .tc main_v47) = row1 (F := F) (V (Proc.devRef .tc main_arg8)) := by
  simp only [hostOps4]
  after_results_simp
  exact reshape_row _ _ _

/-! ## Before region 5 -/

theorem st5_v52 : after hostOps5_2 (after hostOps5_1 (after hostOps5 V)) (Proc.devRef .tc main_v52) = mean2 (F := F) (V (Proc.devRef .tc main_v48)) := by
  simp only [hostOps5, hostOps5_1, hostOps5_2]
  after_results_simp
  rfl

set_option maxRecDepth 8192 in
set_option maxHeartbeats 2000000 in
theorem st5_v53 : after hostOps5_2 (after hostOps5_1 (after hostOps5 V)) (Proc.devRef .tc main_v53) = var2 (F := F) (V (Proc.devRef .tc main_v48)) := by
  simp only [hostOps5, hostOps5_1, hostOps5_2]
  after_results_simp
  rfl

theorem st5_v54 : after hostOps5_2 (after hostOps5_1 (after hostOps5 V)) (Proc.devRef .tc main_v54) = row1 (F := F) (V (Proc.devRef .tc main_arg9)) := by
  simp only [hostOps5, hostOps5_1, hostOps5_2]
  after_results_simp
  exact reshape_row _ _ _

theorem st5_v55 : after hostOps5_2 (after hostOps5_1 (after hostOps5 V)) (Proc.devRef .tc main_v55) = row1 (F := F) (V (Proc.devRef .tc main_arg10)) := by
  simp only [hostOps5, hostOps5_1, hostOps5_2]
  after_results_simp
  exact reshape_row _ _ _

/-! ## Before region 6 -/

theorem st6_v57 : after hostOps6 V (Proc.devRef .tc main_v57)
    = broadcastInDim Cert.ReferenceIdeal.S1x40 ![1] Cert.ReferenceIdeal.Facts₀.bcast_S40_S1x40_1 (V (Proc.devRef .tc main_arg12)) := by
  simp only [hostOps6]
  after_results_simp
  exact reshape_row _ _ _

end Cert.KernelIdeal.Stretch
end
-- ==== Proof.ChainKeep.lean ====
/-
  Buffers that keep their contents along the kernel program's run.

  A buffer that a host stretch does not write and that is not one of a region's arrays holds after it what it
  held before; an input window's array is unchanged by its region. Chased back from each boundary where a
  stretch or a region reads it, every argument is at its launch contents and the two degree-scaling columns
  are what the first stretches computed.
-/
import proofs.«142040_j24154896073101_1_alg».proof.Proof.Gen.KernelIdeal.Frame
import proofs.«142040_j24154896073101_1_alg».proof.Proof.Spec
import proofs.«142040_j24154896073101_1_alg».proof.Proof.HostStretches

set_option maxRecDepth 16384

noncomputable section
namespace Cert.KernelIdeal.Keep
open Cert.KernelIdeal Cert.KernelIdeal.Gen Cert.KernelIdeal.Stretch Cert.Gcn
open Idealize.ShloMosaic Idealize.ShloMosaic.TcCoe Idealize.SL.Sem Idealize.ShloMosaic.StableHlo

variable [Cert.KernelIdeal.Facts] [Cert.ReferenceIdeal.Facts]
variable (m : (ℓ : Loc nD τ sig) → Buf (Elt Ideal) ℓ) (ρ : Dev nD → PrngReg) (c : Dev nD)

attribute [local irreducible] Host.reduceAdd Host.scatterAdd Host.gather Host.powf

set_option hygiene false in
/-- One step back through a host stretch that does not write the buffer. -/
local macro "host_back" : tactic => `(tactic| (
  refine (StableHlo.after_of_forall_not_mem _ _ (List.forall_iff_forall_mem.mp (by
    simp only [hostOps0, hostOps0_1, hostOps0_2, hostOps0_3, hostOps0_4, hostOps1, hostOps2, hostOps2_1, hostOps2_2, hostOps4, hostOps5, hostOps5_1, hostOps5_2, hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_))

set_option hygiene false in
/-- One step back through a stretch that does not write the buffer or a region that does not own it. -/
local macro "back" : tactic => `(tactic| first
  | host_back
  | refine (W6_of_ne m ρ c _ (by decide)).trans ?_
  | refine (W8_of_ne m ρ c _ (by decide)).trans ?_
  | refine (W12_of_ne m ρ c _ (by decide)).trans ?_
  | refine (W13_of_ne m ρ c _ (by decide)).trans ?_
  | refine (W15_of_ne m ρ c _ (by decide)).trans ?_
  | refine (W19_of_ne m ρ c _ (by decide)).trans ?_
  | refine (W21_of_ne m ρ c _ (by decide)).trans ?_)

/-! ## Up to region 0 -/

theorem W5_arg0 : W5 m ρ c (Proc.devRef .tc main_arg0) = (m ((c : Thread nD τ).loc main_arg0)) := by
  repeat back
  rfl

theorem W5_arg3 : W5 m ρ c (Proc.devRef .tc main_arg3) = (m ((c : Thread nD τ).loc main_arg3)) := by
  repeat back
  rfl

theorem W5_v11 : W5 m ρ c (Proc.devRef .tc main_v11) = (col1 (invSqrtDeg (F := Ideal) (m ((c : Thread nD τ).loc main_arg1)))) := st0_v11 (W0 m ρ c)
theorem W5_v14 : W5 m ρ c (Proc.devRef .tc main_v14) = (col1 (invSqrtDeg (F := Ideal) (m ((c : Thread nD τ).loc main_arg2)))) := st0_v14 (W0 m ρ c)

/-! ## After region 0 -/

theorem W6_arg1 : W6 m ρ c (Proc.devRef .tc main_arg1) = (m ((c : Thread nD τ).loc main_arg1)) := by
  repeat back
  rfl

theorem W6_arg2 : W6 m ρ c (Proc.devRef .tc main_arg2) = (m ((c : Thread nD τ).loc main_arg2)) := by
  repeat back
  rfl

theorem W6_arg4 : W6 m ρ c (Proc.devRef .tc main_arg4) = (m ((c : Thread nD τ).loc main_arg4)) := by
  repeat back
  rfl

theorem W6_v14 : W6 m ρ c (Proc.devRef .tc main_v14) = (col1 (invSqrtDeg (F := Ideal) (m ((c : Thread nD τ).loc main_arg2)))) := (W6_of_ne m ρ c _ (by decide)).trans (W5_v14 m ρ c)
theorem W6_v11 : W6 m ρ c (Proc.devRef .tc main_v11) = (col1 (invSqrtDeg (F := Ideal) (m ((c : Thread nD τ).loc main_arg1)))) :=
  (W6_arr m ρ c 2).trans (((dat0 (V5 m ρ) c).arrAt_in 2 rfl _).trans ((A_eq0 (V5 m ρ) c 2).trans (W5_v11 m ρ c)))
theorem W7_v14 : W7 m ρ c (Proc.devRef .tc main_v14) = (col1 (invSqrtDeg (F := Ideal) (m ((c : Thread nD τ).loc main_arg2)))) := by
  host_back
  exact W6_v14 m ρ c

/-! ## After region 1 -/

theorem W8_arg5 : W8 m ρ c (Proc.devRef .tc main_arg5) = (m ((c : Thread nD τ).loc main_arg5)) := by
  repeat back
  rfl

theorem W8_arg6 : W8 m ρ c (Proc.devRef .tc main_arg6) = (m ((c : Thread nD τ).loc main_arg6)) := by
  repeat back
  rfl

/-! ## After region 2 -/

theorem W12_arg7 : W12 m ρ c (Proc.devRef .tc main_arg7) = (m ((c : Thread nD τ).loc main_arg7)) := by
  repeat back
  rfl

theorem W12_v11 : W12 m ρ c (Proc.devRef .tc main_v11) = (col1 (invSqrtDeg (F := Ideal) (m ((c : Thread nD τ).loc main_arg1)))) := by
  repeat back
  exact W6_v11 m ρ c

/-! ## After region 3 -/

theorem W13_arg1 : W13 m ρ c (Proc.devRef .tc main_arg1) = (m ((c : Thread nD τ).loc main_arg1)) := by
  repeat back
  rfl

theorem W13_arg2 : W13 m ρ c (Proc.devRef .tc main_arg2) = (m ((c : Thread nD τ).loc main_arg2)) := by
  repeat back
  rfl

theorem W13_arg8 : W13 m ρ c (Proc.devRef .tc main_arg8) = (m ((c : Thread nD τ).loc main_arg8)) := by
  repeat back
  rfl

theorem W13_v14 : W13 m ρ c (Proc.devRef .tc main_v14) = (col1 (invSqrtDeg (F := Ideal) (m ((c : Thread nD τ).loc main_arg2)))) := by
  repeat back
  exact (W8_arr m ρ c 1).trans (((dat1 (V7 m ρ) c).arrAt_in 1 rfl _).trans ((A_eq1 (V7 m ρ) c 1).trans (W7_v14 m ρ c)))
theorem W14_v14 : W14 m ρ c (Proc.devRef .tc main_v14) = (col1 (invSqrtDeg (F := Ideal) (m ((c : Thread nD τ).loc main_arg2)))) := by
  host_back
  exact W13_v14 m ρ c

/-! ## After region 4 -/

theorem W15_arg9 : W15 m ρ c (Proc.devRef .tc main_arg9) = (m ((c : Thread nD τ).loc main_arg9)) := by
  repeat back
  rfl

theorem W15_arg10 : W15 m ρ c (Proc.devRef .tc main_arg10) = (m ((c : Thread nD τ).loc main_arg10)) := by
  repeat back
  rfl

/-! ## After region 5 -/

theorem W19_arg12 : W19 m ρ c (Proc.devRef .tc main_arg12) = (m ((c : Thread nD τ).loc main_arg12)) := by
  repeat back
  rfl

theorem W20_arg11 : W20 m ρ c (Proc.devRef .tc main_arg11) = (m ((c : Thread nD τ).loc main_arg11)) := by
  repeat back
  rfl

end Cert.KernelIdeal.Keep
end
-- ==== Proof.Chain.lean ====
/-
  The buffer contents of the kernel program at its region boundaries, as whole-array functions of the launch
  contents of the thirteen arguments.

  Going through the program: the two degree scalings (columns); region 0 multiplies the rows by the first weight
  matrix and scales them; the host sums them over the edges; region 1 scales by the in-degree and adds the bias;
  the host takes column means and variances; region 2 normalises: together the first layer. Regions 3, 4, 5 are
  the second layer the same way, and region 6 makes the unit rows and the class scores. A buffer a stretch does
  not write and a region does not own keeps its contents; an input window's array is unchanged by its region.
  What each region leaves in its output array is a hypothesis here (`F0` … `F6o`), proved in the modules about
  the regions; `BN` says the row form of the normalisation is its vector form.
-/
import proofs.«142040_j24154896073101_1_alg».proof.Proof.Gen.KernelIdeal.Frame
import proofs.«142040_j24154896073101_1_alg».proof.Proof.Spec
import proofs.«142040_j24154896073101_1_alg».proof.Proof.HostStretches
import proofs.«142040_j24154896073101_1_alg».proof.Proof.ChainKeep

set_option maxRecDepth 16384

noncomputable section
namespace Cert.KernelIdeal.Chain
open Cert.KernelIdeal Cert.KernelIdeal.Gen Cert.KernelIdeal.Stretch Cert.KernelIdeal.Keep Cert.Gcn
open Idealize.ShloMosaic Idealize.ShloMosaic.TcCoe Idealize.SL.Sem Idealize.ShloMosaic.StableHlo

variable [Cert.KernelIdeal.Facts] [Cert.ReferenceIdeal.Facts]
variable (m : (ℓ : Loc nD τ sig) → Buf (Elt Ideal) ℓ) (ρ : Dev nD → PrngReg) (c : Dev nD)

attribute [local irreducible] Host.reduceAdd Host.scatterAdd Host.gather Host.powf

set_option hygiene false in
/-- One step back through a host stretch that does not write the buffer. -/
local macro "host_back" : tactic => `(tactic| (
  refine (StableHlo.after_of_forall_not_mem _ _ (List.forall_iff_forall_mem.mp (by
    simp only [hostOps0, hostOps0_1, hostOps0_2, hostOps0_3, hostOps0_4, hostOps1, hostOps2, hostOps2_1, hostOps2_2, hostOps4, hostOps5, hostOps5_1, hostOps5_2, hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_))

set_option hygiene false in
/-- One step back through a stretch that does not write the buffer or a region that does not own it. -/
local macro "back" : tactic => `(tactic| first
  | host_back
  | refine (W6_of_ne m ρ c _ (by decide)).trans ?_
  | refine (W8_of_ne m ρ c _ (by decide)).trans ?_
  | refine (W12_of_ne m ρ c _ (by decide)).trans ?_
  | refine (W13_of_ne m ρ c _ (by decide)).trans ?_
  | refine (W15_of_ne m ρ c _ (by decide)).trans ?_
  | refine (W19_of_ne m ρ c _ (by decide)).trans ?_
  | refine (W21_of_ne m ρ c _ (by decide)).trans ?_)

/-! ## The regions' results, assumed here -/

set_option maxHeartbeats 4000000 in
/-- What each region leaves in its output array, as the stage's function of its input arrays as the region finds
    them (`F0` … `F6o`), and the row form of the normalisation against its vector form (`BN`). -/
structure RegionResults : Prop where
  F0 : ∀ (V : (c : Dev nD) → (b : Ref sig .tc) → Buf (Elt Ideal) ((c : Thread nD τ).loc b)) (c : Dev nD), (dat0 (F := Ideal) V c).arrAt 3 cfg0.N = linScale2 (F := Ideal) (V c (Pipeline.arrRef spec0 0)) (V c (Pipeline.arrRef spec0 1)) (V c (Pipeline.arrRef spec0 2))
  F1 : ∀ (V : (c : Dev nD) → (b : Ref sig .tc) → Buf (Elt Ideal) ((c : Thread nD τ).loc b)) (c : Dev nD), (dat1 (F := Ideal) V c).arrAt 3 cfg1.N = scaleShift2 (F := Ideal) (V c (Pipeline.arrRef spec1 0)) (V c (Pipeline.arrRef spec1 1)) (V c (Pipeline.arrRef spec1 2))
  F2 : ∀ (V : (c : Dev nD) → (b : Ref sig .tc) → Buf (Elt Ideal) ((c : Thread nD τ).loc b)) (c : Dev nD), (dat2 (F := Ideal) V c).arrAt 5 cfg2.N = bnRelu2 (F := Ideal) (V c (Pipeline.arrRef spec2 0)) (V c (Pipeline.arrRef spec2 1)) (V c (Pipeline.arrRef spec2 2)) (V c (Pipeline.arrRef spec2 3)) (V c (Pipeline.arrRef spec2 4))
  F3 : ∀ (V : (c : Dev nD) → (b : Ref sig .tc) → Buf (Elt Ideal) ((c : Thread nD τ).loc b)) (c : Dev nD), (dat3 (F := Ideal) V c).arrAt 3 cfg3.N = linScale2 (F := Ideal) (V c (Pipeline.arrRef spec3 0)) (V c (Pipeline.arrRef spec3 1)) (V c (Pipeline.arrRef spec3 2))
  F4 : ∀ (V : (c : Dev nD) → (b : Ref sig .tc) → Buf (Elt Ideal) ((c : Thread nD τ).loc b)) (c : Dev nD), (dat4 (F := Ideal) V c).arrAt 3 cfg4.N = scaleShift2 (F := Ideal) (V c (Pipeline.arrRef spec4 0)) (V c (Pipeline.arrRef spec4 1)) (V c (Pipeline.arrRef spec4 2))
  F5 : ∀ (V : (c : Dev nD) → (b : Ref sig .tc) → Buf (Elt Ideal) ((c : Thread nD τ).loc b)) (c : Dev nD), (dat5 (F := Ideal) V c).arrAt 5 cfg5.N = bnRelu2 (F := Ideal) (V c (Pipeline.arrRef spec5 0)) (V c (Pipeline.arrRef spec5 1)) (V c (Pipeline.arrRef spec5 2)) (V c (Pipeline.arrRef spec5 3)) (V c (Pipeline.arrRef spec5 4))
  F6f : ∀ (V : (c : Dev nD) → (b : Ref sig .tc) → Buf (Elt Ideal) ((c : Thread nD τ).loc b)) (c : Dev nD), (dat6 (F := Ideal) V c).arrAt 3 cfg6.N = unitRows (F := Ideal) (V c (Pipeline.arrRef spec6 0))
  F6o : ∀ (V : (c : Dev nD) → (b : Ref sig .tc) → Buf (Elt Ideal) ((c : Thread nD τ).loc b)) (c : Dev nD), (dat6 (F := Ideal) V c).arrAt 4 cfg6.N = project2 (F := Ideal) (unitRows (F := Ideal) (V c (Pipeline.arrRef spec6 0))) (V c (Pipeline.arrRef spec6 1)) (V c (Pipeline.arrRef spec6 2))
  BN : ∀ (h : FVec Ideal Cert.ReferenceIdeal.S100000x128 .f32) (g be : FVec Ideal Cert.ReferenceIdeal.S128 .f32), bnRelu2 (F := Ideal) h (mean2 h) (var2 h) (row1 g) (row1 be) = bnReluH (F := Ideal) h g be

variable (H : RegionResults)
include H

/-! ## Layer 1 -/

theorem W6_v15 : W6 m ρ c (Proc.devRef .tc main_v15) = (linScale2 (F := Ideal) (m ((c : Thread nD τ).loc main_arg0)) (m ((c : Thread nD τ).loc main_arg3)) (col1 (invSqrtDeg (F := Ideal) (m ((c : Thread nD τ).loc main_arg1))))) := by
  refine ((W6_arr m ρ c 3).trans (H.F0 (V5 m ρ) c)).trans ?_
  show linScale2 (F := Ideal) (W5 m ρ c (Proc.devRef .tc main_arg0)) (W5 m ρ c (Proc.devRef .tc main_arg3)) (W5 m ρ c (Proc.devRef .tc main_v11)) = _
  rw [W5_arg0, W5_arg3, W5_v11]

theorem W7_v25 : W7 m ρ c (Proc.devRef .tc main_v25) = aggregate (F := Ideal) (linScale2 (F := Ideal) (m ((c : Thread nD τ).loc main_arg0)) (m ((c : Thread nD τ).loc main_arg3)) (col1 (invSqrtDeg (F := Ideal) (m ((c : Thread nD τ).loc main_arg1))))) (m ((c : Thread nD τ).loc main_arg1)) (m ((c : Thread nD τ).loc main_arg2)) := by
  refine (st1_v25 (W6 m ρ c)).trans ?_
  rw [W6_v15 m ρ c H, W6_arg1, W6_arg2]

theorem W7_v26 : W7 m ρ c (Proc.devRef .tc main_v26) = row1 (F := Ideal) (m ((c : Thread nD τ).loc main_arg4)) := by
  refine (st1_v26 (W6 m ρ c)).trans ?_
  rw [W6_arg4]

theorem W8_v27 : W8 m ρ c (Proc.devRef .tc main_v27) = (scaleShift2 (F := Ideal) (aggregate (linScale2 (F := Ideal) (m ((c : Thread nD τ).loc main_arg0)) (m ((c : Thread nD τ).loc main_arg3)) (col1 (invSqrtDeg (F := Ideal) (m ((c : Thread nD τ).loc main_arg1))))) (m ((c : Thread nD τ).loc main_arg1)) (m ((c : Thread nD τ).loc main_arg2))) (col1 (invSqrtDeg (F := Ideal) (m ((c : Thread nD τ).loc main_arg2)))) (row1 (m ((c : Thread nD τ).loc main_arg4)))) := by
  refine ((W8_arr m ρ c 3).trans (H.F1 (V7 m ρ) c)).trans ?_
  show scaleShift2 (F := Ideal) (W7 m ρ c (Proc.devRef .tc main_v25)) (W7 m ρ c (Proc.devRef .tc main_v14)) (W7 m ρ c (Proc.devRef .tc main_v26)) = _
  rw [W7_v25 m ρ c H, W7_v14, W7_v26 m ρ c H]

theorem W11_v27 : W11 m ρ c (Proc.devRef .tc main_v27) = (scaleShift2 (F := Ideal) (aggregate (linScale2 (F := Ideal) (m ((c : Thread nD τ).loc main_arg0)) (m ((c : Thread nD τ).loc main_arg3)) (col1 (invSqrtDeg (F := Ideal) (m ((c : Thread nD τ).loc main_arg1))))) (m ((c : Thread nD τ).loc main_arg1)) (m ((c : Thread nD τ).loc main_arg2))) (col1 (invSqrtDeg (F := Ideal) (m ((c : Thread nD τ).loc main_arg2)))) (row1 (m ((c : Thread nD τ).loc main_arg4)))) := by
  host_back; host_back; host_back
  exact W8_v27 m ρ c H

theorem W11_v31 : W11 m ρ c (Proc.devRef .tc main_v31) = mean2 (F := Ideal) (scaleShift2 (F := Ideal) (aggregate (linScale2 (F := Ideal) (m ((c : Thread nD τ).loc main_arg0)) (m ((c : Thread nD τ).loc main_arg3)) (col1 (invSqrtDeg (F := Ideal) (m ((c : Thread nD τ).loc main_arg1))))) (m ((c : Thread nD τ).loc main_arg1)) (m ((c : Thread nD τ).loc main_arg2))) (col1 (invSqrtDeg (F := Ideal) (m ((c : Thread nD τ).loc main_arg2)))) (row1 (m ((c : Thread nD τ).loc main_arg4)))) := by
  refine (st2_v31 (W8 m ρ c)).trans ?_
  rw [W8_v27 m ρ c H]

theorem W11_v32 : W11 m ρ c (Proc.devRef .tc main_v32) = var2 (F := Ideal) (scaleShift2 (F := Ideal) (aggregate (linScale2 (F := Ideal) (m ((c : Thread nD τ).loc main_arg0)) (m ((c : Thread nD τ).loc main_arg3)) (col1 (invSqrtDeg (F := Ideal) (m ((c : Thread nD τ).loc main_arg1))))) (m ((c : Thread nD τ).loc main_arg1)) (m ((c : Thread nD τ).loc main_arg2))) (col1 (invSqrtDeg (F := Ideal) (m ((c : Thread nD τ).loc main_arg2)))) (row1 (m ((c : Thread nD τ).loc main_arg4)))) := by
  refine (st2_v32 (W8 m ρ c)).trans ?_
  rw [W8_v27 m ρ c H]

theorem W11_v33 : W11 m ρ c (Proc.devRef .tc main_v33) = row1 (F := Ideal) (m ((c : Thread nD τ).loc main_arg5)) := by
  refine (st2_v33 (W8 m ρ c)).trans ?_
  rw [W8_arg5]

theorem W11_v34 : W11 m ρ c (Proc.devRef .tc main_v34) = row1 (F := Ideal) (m ((c : Thread nD τ).loc main_arg6)) := by
  refine (st2_v34 (W8 m ρ c)).trans ?_
  rw [W8_arg6]

theorem W12_v35 : W12 m ρ c (Proc.devRef .tc main_v35) = (layer (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) := by
  refine ((W12_arr m ρ c 5).trans (H.F2 (V11 m ρ) c)).trans ?_
  show bnRelu2 (F := Ideal) (W11 m ρ c (Proc.devRef .tc main_v27)) (W11 m ρ c (Proc.devRef .tc main_v31)) (W11 m ρ c (Proc.devRef .tc main_v32)) (W11 m ρ c (Proc.devRef .tc main_v33)) (W11 m ρ c (Proc.devRef .tc main_v34)) = _
  rw [W11_v27 m ρ c H, W11_v31 m ρ c H, W11_v32 m ρ c H,
    W11_v33 m ρ c H, W11_v34 m ρ c H, H.BN]
  rfl

/-! ## Layer 2 -/

theorem W13_v36 : W13 m ρ c (Proc.devRef .tc main_v36) = (linScale2 (F := Ideal) (layer (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (col1 (invSqrtDeg (F := Ideal) (m ((c : Thread nD τ).loc main_arg1))))) := by
  refine ((W13_arr m ρ c 3).trans (H.F3 (V12 m ρ) c)).trans ?_
  show linScale2 (F := Ideal) (W12 m ρ c (Proc.devRef .tc main_v35)) (W12 m ρ c (Proc.devRef .tc main_arg7)) (W12 m ρ c (Proc.devRef .tc main_v11)) = _
  rw [W12_v35 m ρ c H, W12_arg7, W12_v11]

theorem W14_v46 : W14 m ρ c (Proc.devRef .tc main_v46) = aggregate (F := Ideal) (linScale2 (F := Ideal) (layer (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (col1 (invSqrtDeg (F := Ideal) (m ((c : Thread nD τ).loc main_arg1))))) (m ((c : Thread nD τ).loc main_arg1)) (m ((c : Thread nD τ).loc main_arg2)) := by
  refine (st4_v46 (W13 m ρ c)).trans ?_
  rw [W13_v36 m ρ c H, W13_arg1, W13_arg2]

theorem W14_v47 : W14 m ρ c (Proc.devRef .tc main_v47) = row1 (F := Ideal) (m ((c : Thread nD τ).loc main_arg8)) := by
  refine (st4_v47 (W13 m ρ c)).trans ?_
  rw [W13_arg8]

theorem W15_v48 : W15 m ρ c (Proc.devRef .tc main_v48) = (scaleShift2 (F := Ideal) (aggregate (linScale2 (F := Ideal) (layer (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (col1 (invSqrtDeg (F := Ideal) (m ((c : Thread nD τ).loc main_arg1))))) (m ((c : Thread nD τ).loc main_arg1)) (m ((c : Thread nD τ).loc main_arg2))) (col1 (invSqrtDeg (F := Ideal) (m ((c : Thread nD τ).loc main_arg2)))) (row1 (m ((c : Thread nD τ).loc main_arg8)))) := by
  refine ((W15_arr m ρ c 3).trans (H.F4 (V14 m ρ) c)).trans ?_
  show scaleShift2 (F := Ideal) (W14 m ρ c (Proc.devRef .tc main_v46)) (W14 m ρ c (Proc.devRef .tc main_v14)) (W14 m ρ c (Proc.devRef .tc main_v47)) = _
  rw [W14_v46 m ρ c H, W14_v14, W14_v47 m ρ c H]

theorem W18_v48 : W18 m ρ c (Proc.devRef .tc main_v48) = (scaleShift2 (F := Ideal) (aggregate (linScale2 (F := Ideal) (layer (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (col1 (invSqrtDeg (F := Ideal) (m ((c : Thread nD τ).loc main_arg1))))) (m ((c : Thread nD τ).loc main_arg1)) (m ((c : Thread nD τ).loc main_arg2))) (col1 (invSqrtDeg (F := Ideal) (m ((c : Thread nD τ).loc main_arg2)))) (row1 (m ((c : Thread nD τ).loc main_arg8)))) := by
  host_back; host_back; host_back
  exact W15_v48 m ρ c H

theorem W18_v52 : W18 m ρ c (Proc.devRef .tc main_v52) = mean2 (F := Ideal) (scaleShift2 (F := Ideal) (aggregate (linScale2 (F := Ideal) (layer (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (col1 (invSqrtDeg (F := Ideal) (m ((c : Thread nD τ).loc main_arg1))))) (m ((c : Thread nD τ).loc main_arg1)) (m ((c : Thread nD τ).loc main_arg2))) (col1 (invSqrtDeg (F := Ideal) (m ((c : Thread nD τ).loc main_arg2)))) (row1 (m ((c : Thread nD τ).loc main_arg8)))) := by
  refine (st5_v52 (W15 m ρ c)).trans ?_
  rw [W15_v48 m ρ c H]

theorem W18_v53 : W18 m ρ c (Proc.devRef .tc main_v53) = var2 (F := Ideal) (scaleShift2 (F := Ideal) (aggregate (linScale2 (F := Ideal) (layer (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (col1 (invSqrtDeg (F := Ideal) (m ((c : Thread nD τ).loc main_arg1))))) (m ((c : Thread nD τ).loc main_arg1)) (m ((c : Thread nD τ).loc main_arg2))) (col1 (invSqrtDeg (F := Ideal) (m ((c : Thread nD τ).loc main_arg2)))) (row1 (m ((c : Thread nD τ).loc main_arg8)))) := by
  refine (st5_v53 (W15 m ρ c)).trans ?_
  rw [W15_v48 m ρ c H]

theorem W18_v54 : W18 m ρ c (Proc.devRef .tc main_v54) = row1 (F := Ideal) (m ((c : Thread nD τ).loc main_arg9)) := by
  refine (st5_v54 (W15 m ρ c)).trans ?_
  rw [W15_arg9]

theorem W18_v55 : W18 m ρ c (Proc.devRef .tc main_v55) = row1 (F := Ideal) (m ((c : Thread nD τ).loc main_arg10)) := by
  refine (st5_v55 (W15 m ρ c)).trans ?_
  rw [W15_arg10]

theorem W19_v56 : W19 m ρ c (Proc.devRef .tc main_v56) = (layer (F := Ideal) (layer (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (m ((c : Thread nD τ).loc main_arg8)) (m ((c : Thread nD τ).loc main_arg9)) (m ((c : Thread nD τ).loc main_arg10)) (m ((c : Thread nD τ).loc main_arg1)) (m ((c : Thread nD τ).loc main_arg2))) := by
  refine ((W19_arr m ρ c 5).trans (H.F5 (V18 m ρ) c)).trans ?_
  show bnRelu2 (F := Ideal) (W18 m ρ c (Proc.devRef .tc main_v48)) (W18 m ρ c (Proc.devRef .tc main_v52)) (W18 m ρ c (Proc.devRef .tc main_v53)) (W18 m ρ c (Proc.devRef .tc main_v54)) (W18 m ρ c (Proc.devRef .tc main_v55)) = _
  rw [W18_v48 m ρ c H, W18_v52 m ρ c H, W18_v53 m ρ c H,
    W18_v54 m ρ c H, W18_v55 m ρ c H, H.BN]
  rfl

/-! ## The unit rows and the class scores -/

theorem W20_v56 : W20 m ρ c (Proc.devRef .tc main_v56) = (layer (F := Ideal) (layer (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (m ((c : Thread nD τ).loc main_arg8)) (m ((c : Thread nD τ).loc main_arg9)) (m ((c : Thread nD τ).loc main_arg10)) (m ((c : Thread nD τ).loc main_arg1)) (m ((c : Thread nD τ).loc main_arg2))) := by
  host_back
  exact W19_v56 m ρ c H

theorem W20_v57 : W20 m ρ c (Proc.devRef .tc main_v57) = (broadcastInDim Cert.ReferenceIdeal.S1x40 ![1] Cert.ReferenceIdeal.Facts₀.bcast_S40_S1x40_1 (m ((c : Thread nD τ).loc main_arg12))) := by
  refine (st6_v57 (W19 m ρ c)).trans ?_
  rw [W19_arg12]

/-- The unit feature rows at the end of the run. -/
theorem W21_feat : W21 m ρ c (Proc.devRef .tc main_v58_0)
    = feat (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W21_arr m ρ c 3).trans (H.F6f (V20 m ρ) c)).trans ?_
  show unitRows (F := Ideal) (W20 m ρ c (Proc.devRef .tc main_v56)) = _
  rw [W20_v56 m ρ c H]
  rfl

/-- The class scores at the end of the run. -/
theorem W21_scores : W21 m ρ c (Proc.devRef .tc main_v58_1)
    = scores (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W21_arr m ρ c 4).trans (H.F6o (V20 m ρ) c)).trans ?_
  show project2 (F := Ideal) (unitRows (F := Ideal) (W20 m ρ c (Proc.devRef .tc main_v56))) (W20 m ρ c (Proc.devRef .tc main_arg11)) (W20 m ρ c (Proc.devRef .tc main_v57)) = _
  rw [W20_v56 m ρ c H, W20_arg11, W20_v57 m ρ c H]
  rfl

end Cert.KernelIdeal.Chain
end
-- ==== Proof.RowScale.lean ====
/-
  Two of the graph convolution's dense stages, block by block and as whole arrays.

  The node rows are cut into 50 blocks of 2000 consecutive rows; grid point t works on rows
  2000 t … 2000 t + 1999. Every row of a stage's result depends only on the same row of the row-blocked
  operands (and on all of the small resident operand), so the result assembled from the 50 blocks is the
  stage applied to the whole arrays:

  * "rows times a 128 × 128 matrix, row r scaled by entry r of a column": entry (r, j) is
    (∑ k, h(r, k) · W(k, j)) · s(r, 0). The change of float format before the product is the identity on
    the extended reals, and a product accumulated into a zero array is the plain product (0 + x = x).
  * "row r scaled by entry r of a column, plus a bias row": entry (r, j) is a(r, j) · s(r, 0) + b(0, j).

  Both sides of each statement are read at an index (r, j) to these formulas; no law of arithmetic beyond
  0 + x = x is used, so nothing here needs the entries to be finite.
-/
import proofs.«142040_j24154896073101_1_alg».proof.Proof.Gen.KernelIdeal.Frame
import proofs.«142040_j24154896073101_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

namespace Cert.Gcn.RowScale

open Idealize.ShloMosaic Idealize.ShloMosaic.ValueIdx Idealize.ShloMosaic.TcCoe Idealize.SL.Sem
open Idealize.ShloMosaic.Pipeline (Dat)
open Cert.KernelIdeal

/-! ## Columns and rows repeated, and the matrix product, read at an index -/

section Layout
variable {α : Type}

/-- An a × 1 column repeated along b columns reads, at (p, c), the column's entry p. -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same column repeated by the host's broadcast along axes (0, 1). -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Layout

section Product
variable {m k n : ℕ} {φ₁ φ₂ : FTy}

/-- The host's product of an m × k by a k × n matrix at (a, b): the sum over the contracted coordinate. -/
theorem hostDot_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    Host.dotGeneral D prec A B (ix2 a b) = ∑ c : Fin k, A (ix2 a c) * B (ix2 c b) := by
  subst hD
  exact StackMember.dotGeneral_plain_apply prec A B a b

/-- A block product accumulated into the zero array is the same sum. -/
theorem matmulZero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    matmul D prec A B (constant (F := Ideal) ⟨2, ![m, n]⟩ .f32 0x00000000#32) (ix2 a b)
      = ∑ c : Fin k, A (ix2 a c) * B (ix2 c b) := by
  rw [matmul_zero_eq_dotGeneral]
  exact hostDot_apply D hD prec A B a b

end Product

/-! ## The two stages of the specification at an index -/

section Spec
variable [Cert.ReferenceIdeal.Facts]

/-- Rows times the weight matrix, row r scaled by the column's entry r, at (r, j). -/
theorem linScale2_apply (h : FVec Ideal Cert.ReferenceIdeal.S100000x128 .f32) (W : FVec Ideal Cert.ReferenceIdeal.S128x128 .f32)
    (s2 : FVec Ideal Cert.ReferenceIdeal.S100000x1 .f32) (r : Fin 100000) (j : Fin 128) :
    Cert.Gcn.linScale2 (F := Ideal) h W s2 (ix2 r j)
      = (∑ k : Fin 128, h (ix2 r k) * W (ix2 k j)) * s2 (ix2 r (0 : Fin 1)) := by
  unfold Cert.Gcn.linScale2 Cert.Gcn.colB
  exact congrArg₂ (· * ·) (hostDot_apply _ rfl none h W r j) (broadcastInDim_col_apply _ s2 r j)

/-- Row r scaled by the column's entry r, plus the bias row, at (r, j). -/
theorem scaleShift2_apply (a : FVec Ideal Cert.ReferenceIdeal.S100000x128 .f32) (s2 : FVec Ideal Cert.ReferenceIdeal.S100000x1 .f32)
    (b2 : FVec Ideal Cert.ReferenceIdeal.S1x128 .f32) (r : Fin 100000) (j : Fin 128) :
    Cert.Gcn.scaleShift2 (F := Ideal) a s2 b2 (ix2 r j)
      = a (ix2 r j) * s2 (ix2 r (0 : Fin 1)) + b2 (ix2 (0 : Fin 1) j) := by
  unfold Cert.Gcn.scaleShift2 Cert.Gcn.colB Cert.Gcn.rowB
  exact congrArg₂ (· + ·) (congrArg (a (ix2 r j) * ·) (broadcastInDim_col_apply _ s2 r j))
    (broadcastInDim_oneRow_apply _ b2 r j)

end Spec

/-! ## The kernels' arithmetic at an index of a block -/

section Payload

/-- The first and fourth kernel's block: rows times the matrix, each row scaled. -/
theorem pay0_apply (x0 : Vec Ideal S2000x128 .f32) (x1 : Vec Ideal S128x128 .f32) (x2 : Vec Ideal S2000x1 .f32)
    (r : Fin 2000) (j : Fin 128) :
    Gen.k0_pay1 x0 x1 x2 (ix2 r j) = (∑ k : Fin 128, x0 (ix2 r k) * x1 (ix2 k j)) * x2 (ix2 r (0 : Fin 1)) := by
  unfold Gen.k0_pay1
  refine congrArg₂ (· * ·) ((matmulZero_apply _ rfl none _ _ r j).trans rfl) ?_
  refine (broadcastTo_col_apply _ _ r j).trans ?_
  rw [shapeCast_self]

theorem pay3_apply (x0 : Vec Ideal S2000x128 .f32) (x1 : Vec Ideal S128x128 .f32) (x2 : Vec Ideal S2000x1 .f32)
    (r : Fin 2000) (j : Fin 128) :
    Gen.k3_pay1 x0 x1 x2 (ix2 r j) = (∑ k : Fin 128, x0 (ix2 r k) * x1 (ix2 k j)) * x2 (ix2 r (0 : Fin 1)) := by
  unfold Gen.k3_pay1
  refine congrArg₂ (· * ·) ((matmulZero_apply _ rfl none _ _ r j).trans ?_) ?_
  · rw [shapeCast_self]; rfl
  · refine (broadcastTo_col_apply _ _ r j).trans ?_
    rw [shapeCast_self]

/-- The second and fifth kernel's block: each row scaled, plus the bias row. -/
theorem pay1_apply (x0 : Vec Ideal S2000x128 .f32) (x1 : Vec Ideal S2000x1 .f32) (x2 : Vec Ideal S1x128 .f32)
    (r : Fin 2000) (j : Fin 128) :
    Gen.k1_pay1 x0 x1 x2 (ix2 r j) = x0 (ix2 r j) * x1 (ix2 r (0 : Fin 1)) + x2 (ix2 (0 : Fin 1) j) := by
  unfold Gen.k1_pay1
  refine congrArg₂ (· + ·) (congrArg₂ (· * ·) ?_ ?_) ?_
  · rw [shapeCast_self]
  · refine (broadcastTo_col_apply _ _ r j).trans ?_
    rw [shapeCast_self]
  · refine (broadcastTo_1b_ab_apply _ _ r j).trans ?_
    rw [shapeCast_self]

theorem pay4_apply (x0 : Vec Ideal S2000x128 .f32) (x1 : Vec Ideal S2000x1 .f32) (x2 : Vec Ideal S1x128 .f32)
    (r : Fin 2000) (j : Fin 128) :
    Gen.k4_pay1 x0 x1 x2 (ix2 r j) = x0 (ix2 r j) * x1 (ix2 r (0 : Fin 1)) + x2 (ix2 (0 : Fin 1) j) := by
  unfold Gen.k4_pay1
  refine congrArg₂ (· + ·) (congrArg₂ (· * ·) ?_ ?_) ?_
  · rw [shapeCast_self]
  · refine (broadcastTo_col_apply _ _ r j).trans ?_
    rw [shapeCast_self]
  · refine (broadcastTo_1b_ab_apply _ _ r j).trans ?_
    rw [shapeCast_self]

end Payload

/-! ## From blocks to the array -/

theorem hz : (![0, 0] : Fin 2 → Nat) = fun _ => 0 := funext fun a => by fin_cases a <;> rfl

section Blocks
variable [Cert.ReferenceIdeal.Facts]

/-- One block of the scaled product: if the blocks are rows q·2000 … q·2000 + 1999 of the row-blocked
    arrays and the whole matrix, the kernel's entry (r, j) is the whole-array stage's entry (q·2000 + r, j). -/
theorem linScale_block (A0 : FVec Ideal Cert.ReferenceIdeal.S100000x128 .f32) (A1 : FVec Ideal Cert.ReferenceIdeal.S128x128 .f32)
    (A2 : FVec Ideal Cert.ReferenceIdeal.S100000x1 .f32)
    (x0 : Vec Ideal S2000x128 .f32) (x1 : Vec Ideal S128x128 .f32) (x2 : Vec Ideal S2000x1 .f32) (q : ℕ)
    (pay : Vec Ideal S2000x128 .f32)
    (hpay : ∀ (r : Fin 2000) (j : Fin 128),
      pay (ix2 r j) = (∑ k : Fin 128, x0 (ix2 r k) * x1 (ix2 k j)) * x2 (ix2 r (0 : Fin 1)))
    (h0 : ∀ (y : S2000x128.Idx) (i : S100000x128.Idx), (i 0).val = q * 2000 + (y 0).val → (i 1).val = (y 1).val → x0 y = A0 i)
    (h1 : x1 = A1)
    (h2 : ∀ (y : S2000x1.Idx) (i : S100000x1.Idx), (i 0).val = q * 2000 + (y 0).val → x2 y = A2 i)
    (y : S2000x128.Idx) (i : S100000x128.Idx) (hi0 : (i 0).val = q * 2000 + (y 0).val) (hi1 : (i 1).val = (y 1).val) :
    pay y = Cert.Gcn.linScale2 (F := Ideal) A0 A1 A2 i := by
  obtain ⟨r, j, rfl⟩ : ∃ (r : Fin 2000) (j : Fin 128), y = ix2 r j := ⟨y 0, y 1, eq_ix2 y⟩
  obtain ⟨r', j', rfl⟩ : ∃ (r' : Fin 100000) (j' : Fin 128), i = ix2 r' j' := ⟨i 0, i 1, eq_ix2 i⟩
  obtain rfl : j' = j := Fin.ext hi1
  rw [hpay, linScale2_apply, h1]
  refine congrArg₂ (· * ·) (Finset.sum_congr rfl fun k _ => ?_) (h2 _ _ hi0)
  rw [h0 (ix2 r k) (ix2 r' k) hi0 rfl]

/-- One block of the scaled rows plus the bias row, in the same way. -/
theorem scaleShift_block (A0 : FVec Ideal Cert.ReferenceIdeal.S100000x128 .f32) (A1 : FVec Ideal Cert.ReferenceIdeal.S100000x1 .f32)
    (A2 : FVec Ideal Cert.ReferenceIdeal.S1x128 .f32)
    (x0 : Vec Ideal S2000x128 .f32) (x1 : Vec Ideal S2000x1 .f32) (x2 : Vec Ideal S1x128 .f32) (q : ℕ)
    (pay : Vec Ideal S2000x128 .f32)
    (hpay : ∀ (r : Fin 2000) (j : Fin 128),
      pay (ix2 r j) = x0 (ix2 r j) * x1 (ix2 r (0 : Fin 1)) + x2 (ix2 (0 : Fin 1) j))
    (h0 : ∀ (y : S2000x128.Idx) (i : S100000x128.Idx), (i 0).val = q * 2000 + (y 0).val → (i 1).val = (y 1).val → x0 y = A0 i)
    (h1 : ∀ (y : S2000x1.Idx) (i : S100000x1.Idx), (i 0).val = q * 2000 + (y 0).val → x1 y = A1 i)
    (h2 : x2 = A2)
    (y : S2000x128.Idx) (i : S100000x128.Idx) (hi0 : (i 0).val = q * 2000 + (y 0).val) (hi1 : (i 1).val = (y 1).val) :
    pay y = Cert.Gcn.scaleShift2 (F := Ideal) A0 A1 A2 i := by
  obtain ⟨r, j, rfl⟩ : ∃ (r : Fin 2000) (j : Fin 128), y = ix2 r j := ⟨y 0, y 1, eq_ix2 y⟩
  obtain ⟨r', j', rfl⟩ : ∃ (r' : Fin 100000) (j' : Fin 128), i = ix2 r' j' := ⟨i 0, i 1, eq_ix2 i⟩
  obtain rfl : j' = j := Fin.ext hi1
  rw [hpay, scaleShift2_apply, h2]
  exact congrArg (· + A2 (ix2 (0 : Fin 1) j')) (congrArg₂ (· * ·) (h0 _ _ hi0 rfl) (h1 _ _ hi0))

end Blocks

/-! ### The first scaled product (region 0) -/

section Region0
variable [Cert.ReferenceIdeal.Facts]
variable (V : (c : Dev nD) → (b : Ref sig .tc) → Buf (Elt Ideal) ((c : Thread nD τ).loc b))

/-- The index maps over the grid: point t takes row block t of the row-blocked windows and the one block of
    the matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point t is rows 2000 t … 2000 t + 1999 of its array. -/
theorem iblk0_0 (c : Dev nD) (t : Fin cfg0.N) (y : S2000x128.Idx) (i : S100000x128.Idx)
    (h0 : (i 0).val = t.val * 2000 + (y 0).val) (h1 : (i 1).val = (y 1).val) :
    Gen.iblk0 (F := Ideal) V c 0 t y = V c (Pipeline.arrRef spec0 0) i := by
  obtain ⟨e0, e1, -⟩ := idx_facts0 t
  show V c (Pipeline.arrRef spec0 0) (((cfg0.win 0).blk t).view.emb y) = V c (Pipeline.arrRef spec0 0) i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- Window 1's block at every point is its whole array. -/
theorem iblk0_1 (c : Dev nD) (t : Fin cfg0.N) :
    Gen.iblk0 (F := Ideal) V c 1 t = V c (Pipeline.arrRef spec0 1) := by
  obtain ⟨-, -, e0, e1, -⟩ := idx_facts0 t
  funext (y : S128x128.Idx)
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2's block at point t is entries 2000 t … 2000 t + 1999 of its column. -/
theorem iblk0_2 (c : Dev nD) (t : Fin cfg0.N) (y : S2000x1.Idx) (i : S100000x1.Idx)
    (h0 : (i 0).val = t.val * 2000 + (y 0).val) :
    Gen.iblk0 (F := Ideal) V c 2 t y = V c (Pipeline.arrRef spec0 2) i := by
  obtain ⟨-, -, -, -, e0, e1, -⟩ := idx_facts0 t
  show V c (Pipeline.arrRef spec0 2) (((cfg0.win 2).blk t).view.emb y) = V c (Pipeline.arrRef spec0 2) i
  refine congrArg _ (funext fun a => Fin.ext ?_)
  match a with
  | ⟨0, _⟩ => show win0_2.index t (0 : Fin 2) * 2000 + 1 * (y 0).val = (i 0).val; omega
  | ⟨1, _⟩ =>
    show win0_2.index t (1 : Fin 2) * 1 + 1 * (y 1).val = (i 1).val
    have hy : (y 1).val < 1 := (y 1).isLt
    have hi : (i 1).val < 1 := (i 1).isLt
    omega

/-- What point t writes back is block t of the stage applied to the arrays as the kernel finds them. -/
theorem flushed0_eq (c : Dev nD) (t : Fin cfg0.N) :
    (Gen.dat0 (F := Ideal) V c).flushed 3 t = ((cfg0.win 3).blk t).view.read (Elt Ideal)
      (Cert.Gcn.linScale2 (F := Ideal) (V c (Pipeline.arrRef spec0 0)) (V c (Pipeline.arrRef spec0 1)) (V c (Pipeline.arrRef spec0 2))) := by
  show (cfg0.win 3).cut (grid0.coords t) ((Gen.dat0 (F := Ideal) V c).after 3 t) = _
  rw [Gen.after0_3]
  unfold Gen.out0_3
  rw [View.canon_unit_zero hz]
  simp only [View.ld_unit_zero (S := S2000x128) hz, View.ld_unit_zero (S := S128x128) hz, View.ld_unit_zero (S := S2000x1) hz]
  obtain ⟨-, -, -, -, -, -, e30, e31⟩ := idx_facts0 t
  funext y
  show Gen.k0_pay1 (Gen.iblk0 V c 0 t) (Gen.iblk0 V c 1 t) (Gen.iblk0 V c 2 t) y
    = Cert.Gcn.linScale2 (F := Ideal) (V c (Pipeline.arrRef spec0 0)) (V c (Pipeline.arrRef spec0 1)) (V c (Pipeline.arrRef spec0 2))
        (((cfg0.win 3).blk t).view.emb y)
  refine linScale_block (V c (Pipeline.arrRef spec0 0)) (V c (Pipeline.arrRef spec0 1)) (V c (Pipeline.arrRef spec0 2))
    (Gen.iblk0 V c 0 t) (Gen.iblk0 V c 1 t) (Gen.iblk0 V c 2 t) t.val _ (pay0_apply _ _ _)
    (fun y' i' h0 h1 => iblk0_0 V c t y' i' h0 h1) (iblk0_1 V c t) (fun y' i' h0 => iblk0_2 V c t y' i' h0) y _ ?_ ?_
  · show win0_3.index t (0 : Fin 2) * 2000 + 1 * (y 0).val = t.val * 2000 + (y 0).val; omega
  · show win0_3.index t (1 : Fin 2) * 128 + 1 * (y 1).val = (y 1).val; omega

/-- THE ARRAY after the 50 points: row r lies in the block of point r / 2000, so the blocks cover the array and it
    ends holding the stage applied to the arrays as the kernel finds them. -/
theorem final0 (c : Dev nD) :
    (Gen.dat0 (F := Ideal) V c).arrAt 3 cfg0.N
      = Cert.Gcn.linScale2 (F := Ideal) (V c (Pipeline.arrRef spec0 0)) (V c (Pipeline.arrRef spec0 1)) (V c (Pipeline.arrRef spec0 2)) :=
  (Gen.dat0 (F := Ideal) V c).arrAt_eq_of_cover 3 _ (fun t _ => flushed0_eq V c t) fun i => by
    have hN : cfg0.N = 50 := Gen.N_0
    have hi0 : (i 0).val < 100000 := (i 0).isLt
    have hi1 : (i 1).val < 128 := (i 1).isLt
    obtain ⟨t, ht⟩ : ∃ t : Fin cfg0.N, t.val = (i 0).val / 2000 := ⟨⟨(i 0).val / 2000, by rw [hN]; omega⟩, rfl⟩
    obtain ⟨-, -, -, -, -, -, e30, e31⟩ := idx_facts0 t
    refine ⟨t, Gen.flush0_3 t, ?_⟩
    show i ∈ ((View.whole main_v15).slice (win0_3.rect t)).set
    rw [View.set_slice_whole, Rect.mem_set_unit]
    intro a
    match a with
    | ⟨0, _⟩ =>
      show win0_3.index t (0 : Fin 2) * 2000 ≤ (i 0).val ∧ (i 0).val < win0_3.index t (0 : Fin 2) * 2000 + 2000
      omega
    | ⟨1, _⟩ =>
      show win0_3.index t (1 : Fin 2) * 128 ≤ (i 1).val ∧ (i 1).val < win0_3.index t (1 : Fin 2) * 128 + 128
      omega

end Region0

/-! ### The second scaled product (region 3) -/

section Region3
variable [Cert.ReferenceIdeal.Facts]
variable (V : (c : Dev nD) → (b : Ref sig .tc) → Buf (Elt Ideal) ((c : Thread nD τ).loc b))

/-- The index maps over the grid: point t takes row block t of the row-blocked windows and the one block of
    the matrix. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Window 0's block at point t is rows 2000 t … 2000 t + 1999 of its array. -/
theorem iblk3_0 (c : Dev nD) (t : Fin cfg3.N) (y : S2000x128.Idx) (i : S100000x128.Idx)
    (h0 : (i 0).val = t.val * 2000 + (y 0).val) (h1 : (i 1).val = (y 1).val) :
    Gen.iblk3 (F := Ideal) V c 0 t y = V c (Pipeline.arrRef spec3 0) i := by
  obtain ⟨e0, e1, -⟩ := idx_facts3 t
  show V c (Pipeline.arrRef spec3 0) (((cfg3.win 0).blk t).view.emb y) = V c (Pipeline.arrRef spec3 0) i
  refine congrArg _ (funext fun a => Fin.ext ?_)
  match a with
  | ⟨0, _⟩ => show win3_0.index t (0 : Fin 2) * 2000 + 1 * (y 0).val = (i 0).val; omega
  | ⟨1, _⟩ => show win3_0.index t (1 : Fin 2) * 128 + 1 * (y 1).val = (i 1).val; omega

/-- Window 1's block at every point is its whole array. -/
theorem iblk3_1 (c : Dev nD) (t : Fin cfg3.N) :
    Gen.iblk3 (F := Ideal) V c 1 t = V c (Pipeline.arrRef spec3 1) := by
  obtain ⟨-, -, e0, e1, -⟩ := idx_facts3 t
  funext (y : S128x128.Idx)
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

/-- Window 2's block at point t is entries 2000 t … 2000 t + 1999 of its column. -/
theorem iblk3_2 (c : Dev nD) (t : Fin cfg3.N) (y : S2000x1.Idx) (i : S100000x1.Idx)
    (h0 : (i 0).val = t.val * 2000 + (y 0).val) :
    Gen.iblk3 (F := Ideal) V c 2 t y = V c (Pipeline.arrRef spec3 2) i := by
  obtain ⟨-, -, -, -, e0, e1, -⟩ := idx_facts3 t
  show V c (Pipeline.arrRef spec3 2) (((cfg3.win 2).blk t).view.emb y) = V c (Pipeline.arrRef spec3 2) i
  refine congrArg _ (funext fun a => Fin.ext ?_)
  match a with
  | ⟨0, _⟩ => show win3_2.index t (0 : Fin 2) * 2000 + 1 * (y 0).val = (i 0).val; omega
  | ⟨1, _⟩ =>
    show win3_2.index t (1 : Fin 2) * 1 + 1 * (y 1).val = (i 1).val
    have hy : (y 1).val < 1 := (y 1).isLt
    have hi : (i 1).val < 1 := (i 1).isLt
    omega

/-- What point t writes back is block t of the stage applied to the arrays as the kernel finds them. -/
theorem flushed3_eq (c : Dev nD) (t : Fin cfg3.N) :
    (Gen.dat3 (F := Ideal) V c).flushed 3 t = ((cfg3.win 3).blk t).view.read (Elt Ideal)
      (Cert.Gcn.linScale2 (F := Ideal) (V c (Pipeline.arrRef spec3 0)) (V c (Pipeline.arrRef spec3 1)) (V c (Pipeline.arrRef spec3 2))) := by
  show (cfg3.win 3).cut (grid3.coords t) ((Gen.dat3 (F := Ideal) V c).after 3 t) = _
  rw [Gen.after3_3]
  unfold Gen.out3_3
  rw [View.canon_unit_zero hz]
  simp only [View.ld_unit_zero (S := S2000x128) hz, View.ld_unit_zero (S := S128x128) hz, View.ld_unit_zero (S := S2000x1) hz]
  obtain ⟨-, -, -, -, -, -, e30, e31⟩ := idx_facts3 t
  funext y
  show Gen.k3_pay1 (Gen.iblk3 V c 0 t) (Gen.iblk3 V c 1 t) (Gen.iblk3 V c 2 t) y
    = Cert.Gcn.linScale2 (F := Ideal) (V c (Pipeline.arrRef spec3 0)) (V c (Pipeline.arrRef spec3 1)) (V c (Pipeline.arrRef spec3 2))
        (((cfg3.win 3).blk t).view.emb y)
  refine linScale_block (V c (Pipeline.arrRef spec3 0)) (V c (Pipeline.arrRef spec3 1)) (V c (Pipeline.arrRef spec3 2))
    (Gen.iblk3 V c 0 t) (Gen.iblk3 V c 1 t) (Gen.iblk3 V c 2 t) t.val _ (pay3_apply _ _ _)
    (fun y' i' h0 h1 => iblk3_0 V c t y' i' h0 h1) (iblk3_1 V c t) (fun y' i' h0 => iblk3_2 V c t y' i' h0) y _ ?_ ?_
  · show win3_3.index t (0 : Fin 2) * 2000 + 1 * (y 0).val = t.val * 2000 + (y 0).val; omega
  · show win3_3.index t (1 : Fin 2) * 128 + 1 * (y 1).val = (y 1).val; omega

/-- THE ARRAY after the 50 points: row r lies in the block of point r / 2000, so the blocks cover the array and it
    ends holding the stage applied to the arrays as the kernel finds them. -/
theorem final3 (c : Dev nD) :
    (Gen.dat3 (F := Ideal) V c).arrAt 3 cfg3.N
      = Cert.Gcn.linScale2 (F := Ideal) (V c (Pipeline.arrRef spec3 0)) (V c (Pipeline.arrRef spec3 1)) (V c (Pipeline.arrRef spec3 2)) :=
  (Gen.dat3 (F := Ideal) V c).arrAt_eq_of_cover 3 _ (fun t _ => flushed3_eq V c t) fun i => by
    have hN : cfg3.N = 50 := Gen.N_3
    have hi0 : (i 0).val < 100000 := (i 0).isLt
    have hi1 : (i 1).val < 128 := (i 1).isLt
    obtain ⟨t, ht⟩ : ∃ t : Fin cfg3.N, t.val = (i 0).val / 2000 := ⟨⟨(i 0).val / 2000, by rw [hN]; omega⟩, rfl⟩
    obtain ⟨-, -, -, -, -, -, e30, e31⟩ := idx_facts3 t
    refine ⟨t, Gen.flush3_3 t, ?_⟩
    show i ∈ ((View.whole main_v36).slice (win3_3.rect t)).set
    rw [View.set_slice_whole, Rect.mem_set_unit]
    intro a
    match a with
    | ⟨0, _⟩ =>
      show win3_3.index t (0 : Fin 2) * 2000 ≤ (i 0).val ∧ (i 0).val < win3_3.index t (0 : Fin 2) * 2000 + 2000
      omega
    | ⟨1, _⟩ =>
      show win3_3.index t (1 : Fin 2) * 128 ≤ (i 1).val ∧ (i 1).val < win3_3.index t (1 : Fin 2) * 128 + 128
      omega

end Region3

/-! ### The first scaling and shift (region 1) -/

section Region1
variable [Cert.ReferenceIdeal.Facts]
variable (V : (c : Dev nD) → (b : Ref sig .tc) → Buf (Elt Ideal) ((c : Thread nD τ).loc b))

/-- The index maps over the grid: point t takes row block t of the row-blocked windows and the one block of
    the bias row. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point t is rows 2000 t … 2000 t + 1999 of its array. -/
theorem iblk1_0 (c : Dev nD) (t : Fin cfg1.N) (y : S2000x128.Idx) (i : S100000x128.Idx)
    (h0 : (i 0).val = t.val * 2000 + (y 0).val) (h1 : (i 1).val = (y 1).val) :
    Gen.iblk1 (F := Ideal) V c 0 t y = V c (Pipeline.arrRef spec1 0) i := by
  obtain ⟨e0, e1, -⟩ := idx_facts1 t
  show V c (Pipeline.arrRef spec1 0) (((cfg1.win 0).blk t).view.emb y) = V c (Pipeline.arrRef spec1 0) i
  refine congrArg _ (funext fun a => Fin.ext ?_)
  match a with
  | ⟨0, _⟩ => show win1_0.index t (0 : Fin 2) * 2000 + 1 * (y 0).val = (i 0).val; omega
  | ⟨1, _⟩ => show win1_0.index t (1 : Fin 2) * 128 + 1 * (y 1).val = (i 1).val; omega

/-- Window 1's block at point t is entries 2000 t … 2000 t + 1999 of its column. -/
theorem iblk1_1 (c : Dev nD) (t : Fin cfg1.N) (y : S2000x1.Idx) (i : S100000x1.Idx)
    (h0 : (i 0).val = t.val * 2000 + (y 0).val) :
    Gen.iblk1 (F := Ideal) V c 1 t y = V c (Pipeline.arrRef spec1 1) i := by
  obtain ⟨-, -, e0, e1, -⟩ := idx_facts1 t
  show V c (Pipeline.arrRef spec1 1) (((cfg1.win 1).blk t).view.emb y) = V c (Pipeline.arrRef spec1 1) i
  refine congrArg _ (funext fun a => Fin.ext ?_)
  match a with
  | ⟨0, _⟩ => show win1_1.index t (0 : Fin 2) * 2000 + 1 * (y 0).val = (i 0).val; omega
  | ⟨1, _⟩ =>
    show win1_1.index t (1 : Fin 2) * 1 + 1 * (y 1).val = (i 1).val
    have hy : (y 1).val < 1 := (y 1).isLt
    have hi : (i 1).val < 1 := (i 1).isLt
    omega

/-- Window 2's block at every point is its whole array. -/
theorem iblk1_2 (c : Dev nD) (t : Fin cfg1.N) :
    Gen.iblk1 (F := Ideal) V c 2 t = V c (Pipeline.arrRef spec1 2) := by
  obtain ⟨-, -, -, -, e0, e1, -⟩ := idx_facts1 t
  funext (y : S1x128.Idx)
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What point t writes back is block t of the stage applied to the arrays as the kernel finds them. -/
theorem flushed1_eq (c : Dev nD) (t : Fin cfg1.N) :
    (Gen.dat1 (F := Ideal) V c).flushed 3 t = ((cfg1.win 3).blk t).view.read (Elt Ideal)
      (Cert.Gcn.scaleShift2 (F := Ideal) (V c (Pipeline.arrRef spec1 0)) (V c (Pipeline.arrRef spec1 1)) (V c (Pipeline.arrRef spec1 2))) := by
  show (cfg1.win 3).cut (grid1.coords t) ((Gen.dat1 (F := Ideal) V c).after 3 t) = _
  rw [Gen.after1_3]
  unfold Gen.out1_3
  rw [View.canon_unit_zero hz]
  simp only [View.ld_unit_zero (S := S2000x128) hz, View.ld_unit_zero (S := S2000x1) hz, View.ld_unit_zero (S := S1x128) hz]
  obtain ⟨-, -, -, -, -, -, e30, e31⟩ := idx_facts1 t
  funext y
  show Gen.k1_pay1 (Gen.iblk1 V c 0 t) (Gen.iblk1 V c 1 t) (Gen.iblk1 V c 2 t) y
    = Cert.Gcn.scaleShift2 (F := Ideal) (V c (Pipeline.arrRef spec1 0)) (V c (Pipeline.arrRef spec1 1)) (V c (Pipeline.arrRef spec1 2))
        (((cfg1.win 3).blk t).view.emb y)
  refine scaleShift_block (V c (Pipeline.arrRef spec1 0)) (V c (Pipeline.arrRef spec1 1)) (V c (Pipeline.arrRef spec1 2))
    (Gen.iblk1 V c 0 t) (Gen.iblk1 V c 1 t) (Gen.iblk1 V c 2 t) t.val _ (pay1_apply _ _ _)
    (fun y' i' h0 h1 => iblk1_0 V c t y' i' h0 h1) (fun y' i' h0 => iblk1_1 V c t y' i' h0) (iblk1_2 V c t) y _ ?_ ?_
  · show win1_3.index t (0 : Fin 2) * 2000 + 1 * (y 0).val = t.val * 2000 + (y 0).val; omega
  · show win1_3.index t (1 : Fin 2) * 128 + 1 * (y 1).val = (y 1).val; omega

/-- THE ARRAY after the 50 points: row r lies in the block of point r / 2000, so the blocks cover the array and it
    ends holding the stage applied to the arrays as the kernel finds them. -/
theorem final1 (c : Dev nD) :
    (Gen.dat1 (F := Ideal) V c).arrAt 3 cfg1.N
      = Cert.Gcn.scaleShift2 (F := Ideal) (V c (Pipeline.arrRef spec1 0)) (V c (Pipeline.arrRef spec1 1)) (V c (Pipeline.arrRef spec1 2)) :=
  (Gen.dat1 (F := Ideal) V c).arrAt_eq_of_cover 3 _ (fun t _ => flushed1_eq V c t) fun i => by
    have hN : cfg1.N = 50 := Gen.N_1
    have hi0 : (i 0).val < 100000 := (i 0).isLt
    have hi1 : (i 1).val < 128 := (i 1).isLt
    obtain ⟨t, ht⟩ : ∃ t : Fin cfg1.N, t.val = (i 0).val / 2000 := ⟨⟨(i 0).val / 2000, by rw [hN]; omega⟩, rfl⟩
    obtain ⟨-, -, -, -, -, -, e30, e31⟩ := idx_facts1 t
    refine ⟨t, Gen.flush1_3 t, ?_⟩
    show i ∈ ((View.whole main_v27).slice (win1_3.rect t)).set
    rw [View.set_slice_whole, Rect.mem_set_unit]
    intro a
    match a with
    | ⟨0, _⟩ =>
      show win1_3.index t (0 : Fin 2) * 2000 ≤ (i 0).val ∧ (i 0).val < win1_3.index t (0 : Fin 2) * 2000 + 2000
      omega
    | ⟨1, _⟩ =>
      show win1_3.index t (1 : Fin 2) * 128 ≤ (i 1).val ∧ (i 1).val < win1_3.index t (1 : Fin 2) * 128 + 128
      omega

end Region1

/-! ### The second scaling and shift (region 4) -/

section Region4
variable [Cert.ReferenceIdeal.Facts]
variable (V : (c : Dev nD) → (b : Ref sig .tc) → Buf (Elt Ideal) ((c : Thread nD τ).loc b))

/-- The index maps over the grid: point t takes row block t of the row-blocked windows and the one block of
    the bias row. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Window 0's block at point t is rows 2000 t … 2000 t + 1999 of its array. -/
theorem iblk4_0 (c : Dev nD) (t : Fin cfg4.N) (y : S2000x128.Idx) (i : S100000x128.Idx)
    (h0 : (i 0).val = t.val * 2000 + (y 0).val) (h1 : (i 1).val = (y 1).val) :
    Gen.iblk4 (F := Ideal) V c 0 t y = V c (Pipeline.arrRef spec4 0) i := by
  obtain ⟨e0, e1, -⟩ := idx_facts4 t
  show V c (Pipeline.arrRef spec4 0) (((cfg4.win 0).blk t).view.emb y) = V c (Pipeline.arrRef spec4 0) i
  refine congrArg _ (funext fun a => Fin.ext ?_)
  match a with
  | ⟨0, _⟩ => show win4_0.index t (0 : Fin 2) * 2000 + 1 * (y 0).val = (i 0).val; omega
  | ⟨1, _⟩ => show win4_0.index t (1 : Fin 2) * 128 + 1 * (y 1).val = (i 1).val; omega

/-- Window 1's block at point t is entries 2000 t … 2000 t + 1999 of its column. -/
theorem iblk4_1 (c : Dev nD) (t : Fin cfg4.N) (y : S2000x1.Idx) (i : S100000x1.Idx)
    (h0 : (i 0).val = t.val * 2000 + (y 0).val) :
    Gen.iblk4 (F := Ideal) V c 1 t y = V c (Pipeline.arrRef spec4 1) i := by
  obtain ⟨-, -, e0, e1, -⟩ := idx_facts4 t
  show V c (Pipeline.arrRef spec4 1) (((cfg4.win 1).blk t).view.emb y) = V c (Pipeline.arrRef spec4 1) i
  refine congrArg _ (funext fun a => Fin.ext ?_)
  match a with
  | ⟨0, _⟩ => show win4_1.index t (0 : Fin 2) * 2000 + 1 * (y 0).val = (i 0).val; omega
  | ⟨1, _⟩ =>
    show win4_1.index t (1 : Fin 2) * 1 + 1 * (y 1).val = (i 1).val
    have hy : (y 1).val < 1 := (y 1).isLt
    have hi : (i 1).val < 1 := (i 1).isLt
    omega

/-- Window 2's block at every point is its whole array. -/
theorem iblk4_2 (c : Dev nD) (t : Fin cfg4.N) :
    Gen.iblk4 (F := Ideal) V c 2 t = V c (Pipeline.arrRef spec4 2) := by
  obtain ⟨-, -, -, -, e0, e1, -⟩ := idx_facts4 t
  funext (y : S1x128.Idx)
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- What point t writes back is block t of the stage applied to the arrays as the kernel finds them. -/
theorem flushed4_eq (c : Dev nD) (t : Fin cfg4.N) :
    (Gen.dat4 (F := Ideal) V c).flushed 3 t = ((cfg4.win 3).blk t).view.read (Elt Ideal)
      (Cert.Gcn.scaleShift2 (F := Ideal) (V c (Pipeline.arrRef spec4 0)) (V c (Pipeline.arrRef spec4 1)) (V c (Pipeline.arrRef spec4 2))) := by
  show (cfg4.win 3).cut (grid4.coords t) ((Gen.dat4 (F := Ideal) V c).after 3 t) = _
  rw [Gen.after4_3]
  unfold Gen.out4_3
  rw [View.canon_unit_zero hz]
  simp only [View.ld_unit_zero (S := S2000x128) hz, View.ld_unit_zero (S := S2000x1) hz, View.ld_unit_zero (S := S1x128) hz]
  obtain ⟨-, -, -, -, -, -, e30, e31⟩ := idx_facts4 t
  funext y
  show Gen.k4_pay1 (Gen.iblk4 V c 0 t) (Gen.iblk4 V c 1 t) (Gen.iblk4 V c 2 t) y
    = Cert.Gcn.scaleShift2 (F := Ideal) (V c (Pipeline.arrRef spec4 0)) (V c (Pipeline.arrRef spec4 1)) (V c (Pipeline.arrRef spec4 2))
        (((cfg4.win 3).blk t).view.emb y)
  refine scaleShift_block (V c (Pipeline.arrRef spec4 0)) (V c (Pipeline.arrRef spec4 1)) (V c (Pipeline.arrRef spec4 2))
    (Gen.iblk4 V c 0 t) (Gen.iblk4 V c 1 t) (Gen.iblk4 V c 2 t) t.val _ (pay4_apply _ _ _)
    (fun y' i' h0 h1 => iblk4_0 V c t y' i' h0 h1) (fun y' i' h0 => iblk4_1 V c t y' i' h0) (iblk4_2 V c t) y _ ?_ ?_
  · show win4_3.index t (0 : Fin 2) * 2000 + 1 * (y 0).val = t.val * 2000 + (y 0).val; omega
  · show win4_3.index t (1 : Fin 2) * 128 + 1 * (y 1).val = (y 1).val; omega

/-- THE ARRAY after the 50 points: row r lies in the block of point r / 2000, so the blocks cover the array and it
    ends holding the stage applied to the arrays as the kernel finds them. -/
theorem final4 (c : Dev nD) :
    (Gen.dat4 (F := Ideal) V c).arrAt 3 cfg4.N
      = Cert.Gcn.scaleShift2 (F := Ideal) (V c (Pipeline.arrRef spec4 0)) (V c (Pipeline.arrRef spec4 1)) (V c (Pipeline.arrRef spec4 2)) :=
  (Gen.dat4 (F := Ideal) V c).arrAt_eq_of_cover 3 _ (fun t _ => flushed4_eq V c t) fun i => by
    have hN : cfg4.N = 50 := Gen.N_4
    have hi0 : (i 0).val < 100000 := (i 0).isLt
    have hi1 : (i 1).val < 128 := (i 1).isLt
    obtain ⟨t, ht⟩ : ∃ t : Fin cfg4.N, t.val = (i 0).val / 2000 := ⟨⟨(i 0).val / 2000, by rw [hN]; omega⟩, rfl⟩
    obtain ⟨-, -, -, -, -, -, e30, e31⟩ := idx_facts4 t
    refine ⟨t, Gen.flush4_3 t, ?_⟩
    show i ∈ ((View.whole main_v48).slice (win4_3.rect t)).set
    rw [View.set_slice_whole, Rect.mem_set_unit]
    intro a
    match a with
    | ⟨0, _⟩ =>
      show win4_3.index t (0 : Fin 2) * 2000 ≤ (i 0).val ∧ (i 0).val < win4_3.index t (0 : Fin 2) * 2000 + 2000
      omega
    | ⟨1, _⟩ =>
      show win4_3.index t (1 : Fin 2) * 128 ≤ (i 1).val ∧ (i 1).val < win4_3.index t (1 : Fin 2) * 128 + 128
      omega

end Region4

end Cert.Gcn.RowScale

end
-- ==== Proof.ColumnNorm.lean ====
/-
  Column normalisation with gain, shift and positive part — the stage
  `max(((h - mu) * rsqrt(var + eps)) * g + be, 0)` of each of the two layers.

  The stage works on a 100000 × 128 array `h` and four 1 × 128 rows (the column means, the column
  variances, the gain and the shift). Entry (r, j) of the result depends on entry (r, j) of `h` and on
  entry (0, j) of each row only: it is `entry` below of those five numbers. The kernel computes the result
  in 50 blocks of 2000 consecutive rows; block t reads rows 2000·t … 2000·t + 1999 of `h` and the four rows
  whole, and writes rows 2000·t … 2000·t + 1999 of the result. Every row r lies in exactly the block
  r / 2000, so the 50 blocks together are the whole-array function.

  Second part: the same stage written over vectors of 128 (means and variances computed from `h`
  itself, gain and shift given as vectors) is the row form applied to those vectors laid out as rows,
  because a vector laid out as a 1 × 128 row and then repeated along the rows reads, at (r, j), the
  vector's entry j, and every operation between is entry by entry.
-/
import proofs.«142040_j24154896073101_1_alg».proof.Proof.Gen.KernelIdeal.Frame
import proofs.«142040_j24154896073101_1_alg».proof.Proof.Spec
import Idealize.ShloMosaic.Lib.Pipeline.Value
import Idealize.ShloMosaic.Lib.ValueIdx
import Idealize.ShloMosaic.Lib.ValueLayout

noncomputable section

namespace Cert.Gcn.ColumnNorm

open Idealize.ShloMosaic Idealize.ShloMosaic.TcCoe Idealize.SL.Sem Idealize.ShloMosaic.ValueIdx
open Idealize.ShloMosaic.Pipeline (Dat)
open Cert.KernelIdeal Cert.KernelIdeal.Gen

/-! ## One entry of the stage -/

/-- One entry: `((h - mu) * rsqrt(var + eps)) * g + be`, positive part; `eps` and `0` are the two
    single-precision words the programs carry, read as extended reals and never evaluated. -/
def entry (h mu v g be : EReal) : EReal :=
  max (((h - mu) * Ideal.rsqrt (v + Ideal.ofBits .f32 0x3727C5AC#32)) * g + be) (Ideal.ofBits .f32 0x00000000#32)

/-! ## The whole-array function at an index -/

section Host
variable [Cert.ReferenceIdeal.Facts]

/-- A 1 × 128 row repeated along 100000 rows reads, at (r, j), the row's entry (0, j). -/
theorem rowB_apply (b : FVec Ideal S1x128 .f32) (r : Fin 100000) (q : Fin 128) :
    Cert.Gcn.rowB (F := Ideal) b (ix2 r q) = b (ix2 (0 : Fin 1) q) := by
  unfold Cert.Gcn.rowB
  exact broadcastInDim_apply _ _ b (ix2 r q) (ix2 (0 : Fin 1) q) (fun a => by
    match a with
    | ⟨0, _⟩ => rfl
    | ⟨1, _⟩ => rfl)

/-- The row form of the stage at (r, j) is `entry` of `h` at (r, j) and of the four rows at (0, j). -/
theorem bnRelu2_apply (h : FVec Ideal S100000x128 .f32) (mu v g be : FVec Ideal S1x128 .f32) (r : Fin 100000) (q : Fin 128) :
    Cert.Gcn.bnRelu2 (F := Ideal) h mu v g be (ix2 r q)
      = entry (h (ix2 r q)) (mu (ix2 (0 : Fin 1) q)) (v (ix2 (0 : Fin 1) q)) (g (ix2 (0 : Fin 1) q)) (be (ix2 (0 : Fin 1) q)) := by
  unfold Cert.Gcn.bnRelu2
  rw [maximumf_apply, addf_apply, mulf_apply, mulf_apply, subf_apply, rowB_apply, rowB_apply, rowB_apply, rowB_apply]
  rfl

end Host

/-! ## The kernel body's arithmetic at an index -/

/-- The body's stored value at (p, j) of its block is `entry` of the row block at (p, j) and of the four
    resident rows at (0, j). -/
theorem pay2_apply (x0 : Vec Ideal S2000x128 .f32) (x1 x2 x3 x4 : Vec Ideal S1x128 .f32) (p : Fin 2000) (q : Fin 128) :
    k2_pay1 (F := Ideal) x0 x1 x2 x3 x4 (ix2 p q)
      = entry (x0 (ix2 p q)) (x1 (ix2 (0 : Fin 1) q)) (x2 (ix2 (0 : Fin 1) q)) (x3 (ix2 (0 : Fin 1) q)) (x4 (ix2 (0 : Fin 1) q)) := by
  unfold k2_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- The second layer's body is the same arithmetic. -/
theorem pay5_apply (x0 : Vec Ideal S2000x128 .f32) (x1 x2 x3 x4 : Vec Ideal S1x128 .f32) (p : Fin 2000) (q : Fin 128) :
    k5_pay1 (F := Ideal) x0 x1 x2 x3 x4 (ix2 p q)
      = entry (x0 (ix2 p q)) (x1 (ix2 (0 : Fin 1) q)) (x2 (ix2 (0 : Fin 1) q)) (x3 (ix2 (0 : Fin 1) q)) (x4 (ix2 (0 : Fin 1) q)) := by
  unfold k5_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- The zero offsets of a whole-buffer access. -/
theorem hz : (![0, 0] : Fin 2 → Nat) = fun _ => 0 := funext fun a => by fin_cases a <;> rfl

/-! ## From the 50 blocks to the array: region 2 of the program -/

section Region2
variable [Cert.ReferenceIdeal.Facts]
variable (V : (c : Dev nD) → (b : Ref sig .tc) → Buf (Elt Ideal) ((c : Thread nD τ).loc b))

/-- The index maps over the grid: point `t` takes row block `t` of `h` and of the result, and the one
    block of each of the four rows. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block `t` of `h` at (p, j) is `h` at (2000·t + p, j). -/
theorem iblk2_0_apply (c : Dev nD) (t : Fin cfg2.N) (p : Fin 2000) (q : Fin 128) (r : Fin 100000)
    (hr : r.val = 2000 * t.val + p.val) :
    (iblk2 (F := Ideal) V c 0 t : Vec Ideal S2000x128 .f32) (ix2 p q)
      = (V c (Pipeline.arrRef spec2 0) : S100000x128.Idx → EReal) (ix2 r q) := by
  obtain ⟨e0, e1, -⟩ := idx_facts2 t
  unfold iblk2
  rw [View.read_apply]
  refine congrArg (V c (Pipeline.arrRef spec2 0)) (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * q.val = q.val; rw [e1]; omega

/-- The one block of row 1 is the row. -/
theorem iblk2_1_apply (c : Dev nD) (t : Fin cfg2.N) (q : Fin 128) :
    (iblk2 (F := Ideal) V c 1 t : Vec Ideal S1x128 .f32) (ix2 (0 : Fin 1) q)
      = (V c (Pipeline.arrRef spec2 1) : S1x128.Idx → EReal) (ix2 (0 : Fin 1) q) := by
  obtain ⟨-, -, e0, e1, -⟩ := idx_facts2 t
  unfold iblk2
  rw [View.read_apply]
  refine congrArg (V c (Pipeline.arrRef spec2 1)) (funext fun a => Fin.ext ?_)
  match a with
  | ⟨0, _⟩ => show win2_1.index t (0 : Fin 2) * 1 + 1 * 0 = 0; rw [e0]
  | ⟨1, _⟩ => show win2_1.index t (1 : Fin 2) * 128 + 1 * q.val = q.val; rw [e1]; omega

/-- The one block of row 2 is the row. -/
theorem iblk2_2_apply (c : Dev nD) (t : Fin cfg2.N) (q : Fin 128) :
    (iblk2 (F := Ideal) V c 2 t : Vec Ideal S1x128 .f32) (ix2 (0 : Fin 1) q)
      = (V c (Pipeline.arrRef spec2 2) : S1x128.Idx → EReal) (ix2 (0 : Fin 1) q) := by
  obtain ⟨-, -, -, -, e0, e1, -⟩ := idx_facts2 t
  unfold iblk2
  rw [View.read_apply]
  refine congrArg (V c (Pipeline.arrRef spec2 2)) (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

/-- The one block of row 3 is the row. -/
theorem iblk2_3_apply (c : Dev nD) (t : Fin cfg2.N) (q : Fin 128) :
    (iblk2 (F := Ideal) V c 3 t : Vec Ideal S1x128 .f32) (ix2 (0 : Fin 1) q)
      = (V c (Pipeline.arrRef spec2 3) : S1x128.Idx → EReal) (ix2 (0 : Fin 1) q) := by
  obtain ⟨-, -, -, -, -, -, e0, e1, -⟩ := idx_facts2 t
  unfold iblk2
  rw [View.read_apply]
  refine congrArg (V c (Pipeline.arrRef spec2 3)) (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega

/-- The one block of row 4 is the row. -/
theorem iblk2_4_apply (c : Dev nD) (t : Fin cfg2.N) (q : Fin 128) :
    (iblk2 (F := Ideal) V c 4 t : Vec Ideal S1x128 .f32) (ix2 (0 : Fin 1) q)
      = (V c (Pipeline.arrRef spec2 4) : S1x128.Idx → EReal) (ix2 (0 : Fin 1) q) := by
  obtain ⟨-, -, -, -, -, -, -, -, e0, e1, -⟩ := idx_facts2 t
  unfold iblk2
  rw [View.read_apply]
  refine congrArg (V c (Pipeline.arrRef spec2 4)) (funext fun a => Fin.ext ?_)
  match a with
  | ⟨0, _⟩ => show win2_4.index t (0 : Fin 2) * 1 + 1 * 0 = 0; rw [e0]
  | ⟨1, _⟩ => show win2_4.index t (1 : Fin 2) * 128 + 1 * q.val = q.val; rw [e1]; omega

/-- One stored entry against the whole-array function: blocks that read where the array is read give
    the same `entry`. -/
theorem point2_eq (x0 : Vec Ideal S2000x128 .f32) (x1 x2 x3 x4 : Vec Ideal S1x128 .f32)
    (H : FVec Ideal S100000x128 .f32) (M Vr G B : FVec Ideal S1x128 .f32)
    (p : Fin 2000) (q : Fin 128) (r : Fin 100000)
    (e0 : x0 (ix2 p q) = H (ix2 r q)) (e1 : x1 (ix2 (0 : Fin 1) q) = M (ix2 (0 : Fin 1) q))
    (e2 : x2 (ix2 (0 : Fin 1) q) = Vr (ix2 (0 : Fin 1) q)) (e3 : x3 (ix2 (0 : Fin 1) q) = G (ix2 (0 : Fin 1) q))
    (e4 : x4 (ix2 (0 : Fin 1) q) = B (ix2 (0 : Fin 1) q)) :
    k2_pay1 (F := Ideal) x0 x1 x2 x3 x4 (ix2 p q) = Cert.Gcn.bnRelu2 (F := Ideal) H M Vr G B (ix2 r q) := by
  rw [pay2_apply, bnRelu2_apply, e0, e1, e2, e3, e4]

/-- Block `t` of a whole array, read at `y`, is the array at the index `y` sits at. -/
theorem read_blk2 (t : Fin cfg2.N) (G : S100000x128.Idx → EReal) (y : ((cfg2.win 5).xblock (grid2.coords t)).Idx) :
    ((cfg2.win 5).blk t).view.read (Elt Ideal) G y = G (((cfg2.win 5).blk t).view.emb y) := rfl

/-- What point `t` writes back is block `t` of the whole-array function of the five arrays as the
    region finds them. -/
theorem flushed2_eq (c : Dev nD) (t : Fin cfg2.N) :
    (dat2 (F := Ideal) V c).flushed 5 t
      = ((cfg2.win 5).blk t).view.read (Elt Ideal)
          (Cert.Gcn.bnRelu2 (F := Ideal) (V c (Pipeline.arrRef spec2 0)) (V c (Pipeline.arrRef spec2 1))
            (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S2000x128) hz, View.ld_unit_zero (S := S1x128) hz]
  funext y
  have hy0 : (y 0).val < 2000 := (y 0).isLt
  have hy1 : (y 1).val < 128 := (y 1).isLt
  have ht : t.val < 50 := lt_of_lt_of_eq t.isLt N_2
  obtain ⟨-, -, -, -, -, -, -, -, -, -, e0, e1⟩ := idx_facts2 t
  have hx : (cfg2.win 5).xinj (grid2.coords t) y = ix2 (⟨(y 0).val, hy0⟩ : Fin 2000) (⟨(y 1).val, hy1⟩ : Fin 128) :=
    funext fun a => by
      match a with
      | ⟨0, _⟩ => rfl
      | ⟨1, _⟩ => rfl
  have hemb : ((cfg2.win 5).blk t).view.emb y
      = ix2 (⟨2000 * t.val + (y 0).val, by omega⟩ : Fin 100000) (⟨(y 1).val, hy1⟩ : Fin 128) :=
    funext fun a => Fin.ext (by
      match a with
      | ⟨0, _⟩ => show win2_5.index t (0 : Fin 2) * 2000 + 1 * (y 0).val = 2000 * t.val + (y 0).val; rw [e0]; omega
      | ⟨1, _⟩ => show win2_5.index t (1 : Fin 2) * 128 + 1 * (y 1).val = (y 1).val; rw [e1]; omega)
  rw [read_blk2, hemb]
  show k2_pay1 (F := Ideal) (iblk2 V c 0 t) (iblk2 V c 1 t) (iblk2 V c 2 t) (iblk2 V c 3 t) (iblk2 V c 4 t)
      ((cfg2.win 5).xinj (grid2.coords t) y) = _
  rw [hx]
  exact point2_eq (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4))
    ⟨(y 0).val, hy0⟩ ⟨(y 1).val, hy1⟩ ⟨2000 * t.val + (y 0).val, by omega⟩
    (iblk2_0_apply V c t _ _ _ rfl) (iblk2_1_apply V c t _) (iblk2_2_apply V c t _) (iblk2_3_apply V c t _)
    (iblk2_4_apply V c t _)

/-- An index of the result array is in point `t`'s block iff each coordinate is in the block's range. -/
theorem mem_blk2 (t : Fin cfg2.N) (i : S100000x128.Idx) :
    i ∈ ((cfg2.win 5).blk t).view.set
      ↔ ∀ a : Fin 2, win2_5.index t a * S2000x128.size a ≤ (i a).val
          ∧ (i a).val < win2_5.index t a * S2000x128.size a + S2000x128.size a := by
  show i ∈ ((View.whole main_v35).slice (win2_5.rect t)).set ↔ _
  rw [View.set_slice_whole, Rect.mem_set_unit]
  exact Iff.rfl

/-- Row `r` of the result is written by point `r / 2000`. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 50 := N_2
  have hlt : (i 0).val / 2000 < cfg2.N := by rw [hN]; omega
  obtain ⟨-, -, -, -, -, -, -, -, -, -, e0, e1⟩ := idx_facts2 ⟨(i 0).val / 2000, hlt⟩
  refine ⟨⟨(i 0).val / 2000, hlt⟩, flush2_5 _, ?_⟩
  rw [mem_blk2]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win2_5.index ⟨(i 0).val / 2000, hlt⟩ (1 : Fin 2) * 128 ≤ (i 1).val
      ∧ (i 1).val < win2_5.index ⟨(i 0).val / 2000, hlt⟩ (1 : Fin 2) * 128 + 128
    rw [e1]
    omega

/-- THE RESULT ARRAY after the region: the whole-array function of the five input arrays as the region
    finds them. -/
theorem final2 (c : Dev nD) :
    (dat2 (F := Ideal) V c).arrAt 5 cfg2.N
      = Cert.Gcn.bnRelu2 (F := Ideal) (V c (Pipeline.arrRef spec2 0)) (V c (Pipeline.arrRef spec2 1))
          (V c (Pipeline.arrRef spec2 2)) (V c (Pipeline.arrRef spec2 3)) (V c (Pipeline.arrRef spec2 4)) :=
  (dat2 (F := Ideal) V c).arrAt_eq_of_cover 5 _ (fun t _ => flushed2_eq V c t) cover2

end Region2

/-! ## From the 50 blocks to the array: region 5 of the program -/

section Region5
variable [Cert.ReferenceIdeal.Facts]
variable (V : (c : Dev nD) → (b : Ref sig .tc) → Buf (Elt Ideal) ((c : Thread nD τ).loc b))

/-- The index maps over the grid: point `t` takes row block `t` of `h` and of the result, and the one
    block of each of the four rows. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Block `t` of `h` at (p, j) is `h` at (2000·t + p, j). -/
theorem iblk5_0_apply (c : Dev nD) (t : Fin cfg5.N) (p : Fin 2000) (q : Fin 128) (r : Fin 100000)
    (hr : r.val = 2000 * t.val + p.val) :
    (iblk5 (F := Ideal) V c 0 t : Vec Ideal S2000x128 .f32) (ix2 p q)
      = (V c (Pipeline.arrRef spec5 0) : S100000x128.Idx → EReal) (ix2 r q) := by
  obtain ⟨e0, e1, -⟩ := idx_facts5 t
  unfold iblk5
  rw [View.read_apply]
  refine congrArg (V c (Pipeline.arrRef spec5 0)) (funext fun a => Fin.ext ?_)
  match a with
  | ⟨0, _⟩ => show win5_0.index t (0 : Fin 2) * 2000 + 1 * p.val = r.val; rw [e0, hr]; omega
  | ⟨1, _⟩ => show win5_0.index t (1 : Fin 2) * 128 + 1 * q.val = q.val; rw [e1]; omega

/-- The one block of row 1 is the row. -/
theorem iblk5_1_apply (c : Dev nD) (t : Fin cfg5.N) (q : Fin 128) :
    (iblk5 (F := Ideal) V c 1 t : Vec Ideal S1x128 .f32) (ix2 (0 : Fin 1) q)
      = (V c (Pipeline.arrRef spec5 1) : S1x128.Idx → EReal) (ix2 (0 : Fin 1) q) := by
  obtain ⟨-, -, e0, e1, -⟩ := idx_facts5 t
  unfold iblk5
  rw [View.read_apply]
  refine congrArg (V c (Pipeline.arrRef spec5 1)) (funext fun a => Fin.ext ?_)
  match a with
  | ⟨0, _⟩ => show win5_1.index t (0 : Fin 2) * 1 + 1 * 0 = 0; rw [e0]
  | ⟨1, _⟩ => show win5_1.index t (1 : Fin 2) * 128 + 1 * q.val = q.val; rw [e1]; omega

/-- The one block of row 2 is the row. -/
theorem iblk5_2_apply (c : Dev nD) (t : Fin cfg5.N) (q : Fin 128) :
    (iblk5 (F := Ideal) V c 2 t : Vec Ideal S1x128 .f32) (ix2 (0 : Fin 1) q)
      = (V c (Pipeline.arrRef spec5 2) : S1x128.Idx → EReal) (ix2 (0 : Fin 1) q) := by
  obtain ⟨-, -, -, -, e0, e1, -⟩ := idx_facts5 t
  unfold iblk5
  rw [View.read_apply]
  refine congrArg (V c (Pipeline.arrRef spec5 2)) (funext fun a => Fin.ext ?_)
  match a with
  | ⟨0, _⟩ => show win5_2.index t (0 : Fin 2) * 1 + 1 * 0 = 0; rw [e0]
  | ⟨1, _⟩ => show win5_2.index t (1 : Fin 2) * 128 + 1 * q.val = q.val; rw [e1]; omega

/-- The one block of row 3 is the row. -/
theorem iblk5_3_apply (c : Dev nD) (t : Fin cfg5.N) (q : Fin 128) :
    (iblk5 (F := Ideal) V c 3 t : Vec Ideal S1x128 .f32) (ix2 (0 : Fin 1) q)
      = (V c (Pipeline.arrRef spec5 3) : S1x128.Idx → EReal) (ix2 (0 : Fin 1) q) := by
  obtain ⟨-, -, -, -, -, -, e0, e1, -⟩ := idx_facts5 t
  unfold iblk5
  rw [View.read_apply]
  refine congrArg (V c (Pipeline.arrRef spec5 3)) (funext fun a => Fin.ext ?_)
  match a with
  | ⟨0, _⟩ => show win5_3.index t (0 : Fin 2) * 1 + 1 * 0 = 0; rw [e0]
  | ⟨1, _⟩ => show win5_3.index t (1 : Fin 2) * 128 + 1 * q.val = q.val; rw [e1]; omega

/-- The one block of row 4 is the row. -/
theorem iblk5_4_apply (c : Dev nD) (t : Fin cfg5.N) (q : Fin 128) :
    (iblk5 (F := Ideal) V c 4 t : Vec Ideal S1x128 .f32) (ix2 (0 : Fin 1) q)
      = (V c (Pipeline.arrRef spec5 4) : S1x128.Idx → EReal) (ix2 (0 : Fin 1) q) := by
  obtain ⟨-, -, -, -, -, -, -, -, e0, e1, -⟩ := idx_facts5 t
  unfold iblk5
  rw [View.read_apply]
  refine congrArg (V c (Pipeline.arrRef spec5 4)) (funext fun a => Fin.ext ?_)
  match a with
  | ⟨0, _⟩ => show win5_4.index t (0 : Fin 2) * 1 + 1 * 0 = 0; rw [e0]
  | ⟨1, _⟩ => show win5_4.index t (1 : Fin 2) * 128 + 1 * q.val = q.val; rw [e1]; omega

/-- One stored entry against the whole-array function: blocks that read where the array is read give
    the same `entry`. -/
theorem point5_eq (x0 : Vec Ideal S2000x128 .f32) (x1 x2 x3 x4 : Vec Ideal S1x128 .f32)
    (H : FVec Ideal S100000x128 .f32) (M Vr G B : FVec Ideal S1x128 .f32)
    (p : Fin 2000) (q : Fin 128) (r : Fin 100000)
    (e0 : x0 (ix2 p q) = H (ix2 r q)) (e1 : x1 (ix2 (0 : Fin 1) q) = M (ix2 (0 : Fin 1) q))
    (e2 : x2 (ix2 (0 : Fin 1) q) = Vr (ix2 (0 : Fin 1) q)) (e3 : x3 (ix2 (0 : Fin 1) q) = G (ix2 (0 : Fin 1) q))
    (e4 : x4 (ix2 (0 : Fin 1) q) = B (ix2 (0 : Fin 1) q)) :
    k5_pay1 (F := Ideal) x0 x1 x2 x3 x4 (ix2 p q) = Cert.Gcn.bnRelu2 (F := Ideal) H M Vr G B (ix2 r q) := by
  rw [pay5_apply, bnRelu2_apply, e0, e1, e2, e3, e4]

/-- Block `t` of a whole array, read at `y`, is the array at the index `y` sits at. -/
theorem read_blk5 (t : Fin cfg5.N) (G : S100000x128.Idx → EReal) (y : ((cfg5.win 5).xblock (grid5.coords t)).Idx) :
    ((cfg5.win 5).blk t).view.read (Elt Ideal) G y = G (((cfg5.win 5).blk t).view.emb y) := rfl

/-- What point `t` writes back is block `t` of the whole-array function of the five arrays as the
    region finds them. -/
theorem flushed5_eq (c : Dev nD) (t : Fin cfg5.N) :
    (dat5 (F := Ideal) V c).flushed 5 t
      = ((cfg5.win 5).blk t).view.read (Elt Ideal)
          (Cert.Gcn.bnRelu2 (F := Ideal) (V c (Pipeline.arrRef spec5 0)) (V c (Pipeline.arrRef spec5 1))
            (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero hz]
  simp only [View.ld_unit_zero (S := S2000x128) hz, View.ld_unit_zero (S := S1x128) hz]
  funext y
  have hy0 : (y 0).val < 2000 := (y 0).isLt
  have hy1 : (y 1).val < 128 := (y 1).isLt
  have ht : t.val < 50 := lt_of_lt_of_eq t.isLt N_5
  obtain ⟨-, -, -, -, -, -, -, -, -, -, e0, e1⟩ := idx_facts5 t
  have hx : (cfg5.win 5).xinj (grid5.coords t) y = ix2 (⟨(y 0).val, hy0⟩ : Fin 2000) (⟨(y 1).val, hy1⟩ : Fin 128) :=
    funext fun a => by
      match a with
      | ⟨0, _⟩ => rfl
      | ⟨1, _⟩ => rfl
  have hemb : ((cfg5.win 5).blk t).view.emb y
      = ix2 (⟨2000 * t.val + (y 0).val, by omega⟩ : Fin 100000) (⟨(y 1).val, hy1⟩ : Fin 128) :=
    funext fun a => Fin.ext (by
      match a with
      | ⟨0, _⟩ => show win5_5.index t (0 : Fin 2) * 2000 + 1 * (y 0).val = 2000 * t.val + (y 0).val; rw [e0]; omega
      | ⟨1, _⟩ => show win5_5.index t (1 : Fin 2) * 128 + 1 * (y 1).val = (y 1).val; rw [e1]; omega)
  rw [read_blk5, hemb]
  show k5_pay1 (F := Ideal) (iblk5 V c 0 t) (iblk5 V c 1 t) (iblk5 V c 2 t) (iblk5 V c 3 t) (iblk5 V c 4 t)
      ((cfg5.win 5).xinj (grid5.coords t) y) = _
  rw [hx]
  exact point5_eq (iblk5 V c 0 t) (iblk5 V c 1 t) (iblk5 V c 2 t) (iblk5 V c 3 t) (iblk5 V c 4 t)
    (V c (Pipeline.arrRef spec5 0)) (V c (Pipeline.arrRef spec5 1)) (V c (Pipeline.arrRef spec5 2))
    (V c (Pipeline.arrRef spec5 3)) (V c (Pipeline.arrRef spec5 4))
    ⟨(y 0).val, hy0⟩ ⟨(y 1).val, hy1⟩ ⟨2000 * t.val + (y 0).val, by omega⟩
    (iblk5_0_apply V c t _ _ _ rfl) (iblk5_1_apply V c t _) (iblk5_2_apply V c t _) (iblk5_3_apply V c t _)
    (iblk5_4_apply V c t _)

/-- An index of the result array is in point `t`'s block iff each coordinate is in the block's range. -/
theorem mem_blk5 (t : Fin cfg5.N) (i : S100000x128.Idx) :
    i ∈ ((cfg5.win 5).blk t).view.set
      ↔ ∀ a : Fin 2, win5_5.index t a * S2000x128.size a ≤ (i a).val
          ∧ (i a).val < win5_5.index t a * S2000x128.size a + S2000x128.size a := by
  show i ∈ ((View.whole main_v56).slice (win5_5.rect t)).set ↔ _
  rw [View.set_slice_whole, Rect.mem_set_unit]
  exact Iff.rfl

/-- Row `r` of the result is written by point `r / 2000`. -/
theorem cover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 50 := N_5
  have hlt : (i 0).val / 2000 < cfg5.N := by rw [hN]; omega
  obtain ⟨-, -, -, -, -, -, -, -, -, -, e0, e1⟩ := idx_facts5 ⟨(i 0).val / 2000, hlt⟩
  refine ⟨⟨(i 0).val / 2000, hlt⟩, flush5_5 _, ?_⟩
  rw [mem_blk5]
  intro a
  match a with
  | ⟨0, _⟩ =>
    show win5_5.index ⟨(i 0).val / 2000, hlt⟩ (0 : Fin 2) * 2000 ≤ (i 0).val
      ∧ (i 0).val < win5_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win5_5.index ⟨(i 0).val / 2000, hlt⟩ (1 : Fin 2) * 128 ≤ (i 1).val
      ∧ (i 1).val < win5_5.index ⟨(i 0).val / 2000, hlt⟩ (1 : Fin 2) * 128 + 128
    rw [e1]
    omega

/-- THE RESULT ARRAY after the region: the whole-array function of the five input arrays as the region
    finds them. -/
theorem final5 (c : Dev nD) :
    (dat5 (F := Ideal) V c).arrAt 5 cfg5.N
      = Cert.Gcn.bnRelu2 (F := Ideal) (V c (Pipeline.arrRef spec5 0)) (V c (Pipeline.arrRef spec5 1))
          (V c (Pipeline.arrRef spec5 2)) (V c (Pipeline.arrRef spec5 3)) (V c (Pipeline.arrRef spec5 4)) :=
  (dat5 (F := Ideal) V c).arrAt_eq_of_cover 5 _ (fun t _ => flushed5_eq V c t) cover5

end Region5

/-! ## The row form is the vector form

  The column means and variances as 1 × 128 rows are the vectors of means and variances laid out as rows: a
  vector laid out as a row reads, at (0, j), its entry j; a scalar repeated over a shape reads the scalar
  everywhere; the quotient, the choice between two values, the sum and the reciprocal square root act entry
  by entry. The column sums are never opened: they enter as one vector of 128 numbers. -/

section Rows
variable [Cert.ReferenceIdeal.Facts]

/-- A vector of 128 laid out as a 1 × 128 row reads, at (u, j), the vector's entry j. -/
theorem row1_apply (b : FVec Ideal S128 .f32) (u : Fin 1) (j : Fin 128) :
    Cert.Gcn.row1 (F := Ideal) b (ix2 u j) = b (ix1 j) := by
  unfold Cert.Gcn.row1
  exact broadcastInDim_apply _ _ b (ix2 u j) (ix1 j) (fun a => by
    match a with
    | ⟨0, _⟩ => rfl)

/-- A scalar repeated over a shape reads the scalar at every index. -/
theorem scalarB_apply {α : Type} {t : Shape} (dims : Fin S_.rank → Fin t.rank) (hb : S_.BroadcastsInDim t dims)
    (x : S_.Idx → α) (j : t.Idx) : broadcastInDim t dims hb x j = x ix0 :=
  broadcastInDim_apply dims hb x j ix0 (fun a => a.elim0)

/-- The host's quotient acts entry by entry. -/
theorem hostDivf_apply {s : Shape} (a b : FVec Ideal s .f32) (i : s.Idx) :
    Host.divf a b i = FloatOps.hostDivf (a i) (b i) := rfl

/-- The host's reciprocal square root acts entry by entry. -/
theorem hostRsqrt_apply {s : Shape} (a : FVec Ideal s .f32) (i : s.Idx) :
    Host.rsqrt a i = FloatOps.hostUnary .rsqrt (a i) := rfl

/-- A row of quotients by one scalar is the vector of quotients laid out as a row. -/
theorem divRow_eq (s : FVec Ideal S128 .f32) (n : FVec Ideal S_ .f32)
    (d2 : Fin S_.rank → Fin S1x128.rank) (h2 : S_.BroadcastsInDim S1x128 d2)
    (d1 : Fin S_.rank → Fin S128.rank) (h1 : S_.BroadcastsInDim S128 d1) :
    Host.divf (Cert.Gcn.row1 (F := Ideal) s) (broadcastInDim S1x128 d2 h2 n)
      = Cert.Gcn.row1 (F := Ideal) (Host.divf s (broadcastInDim S128 d1 h1 n)) := by
  funext i
  obtain ⟨u, j, rfl⟩ : ∃ (u : Fin 1) (j : Fin 128), i = ix2 u j := ⟨i 0, i 1, eq_ix2 i⟩
  rw [row1_apply, hostDivf_apply, hostDivf_apply, row1_apply, scalarB_apply, scalarB_apply]

/-- The same with a choice, on one scalar condition, between the quotient and a scalar. -/
theorem selRow_eq (s : FVec Ideal S128 .f32) (cnd : IVec S_ 1) (n e : FVec Ideal S_ .f32)
    (d2 : Fin S_.rank → Fin S1x128.rank) (h2 : S_.BroadcastsInDim S1x128 d2)
    (d1 : Fin S_.rank → Fin S128.rank) (h1 : S_.BroadcastsInDim S128 d1) :
    select (broadcastInDim S1x128 d2 h2 cnd)
        (Host.divf (Cert.Gcn.row1 (F := Ideal) s) (broadcastInDim S1x128 d2 h2 n)) (broadcastInDim S1x128 d2 h2 e)
      = Cert.Gcn.row1 (F := Ideal) (select (broadcastInDim S128 d1 h1 cnd)
          (Host.divf s (broadcastInDim S128 d1 h1 n)) (broadcastInDim S128 d1 h1 e)) := by
  funext i
  obtain ⟨u, j, rfl⟩ : ∃ (u : Fin 1) (j : Fin 128), i = ix2 u j := ⟨i 0, i 1, eq_ix2 i⟩
  rw [row1_apply, select_apply, select_apply, hostDivf_apply, hostDivf_apply, row1_apply]
  simp only [scalarB_apply]

/-- The reciprocal square root of a row plus one scalar is that of the vector, laid out as a row. -/
theorem rsqrtRow_eq (v : FVec Ideal S128 .f32) (e : FVec Ideal S_ .f32)
    (d2 : Fin S_.rank → Fin S1x128.rank) (h2 : S_.BroadcastsInDim S1x128 d2)
    (d1 : Fin S_.rank → Fin S128.rank) (h1 : S_.BroadcastsInDim S128 d1) :
    Host.rsqrt (addf (Cert.Gcn.row1 (F := Ideal) v) (broadcastInDim S1x128 d2 h2 e))
      = Cert.Gcn.row1 (F := Ideal) (Host.rsqrt (addf v (broadcastInDim S128 d1 h1 e))) := by
  funext i
  obtain ⟨u, j, rfl⟩ : ∃ (u : Fin 1) (j : Fin 128), i = ix2 u j := ⟨i 0, i 1, eq_ix2 i⟩
  rw [row1_apply, hostRsqrt_apply, hostRsqrt_apply, addf_apply, addf_apply, row1_apply, scalarB_apply, scalarB_apply]

/-- The column means as a row are the vector of column means laid out as a row. -/
theorem mean2_eq (h : FVec Ideal S100000x128 .f32) :
    Cert.Gcn.mean2 (F := Ideal) h = Cert.Gcn.row1 (F := Ideal) (Cert.Gcn.meanH (F := Ideal) h) := by
  unfold Cert.Gcn.mean2 Cert.Gcn.meanH
  exact divRow_eq (Cert.Gcn.colSum (F := Ideal) h) _ _ _ _ _

/-- The column variances as a row are the vector of column variances laid out as a row. -/
theorem var2_eq (h : FVec Ideal S100000x128 .f32) :
    Cert.Gcn.var2 (F := Ideal) h = Cert.Gcn.row1 (F := Ideal) (Cert.Gcn.varH (F := Ideal) h) := by
  unfold Cert.Gcn.var2 Cert.Gcn.varH
  exact selRow_eq (Cert.Gcn.colSum (F := Ideal) (Cert.Gcn.sqDev (F := Ideal) h)) _ _ _ _ _ _ _

/-- THE ROW FORM at the means, the variances, the gain and the shift laid out as rows IS THE VECTOR FORM. -/
theorem bnRelu2_eq (h : FVec Ideal S100000x128 .f32) (g be : FVec Ideal S128 .f32) :
    Cert.Gcn.bnRelu2 (F := Ideal) h (Cert.Gcn.mean2 (F := Ideal) h) (Cert.Gcn.var2 (F := Ideal) h)
        (Cert.Gcn.row1 (F := Ideal) g) (Cert.Gcn.row1 (F := Ideal) be)
      = Cert.Gcn.bnReluH (F := Ideal) h g be := by
  unfold Cert.Gcn.bnRelu2 Cert.Gcn.bnReluH
  rw [mean2_eq, var2_eq, rsqrtRow_eq]

end Rows

end Cert.Gcn.ColumnNorm

end
-- ==== Proof.UnitProject.lean ====
/-
  The last stage of the two-layer graph convolution, read off its row blocks: every row of the 100000 × 128 array
  divided by its Euclidean length (the length kept at least the float literal 1e-12), and those unit rows projected
  to 40 classes by a 128 × 40 matrix plus a bias row.

  The program computes the stage on 50 blocks of 2000 rows. On a block `h` it stores `h / max (sqrt (∑ h·h), 1e-12)`,
  the sum taken along each row, and the matrix product of that quotient with the resident weight matrix, plus the
  resident bias row repeated down the rows. At the ideal values

  * a row's entry of the first store depends on that row of `h` only: it is `rowUnit` of the row (`pay1_apply`), and so
    is the host's `unitRows` at the same row of the whole array (`unitRows_apply`) — the lane sum and the host's sum over
    axis 1 are both the sum over the row's 128 entries, the host's from the zero word, the square roots and the
    divisions are one function each, and the literal is the same word on both sides;
  * an entry `(p, c)` of the second store is `∑ k, (unit row p) k * W (k, c) + b (0, c)` (`pay2_apply`: the product into
    a zero accumulator is the bare sum, the narrowing of its operands the identity), and so is the host's `project2` at
    the same row (`project2_apply`), both contractions re-indexed through their one coordinate.

  Row `p` of the block at grid point `t` is row `2000 t + p` of the array (`rows_apply`; the index maps are decided once
  over the grid, `idx_facts`), the weight matrix and the bias row are read whole at every point (`weights_apply`,
  `bias_apply`), so what point `t` writes back is block `t` of the host's whole-array function (`flushed_feat`,
  `flushed_out`); row `r` lies in the block of point `r / 2000` (`cover_feat`, `cover_out`); hence each output array ends
  holding the host's function of the arrays the region found (`final6_feat`, `final6_out`), whatever those are.
-/
import proofs.«142040_j24154896073101_1_alg».proof.Proof.Gen.KernelIdeal.Frame
import proofs.«142040_j24154896073101_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.UnitProject

open Cert.KernelIdeal Cert.KernelIdeal.Gen

/-! ## Keepdims column forms read at an index

A vector of `a` entries as the one column of an `a × 1` matrix, and that column repeated along `b` columns: the two
layout steps between a row reduction and the matrix it scales. -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast of an `[a]` array along axis 0 of `[a, 1]` reads, at `(i, u)`, the operand at `i`. -/
theorem broadcastInDim_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A host broadcast of an `[a, 1]` array to `[a, b]` reads, at `(p, c)`, the operand's one column at row `p`. -/
theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## One row, normalised

`rowUnit X q` is entry `q` of the row `X` divided by the row's Euclidean length, the length kept at least the
float literal `1e-12` (the same word on both sides, never evaluated). -/

/-- Entry `q` of the row `X` over `max (sqrt (∑ X²)) 1e-12`. -/
def rowUnit (X : Fin 128 → EReal) (q : Fin 128) : EReal :=
  Ideal.div (X q) (max (Ideal.sqrt (∑ k : Fin 128, X k * X k)) (Ideal.ofBits .f32 0x2B8CBCCC#32))

/-- The lane sum of a 2000 × 128 block at row `p`: the sum over the row's 128 entries. -/
theorem laneSum_apply (src : FVec Ideal S2000x128 .f32) (hφ : FTy.f32 = FTy.f32 ∨ FTy.f32 = FTy.bf16)
    (hacc : (0x00000000#32 : BitVec 32) = 0x00000000#32) (p : Fin 2000) :
    multiReduction .add [1] S2000 src 0x00000000#32 reduces_S2000x128_S2000 hφ hacc (ix1 p)
      = ∑ k : Fin 128, src (ix2 p k) := by
  refine (Ideal.multiReduction_add_single src 0x00000000#32 reduces_S2000x128_S2000 hφ hacc (ix1 p)).trans ?_
  refine Finset.sum_congr rfl fun k _ => congrArg src ?_
  funext a
  match a with
  | ⟨0, _⟩ => rfl
  | ⟨1, _⟩ => rfl

/-- The kernel's first payload at `(p, q)`: row `p` of the loaded block, normalised, at `q`. -/
theorem pay1_apply (x0 : Vec Ideal S2000x128 .f32) (p : Fin 2000) (q : Fin 128) :
    k6_pay1 (F := Ideal) x0 (ix2 p q) = rowUnit (fun k => x0 (ix2 p k)) q := by
  unfold k6_pay1 rowUnit
  simp only [shapeCast_self]
  show Ideal.div (x0 (ix2 p q)) (broadcastTo S2000x128 _ broadcasts_S2000x1_S2000x128 (ix2 p q)) = _
  refine congrArg (Ideal.div (x0 (ix2 p q))) ?_
  refine (broadcastTo_a1_ab_apply _ broadcasts_S2000x1_S2000x128 p q).trans ?_
  show max (Ideal.sqrt (shapeCast S2000x1 _ shapeCasts_S2000_S2000x1 (ix2 p (0 : Fin 1)))) (Ideal.ofBits .f32 0x2B8CBCCC#32) = _
  refine congrArg (fun s => max (Ideal.sqrt s) (Ideal.ofBits .f32 0x2B8CBCCC#32)) ?_
  refine (shapeCast_a_a1_apply _ shapeCasts_S2000_S2000x1 p (0 : Fin 1)).trans ?_
  exact laneSum_apply (mulf x0 x0) _ _ p

/-! ## The host's operations at an index, over any shape -/

section HostPointwise
variable {s : Shape} {φ : FTy}

/-- The host's quotient at an index is the ideal division of the elements. -/
theorem hostDivf_apply (a b : FVec Ideal s φ) (i : s.Idx) : Host.divf a b i = Ideal.div (a i) (b i) := rfl
/-- The host's square root at an index is the ideal square root of the element. -/
theorem hostSqrt_apply (a : FVec Ideal s φ) (i : s.Idx) : Host.sqrt a i = Ideal.sqrt (a i) := rfl
end HostPointwise

/-! ## The host's row normalisation at an index -/

section HostRow
variable [Cert.ReferenceIdeal.Facts]

/-- A scalar constant broadcast to any shape reads, everywhere, the extended real its word encodes. -/
theorem hostSplat_apply {t : Shape} {φ : FTy} (h : Cert.ReferenceIdeal.S_.BroadcastsInDim t ![]) (b : BitVec φ.bits) (i : t.Idx) :
    broadcastInDim t ![] h (constant (F := Ideal) Cert.ReferenceIdeal.S_ φ b) i = Ideal.ofBits φ b := rfl

/-- The host's sum over axis 1 of a 100000 × 128 array from the zero word, at row `r`: the sum over the row's 128 entries. -/
theorem hostRowSum_apply (x : FVec Ideal Cert.ReferenceIdeal.S100000x128 .f32) (r : Fin 100000) :
    Host.reduceAdd (F := Ideal) x (constant (F := Ideal) Cert.ReferenceIdeal.S_ .f32 0x00000000#32)
        Cert.ReferenceIdeal.Facts₀.reducesTo_S100000x128_S100000_d1 Cert.ReferenceIdeal.Facts₀.h_S_ (ix1 r)
      = ∑ k : Fin 128, x (ix2 r k) := by
  show Ideal.hostReduceAdd Cert.ReferenceIdeal.Facts₀.reducesTo_S100000x128_S100000_d1 x (Ideal.ofBits .f32 0x00000000#32) (ix1 r) = _
  rw [Ideal.hostReduceAdd_single Cert.ReferenceIdeal.Facts₀.reducesTo_S100000x128_S100000_d1
    (by decide : Cert.ReferenceIdeal.S100000x128.Reduces [1] Cert.ReferenceIdeal.S100000), Ideal.ofBits_zero_f32, zero_add]
  refine Finset.sum_congr rfl fun k _ => congrArg x ?_
  funext a
  match a with
  | ⟨0, _⟩ => rfl
  | ⟨1, _⟩ => rfl

/-- The host's `unitRows` at `(r, q)`: row `r` of the array, normalised, at `q`. -/
theorem unitRows_apply (H : FVec Ideal Cert.ReferenceIdeal.S100000x128 .f32) (r : Fin 100000) (q : Fin 128) :
    Cert.Gcn.unitRows (F := Ideal) H (ix2 r q) = rowUnit (fun k => H (ix2 r k)) q := by
  unfold Cert.Gcn.unitRows Cert.Gcn.colB Cert.Gcn.rowNorm Cert.Gcn.col1 rowUnit
  refine (hostDivf_apply _ _ _).trans ?_
  refine congrArg (Ideal.div (H (ix2 r q))) ?_
  refine (broadcastInDim_a1_ab_apply _ _ r q).trans ?_
  refine (maximumf_apply _ _ _).trans ?_
  refine congrArg₂ max ?_ (hostSplat_apply _ _ _)
  refine (hostSqrt_apply _ _).trans (congrArg Ideal.sqrt ?_)
  refine (broadcastInDim_a_a1_apply _ _ r (0 : Fin 1)).trans ?_
  exact hostRowSum_apply (mulf H H) r

end HostRow

/-! ## The projection: a 128-deep contraction read at an index

Both programs contract the 128 features of a row with a column of the 128 × 40 weight matrix: the kernel by a matrix
product of a 2000-row block into a zero accumulator, the host by one product over all 100000 rows. Each is read
at `(row, c)` as `∑ k : Fin 128, lhs (row, k) * rhs (k, c)` by re-indexing the one-axis contraction index through
its one coordinate. -/

/-- The kernel's dimension numbers (rows × features times features × classes, on a row block). -/
abbrev DK := dot_S2000x128_S128x40_S2000x40_1_0_0_1_n_n

theorem lhsK (p : Fin 2000) (c : Fin 40) (k : Fin 128) :
    DK.lhsIdx (ix2 p c) ((contrEquiv1 DK 128 rfl rfl).symm k) = ix2 p k := by
  funext a; apply Fin.ext
  match a with
  | ⟨0, _⟩ => rfl
  | ⟨1, _⟩ => exact (DK.lhsIdx_val_of_single (cl := 1) rfl _ _).trans (contrEquiv1_symm_val DK 128 rfl rfl k)

theorem rhsK (p : Fin 2000) (c : Fin 40) (k : Fin 128) :
    DK.rhsIdx (ix2 p c) ((contrEquiv1 DK 128 rfl rfl).symm k) = ix2 k c := by
  funext a; apply Fin.ext
  match a with
  | ⟨0, _⟩ => exact (DK.rhsIdx_val_of_single (cr := 0) rfl _ _).trans (contrEquiv1_symm_val DK 128 rfl rfl k)
  | ⟨1, _⟩ => rfl

/-- The kernel's matrix product into the zero accumulator at `(p, c)`. -/
theorem matmulK_apply (A : FVec Ideal S2000x128 .bf16) (W : FVec Ideal S128x40 .bf16) (p : Fin 2000) (c : Fin 40) :
    matmul DK none A W (constant (F := Ideal) S2000x40 .f32 0x00000000#32) (ix2 p c)
      = ∑ k : Fin 128, A (ix2 p k) * W (ix2 k c) := by
  refine (Ideal.matmul_constant_zero_apply DK none A W (ix2 p c)).trans ?_
  rw [← Equiv.sum_comp (contrEquiv1 DK 128 rfl rfl).symm]
  refine Finset.sum_congr rfl fun k _ => ?_
  rw [lhsK p c k, rhsK p c k]

/-- The kernel's second payload at `(p, c)`: the normalised row `p` of the loaded block against column `c` of the
    weight matrix, plus the bias row's entry `c` (the narrowing to bf16 is the identity on extended reals). -/
theorem pay2_apply (x0 : Vec Ideal S2000x128 .f32) (W : Vec Ideal S128x40 .f32) (b : Vec Ideal S1x40 .f32)
    (p : Fin 2000) (c : Fin 40) :
    k6_pay2 (F := Ideal) x0 W b (ix2 p c)
      = (∑ k : Fin 128, rowUnit (fun k' => x0 (ix2 p k')) k * W (ix2 k c)) + b (ix2 (0 : Fin 1) c) := by
  unfold k6_pay2
  refine (addf_apply _ _ _).trans ?_
  refine congrArg₂ (· + ·) ?_ ?_
  · refine (matmulK_apply _ _ p c).trans (Finset.sum_congr rfl fun k _ => ?_)
    show k6_pay1 (F := Ideal) x0 (ix2 p k) * W (ix2 k c) = _
    rw [pay1_apply]
  · refine (broadcastTo_1b_ab_apply _ broadcasts_S1x40_S2000x40 p c).trans ?_
    exact congrFun (shapeCast_self b shapeCasts_S1x40_S1x40) _

section HostDot
variable [Cert.ReferenceIdeal.Facts]

/-- The host's dimension numbers (rows × features times features × classes, on the whole array). -/
abbrev DH := Cert.ReferenceIdeal.dot_S100000x128_S128x40_S100000x40_1_0_0_1_n_n

theorem lhsH (r : Fin 100000) (c : Fin 40) (k : Fin 128) :
    DH.lhsIdx (ix2 r c) ((contrEquiv1 DH 128 rfl rfl).symm k) = ix2 r k := by
  funext a; apply Fin.ext
  match a with
  | ⟨0, _⟩ => rfl
  | ⟨1, _⟩ => exact (DH.lhsIdx_val_of_single (cl := 1) rfl _ _).trans (contrEquiv1_symm_val DH 128 rfl rfl k)

theorem rhsH (r : Fin 100000) (c : Fin 40) (k : Fin 128) :
    DH.rhsIdx (ix2 r c) ((contrEquiv1 DH 128 rfl rfl).symm k) = ix2 k c := by
  funext a; apply Fin.ext
  match a with
  | ⟨0, _⟩ => exact (DH.rhsIdx_val_of_single (cr := 0) rfl _ _).trans (contrEquiv1_symm_val DH 128 rfl rfl k)
  | ⟨1, _⟩ => rfl

/-- The host's `project2` at `(r, c)`: row `r` of the features against column `c` of the weight matrix, plus the
    bias row's entry `c`. -/
theorem project2_apply (f : FVec Ideal Cert.ReferenceIdeal.S100000x128 .f32) (W : FVec Ideal Cert.ReferenceIdeal.S128x40 .f32)
    (b2 : FVec Ideal Cert.ReferenceIdeal.S1x40 .f32) (r : Fin 100000) (c : Fin 40) :
    Cert.Gcn.project2 (F := Ideal) f W b2 (ix2 r c)
      = (∑ k : Fin 128, f (ix2 r k) * W (ix2 k c)) + b2 (ix2 (0 : Fin 1) c) := by
  unfold Cert.Gcn.project2
  refine (addf_apply _ _ _).trans ?_
  refine congrArg₂ (· + ·) ?_ ?_
  · refine (Ideal.dotGeneral_apply DH none .single f W (ix2 r c)).trans ?_
    rw [← Equiv.sum_comp (contrEquiv1 DH 128 rfl rfl).symm]
    refine Finset.sum_congr rfl fun k _ => ?_
    rw [lhsH r c k, rhsH r c k]
  · exact broadcastInDim_oneRow_apply Cert.ReferenceIdeal.Facts₀.bcast_S1x40_S100000x40_0_1 b2 r c

end HostDot

/-! ## From blocks to the array: the window index maps -/

theorem hz : (![0, 0] : Fin 2 → Nat) = fun _ => 0 := funext fun a => by fin_cases a <;> rfl

/-- The printed index maps, decided over the 50 grid points: the row-blocked windows (the rows read, the unit rows
    and the scores written) sit at block `(t, 0)`, the resident ones (the weight matrix, the bias row) at block `(0, 0)`. -/
theorem idx_facts : ∀ t : Fin cfg6.N,
    win6_0.index t (0 : Fin 2) = t.val ∧ win6_0.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

section Blocks
variable (V : (c : Dev nD) → (b : Ref sig .tc) → Buf (Elt Ideal) ((c : Thread nD τ).loc b))

/-- The rows window's block at point `t` is rows `2000 t … 2000 t + 1999` of its array. -/
theorem rows_apply (c : Dev nD) (t : Fin cfg6.N) (p : Fin 2000) (k : Fin 128) (r : Fin 100000)
    (hr : r.val = 2000 * t.val + p.val) :
    (iblk6 V c 0 t : Vec Ideal S2000x128 .f32) (ix2 p k)
      = (V c (Pipeline.arrRef spec6 0) : S100000x128.Idx → EReal) (ix2 r k) := by
  obtain ⟨e00, e01, -⟩ := idx_facts t
  unfold iblk6
  rw [View.read_apply]
  show V c (Pipeline.arrRef spec6 0) (((cfg6.win 0).blk t).view.emb (ix2 p k)) = _
  refine congrArg _ (funext fun a => Fin.ext ?_)
  match a with
  | ⟨0, _⟩ => show win6_0.index t (0 : Fin 2) * 2000 + 1 * p.val = r.val; rw [e00, hr]; omega
  | ⟨1, _⟩ => show win6_0.index t (1 : Fin 2) * 128 + 1 * k.val = k.val; rw [e01]; omega

end Blocks

section Blocks2
variable (V : (c : Dev nD) → (b : Ref sig .tc) → Buf (Elt Ideal) ((c : Thread nD τ).loc b))

/-- The weight matrix is resident: its block at every point is the whole 128 × 40 array. -/
theorem weights_apply (c : Dev nD) (t : Fin cfg6.N) (k : Fin 128) (j : Fin 40) :
    (iblk6 V c 1 t : Vec Ideal S128x40 .f32) (ix2 k j)
      = (V c (Pipeline.arrRef spec6 1) : S128x40.Idx → EReal) (ix2 k j) := by
  obtain ⟨-, -, -, -, -, -, e10, e11, -⟩ := idx_facts t
  unfold iblk6
  rw [View.read_apply]
  show V c (Pipeline.arrRef spec6 1) (((cfg6.win 1).blk t).view.emb (ix2 k j)) = _
  refine congrArg _ (funext fun a => Fin.ext ?_)
  match a with
  | ⟨0, _⟩ => show win6_1.index t (0 : Fin 2) * 128 + 1 * k.val = k.val; rw [e10]; omega
  | ⟨1, _⟩ => show win6_1.index t (1 : Fin 2) * 40 + 1 * j.val = j.val; rw [e11]; omega

/-- The bias row is resident: its block at every point is the whole 1 × 40 array. -/
theorem bias_apply (c : Dev nD) (t : Fin cfg6.N) (u : Fin 1) (j : Fin 40) :
    (iblk6 V c 2 t : Vec Ideal S1x40 .f32) (ix2 u j)
      = (V c (Pipeline.arrRef spec6 2) : S1x40.Idx → EReal) (ix2 u j) := by
  obtain ⟨-, -, -, -, -, -, -, -, e20, e21⟩ := idx_facts t
  unfold iblk6
  rw [View.read_apply]
  show V c (Pipeline.arrRef spec6 2) (((cfg6.win 2).blk t).view.emb (ix2 u j)) = _
  refine congrArg _ (funext fun a => Fin.ext ?_)
  match a with
  | ⟨0, _⟩ => show win6_2.index t (0 : Fin 2) * 1 + 1 * u.val = u.val; rw [e20]; omega
  | ⟨1, _⟩ => show win6_2.index t (1 : Fin 2) * 40 + 1 * j.val = j.val; rw [e21]; omega

end Blocks2

/-! ## The unit rows window (output window 3) -/

section Feat
variable [Cert.ReferenceIdeal.Facts]
variable (V : (c : Dev nD) → (b : Ref sig .tc) → Buf (Elt Ideal) ((c : Thread nD τ).loc b))

/-- What point `t` writes back to the unit rows array is block `t` of the host's `unitRows` of the rows array:
    row `p` of the block is row `2000 t + p` of the array, and normalising a row reads that row only. -/
theorem flushed_feat (c : Dev nD) (t : Fin cfg6.N) :
    (dat6 (F := Ideal) V c).flushed 3 t
      = ((cfg6.win 3).blk t).view.read (Elt Ideal) (Cert.Gcn.unitRows (F := Ideal) (V c (Pipeline.arrRef spec6 0))) := by
  show (cfg6.win 3).cut (grid6.coords t) ((dat6 V c).after 3 t) = _
  rw [after6_3]
  unfold out6_3
  rw [View.canon_unit_zero hz]
  simp only [View.ld_unit_zero (S := S2000x128) hz]
  obtain ⟨-, -, e30, e31, -⟩ := idx_facts t
  have hN : cfg6.N = 50 := N_6
  funext y
  obtain ⟨p, q, rfl⟩ : ∃ (p : Fin 2000) (q : Fin 128), y = ix2 p q := ⟨y 0, y 1, eq_ix2 y⟩
  have hr : 2000 * t.val + p.val < 100000 := by have := t.isLt; have := p.isLt; omega
  show k6_pay1 (F := Ideal) (iblk6 V c 0 t) (ix2 p q)
    = Cert.Gcn.unitRows (F := Ideal) (V c (Pipeline.arrRef spec6 0)) (((cfg6.win 3).blk t).view.emb (ix2 p q))
  have hemb : ((cfg6.win 3).blk t).view.emb (ix2 p q) = ix2 (⟨2000 * t.val + p.val, hr⟩ : Fin 100000) q := by
    funext a; apply Fin.ext
    match a with
    | ⟨0, _⟩ => show win6_3.index t (0 : Fin 2) * 2000 + 1 * p.val = 2000 * t.val + p.val; rw [e30]; omega
    | ⟨1, _⟩ => show win6_3.index t (1 : Fin 2) * 128 + 1 * q.val = q.val; rw [e31]; omega
  rw [hemb]
  refine (pay1_apply (iblk6 V c 0 t) p q).trans ?_
  refine Eq.trans ?_ (unitRows_apply (V c (Pipeline.arrRef spec6 0)) ⟨2000 * t.val + p.val, hr⟩ q).symm
  refine congrArg (fun X => rowUnit X q) (funext fun k => ?_)
  exact rows_apply V c t p k ⟨2000 * t.val + p.val, hr⟩ rfl

/-- An index of the unit rows array is in point `t`'s block iff each coordinate is in the block's range on its axis. -/
theorem mem_blk_feat (t : Fin cfg6.N) (i : S100000x128.Idx) :
    i ∈ ((cfg6.win 3).blk t).view.set ↔ ∀ a : Fin 2, win6_3.index t a * S2000x128.size a ≤ (i a).val
      ∧ (i a).val < win6_3.index t a * S2000x128.size a + S2000x128.size a := by
  show i ∈ ((View.whole main_v58_0).slice (win6_3.rect t)).set ↔ _
  rw [View.set_slice_whole, Rect.mem_set_unit]
  exact Iff.rfl

/-- Row `r` of the unit rows array is covered by the block of point `r / 2000`. -/
theorem cover_feat (i : S100000x128.Idx) :
    ∃ t : Fin cfg6.N, (cfg6.win 3).flush t = true ∧ i ∈ ((cfg6.win 3).blk t).view.set := by
  have hN : cfg6.N = 50 := N_6
  have hi0 : (i 0).val < 100000 := (i 0).isLt
  have hi1 : (i 1).val < 128 := (i 1).isLt
  obtain ⟨-, -, e30, e31, -⟩ := idx_facts (⟨(i 0).val / 2000, by rw [hN]; omega⟩ : Fin cfg6.N)
  refine ⟨⟨(i 0).val / 2000, by rw [hN]; omega⟩, flush6_3 _, ?_⟩
  rw [mem_blk_feat]
  intro a
  match a with
  | ⟨0, _⟩ =>
    show win6_3.index _ (0 : Fin 2) * 2000 ≤ (i 0).val ∧ (i 0).val < win6_3.index _ (0 : Fin 2) * 2000 + 2000
    rw [e30]; show (i 0).val / 2000 * 2000 ≤ (i 0).val ∧ (i 0).val < (i 0).val / 2000 * 2000 + 2000; omega
  | ⟨1, _⟩ =>
    show win6_3.index _ (1 : Fin 2) * 128 ≤ (i 1).val ∧ (i 1).val < win6_3.index _ (1 : Fin 2) * 128 + 128
    rw [e31]; omega

/-- THE UNIT ROWS ARRAY after the region: the host's `unitRows` of the rows array as the region found it. -/
theorem final6_feat (c : Dev nD) :
    (dat6 (F := Ideal) V c).arrAt 3 cfg6.N = Cert.Gcn.unitRows (F := Ideal) (V c (Pipeline.arrRef spec6 0)) :=
  (dat6 (F := Ideal) V c).arrAt_eq_of_cover 3 _ (fun t _ => flushed_feat V c t) cover_feat

end Feat

/-! ## The scores window (output window 4) -/

section Out
variable [Cert.ReferenceIdeal.Facts]
variable (V : (c : Dev nD) → (b : Ref sig .tc) → Buf (Elt Ideal) ((c : Thread nD τ).loc b))

/-- What point `t` writes back to the scores array is block `t` of the host's `project2` of the unit rows, the
    weight matrix and the bias row: row `p` of the block is row `2000 t + p` of the array; the contraction reads that
    row's unit features, which depend on that row of the rows array only, and the resident operands whole. -/
theorem flushed_out (c : Dev nD) (t : Fin cfg6.N) :
    (dat6 (F := Ideal) V c).flushed 4 t
      = ((cfg6.win 4).blk t).view.read (Elt Ideal)
          (Cert.Gcn.project2 (F := Ideal) (Cert.Gcn.unitRows (F := Ideal) (V c (Pipeline.arrRef spec6 0)))
            (V c (Pipeline.arrRef spec6 1)) (V c (Pipeline.arrRef spec6 2))) := by
  show (cfg6.win 4).cut (grid6.coords t) ((dat6 V c).after 4 t) = _
  rw [after6_4]
  unfold out6_4
  rw [View.canon_unit_zero hz]
  simp only [View.ld_unit_zero (S := S2000x128) hz, View.ld_unit_zero (S := S128x40) hz, View.ld_unit_zero (S := S1x40) hz]
  obtain ⟨-, -, -, -, e40, e41, -⟩ := idx_facts t
  have hN : cfg6.N = 50 := N_6
  funext y
  obtain ⟨p, j, rfl⟩ : ∃ (p : Fin 2000) (j : Fin 40), y = ix2 p j := ⟨y 0, y 1, eq_ix2 y⟩
  have hr : 2000 * t.val + p.val < 100000 := by have := t.isLt; have := p.isLt; omega
  show k6_pay2 (F := Ideal) (iblk6 V c 0 t) (iblk6 V c 1 t) (iblk6 V c 2 t) (ix2 p j)
    = Cert.Gcn.project2 (F := Ideal) (Cert.Gcn.unitRows (F := Ideal) (V c (Pipeline.arrRef spec6 0)))
        (V c (Pipeline.arrRef spec6 1)) (V c (Pipeline.arrRef spec6 2)) (((cfg6.win 4).blk t).view.emb (ix2 p j))
  have hemb : ((cfg6.win 4).blk t).view.emb (ix2 p j) = ix2 (⟨2000 * t.val + p.val, hr⟩ : Fin 100000) j := by
    funext a; apply Fin.ext
    match a with
    | ⟨0, _⟩ => show win6_4.index t (0 : Fin 2) * 2000 + 1 * p.val = 2000 * t.val + p.val; rw [e40]; omega
    | ⟨1, _⟩ => show win6_4.index t (1 : Fin 2) * 40 + 1 * j.val = j.val; rw [e41]; omega
  rw [hemb]
  refine (pay2_apply (iblk6 V c 0 t) (iblk6 V c 1 t) (iblk6 V c 2 t) p j).trans ?_
  refine Eq.trans ?_ (project2_apply (Cert.Gcn.unitRows (F := Ideal) (V c (Pipeline.arrRef spec6 0)))
    (V c (Pipeline.arrRef spec6 1)) (V c (Pipeline.arrRef spec6 2)) ⟨2000 * t.val + p.val, hr⟩ j).symm
  refine congrArg₂ (· + ·) (Finset.sum_congr rfl fun k _ => congrArg₂ (· * ·) ?_ ?_) ?_
  · refine Eq.trans ?_ (unitRows_apply (V c (Pipeline.arrRef spec6 0)) ⟨2000 * t.val + p.val, hr⟩ k).symm
    refine congrArg (fun X => rowUnit X k) (funext fun k' => ?_)
    exact rows_apply V c t p k' ⟨2000 * t.val + p.val, hr⟩ rfl
  · exact weights_apply V c t k j
  · exact bias_apply V c t (0 : Fin 1) j

/-- An index of the scores array is in point `t`'s block iff each coordinate is in the block's range on its axis. -/
theorem mem_blk_out (t : Fin cfg6.N) (i : S100000x40.Idx) :
    i ∈ ((cfg6.win 4).blk t).view.set ↔ ∀ a : Fin 2, win6_4.index t a * S2000x40.size a ≤ (i a).val
      ∧ (i a).val < win6_4.index t a * S2000x40.size a + S2000x40.size a := by
  show i ∈ ((View.whole main_v58_1).slice (win6_4.rect t)).set ↔ _
  rw [View.set_slice_whole, Rect.mem_set_unit]
  exact Iff.rfl

/-- Row `r` of the scores array is covered by the block of point `r / 2000`. -/
theorem cover_out (i : S100000x40.Idx) :
    ∃ t : Fin cfg6.N, (cfg6.win 4).flush t = true ∧ i ∈ ((cfg6.win 4).blk t).view.set := by
  have hN : cfg6.N = 50 := N_6
  have hi0 : (i 0).val < 100000 := (i 0).isLt
  have hi1 : (i 1).val < 40 := (i 1).isLt
  obtain ⟨-, -, -, -, e40, e41, -⟩ := idx_facts (⟨(i 0).val / 2000, by rw [hN]; omega⟩ : Fin cfg6.N)
  refine ⟨⟨(i 0).val / 2000, by rw [hN]; omega⟩, flush6_4 _, ?_⟩
  rw [mem_blk_out]
  intro a
  match a with
  | ⟨0, _⟩ =>
    show win6_4.index _ (0 : Fin 2) * 2000 ≤ (i 0).val ∧ (i 0).val < win6_4.index _ (0 : Fin 2) * 2000 + 2000
    rw [e40]; show (i 0).val / 2000 * 2000 ≤ (i 0).val ∧ (i 0).val < (i 0).val / 2000 * 2000 + 2000; omega
  | ⟨1, _⟩ =>
    show win6_4.index _ (1 : Fin 2) * 40 ≤ (i 1).val ∧ (i 1).val < win6_4.index _ (1 : Fin 2) * 40 + 40
    rw [e41]; omega

/-- THE SCORES ARRAY after the region: the host's `project2` of the unit rows of the rows array, the weight matrix
    and the bias row, each as the region found it. -/
theorem final6_out (c : Dev nD) :
    (dat6 (F := Ideal) V c).arrAt 4 cfg6.N
      = Cert.Gcn.project2 (F := Ideal) (Cert.Gcn.unitRows (F := Ideal) (V c (Pipeline.arrRef spec6 0)))
          (V c (Pipeline.arrRef spec6 1)) (V c (Pipeline.arrRef spec6 2)) :=
  (dat6 (F := Ideal) V c).arrAt_eq_of_cover 4 _ (fun t _ => flushed_out V c t) cover_out

end Out

end Cert.UnitProject

end
-- ==== Proof.RefOps.lean ====
/-
  The reference program's @main as a list of its 178 host operations, the outlined functions' operations
  listed at their call sites over each call's own buffers. The list is cut where a stage of the graph
  convolution ends (the degree scalings; each layer's aggregation; each layer's column normalisation; the
  row normalisation; the projection), and once more at the ends of the windows `main_part0` and `main_part1` in which
  @main is stated. Here: the lists,
  that @main is the straight line of their concatenation, that every operation touches TensorCore references
  only and determines its result, and for each list the buffers it writes, so that any other buffer is known to
  keep its contents through it.
-/
import proofs.«142040_j24154896073101_1_alg».proof.Proof.Gen.ReferenceIdeal
import proofs.«142040_j24154896073101_1_alg».proof.Proof.Spec
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-- Running two lists one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- 24 operations: the two degree vectors, clipped below at 1 and raised to the power -1/2. -/
abbrev opsA : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.TRef.unary (.of main_cst_1 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.binary (.of main_call0_v1 : StableHlo.TRef sig ⟨S100000, .f32⟩) (.of main_v3 : StableHlo.TRef sig ⟨S100000, .f32⟩) (.of main_v4 : StableHlo.TRef sig ⟨S100000, .f32⟩) maximumf,
    StableHlo.nullary main_cst_2 (constant S_ .f32 0x00000000#32),
    StableHlo.unary main_cst_2 main_v5 (broadcastInDim S100000 ![] bcast_S_S100000 : (⟨S_, .f32⟩ : BufTy).Contents (Elt F) → (⟨S100000, .f32⟩ : BufTy).Contents (Elt F)),
    StableHlo.unary main_arg2 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v0 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.binary (.of main_call1_v1 : StableHlo.TRef sig ⟨S100000, .f32⟩) (.of main_v7 : StableHlo.TRef sig ⟨S100000, .f32⟩) (.of main_v8 : StableHlo.TRef sig ⟨S100000, .f32⟩) maximumf,
    StableHlo.nullary main_cst_4 (constant S_ .f32 0xBF000000#32),
    StableHlo.unary main_cst_4 main_v9 (broadcastInDim S100000 ![] bcast_S_S100000 : (⟨S_, .f32⟩ : BufTy).Contents (Elt F) → (⟨S100000, .f32⟩ : BufTy).Contents (Elt F)),
    StableHlo.binary main_v4 main_v9 main_v10 (Host.powf : (⟨S100000, .f32⟩ : BufTy).Contents (Elt F) → (⟨S100000, .f32⟩ : BufTy).Contents (Elt F) → (⟨S100000, .f32⟩ : BufTy).Contents (Elt F)),
    StableHlo.nullary main_cst_5 (constant S_ .f32 0xBF000000#32),
    StableHlo.unary main_cst_5 main_v11 (broadcastInDim S100000 ![] bcast_S_S100000 : (⟨S_, .f32⟩ : BufTy).Contents (Elt F) → (⟨S100000, .f32⟩ : BufTy).Contents (Elt F)),
    StableHlo.binary main_v8 main_v11 main_v12 (Host.powf : (⟨S100000, .f32⟩ : BufTy).Contents (Elt F) → (⟨S100000, .f32⟩ : BufTy).Contents (Elt F) → (⟨S100000, .f32⟩ : BufTy).Contents (Elt F)) ]
theorem opsA_sub : (opsA : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., nullary_bufs_sub .., unary_bufs_sub .., binary_bufs_sub ..⟩
theorem opsA_fresh : ∀ op ∈ (opsA : List (HloOp τ sig (Elt F))), op.fresh = ∅ := by
  intro _ h; (repeat (cases h with | head => rfl | tail _ h => ?_)); exact nomatch h
/-- The buffers these operations write. -/
abbrev opsA_W : List (Ref sig .tc) := [main_cst, main_v0, main_cst_0, main_v1, main_v2, main_v3, main_cst_1, main_call0_v0, main_call0_v1, main_v4, main_cst_2, main_v5, main_v6, main_v7, main_cst_3, main_call1_v0, main_call1_v1, main_v8, main_cst_4, main_v9, main_v10, main_cst_5, main_v11, main_v12]
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem keepA (V : Valuation τ sig (Elt F)) (r : Ref sig .tc) (h : r ∉ opsA_W) :
    after opsA V (Proc.devRef .tc r) = V (Proc.devRef .tc r) :=
  after_of_writes_sub opsA V opsA_writes h

/-- 23 operations: layer 1: the product with the weights, the scaling, the sum over the edges, the scaling, the bias. -/
abbrev opsB : List (HloOp τ sig (Elt F)) :=
  [ StableHlo.binary main_arg0 main_arg3 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v10 main_v14 (broadcastInDim S100000x1 ![0] bcast_S100000_S100000x1_0 : (⟨S100000, .f32⟩ : BufTy).Contents (Elt F) → (⟨S100000x1, .f32⟩ : BufTy).Contents (Elt F)),
    StableHlo.unary main_v14 main_v15 (broadcastInDim S100000x128 ![0, 1] bcast_S100000x1_S100000x128_0_1 : (⟨S100000x1, .f32⟩ : BufTy).Contents (Elt F) → (⟨S100000x128, .f32⟩ : BufTy).Contents (Elt F)),
    StableHlo.binary main_v13 main_v15 main_v16 (mulf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v17 (broadcastInDim S1600000 ![] bcast_S_S1600000 : (⟨S_, .i32⟩ : BufTy).Contents (Elt F) → (⟨S1600000, .i32⟩ : BufTy).Contents (Elt F)),
    StableHlo.binary main_arg1 main_v17 main_v18 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v19 (broadcastInDim S1600000 ![] bcast_S_S1600000 : (⟨S_, .i32⟩ : BufTy).Contents (Elt F) → (⟨S1600000, .i32⟩ : BufTy).Contents (Elt F)),
    StableHlo.binary main_arg1 main_v19 main_v20 (addi : (⟨S1600000, .i32⟩ : BufTy).Contents (Elt F) → (⟨S1600000, .i32⟩ : BufTy).Contents (Elt F) → (⟨S1600000, .i32⟩ : BufTy).Contents (Elt F)),
    StableHlo.ternary main_v18 main_v20 main_arg1 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v21 main_v22 (broadcastInDim S1600000x1 ![0] bcast_S1600000_S1600000x1_0 : (⟨S1600000, .i32⟩ : BufTy).Contents (Elt F) → (⟨S1600000x1, .i32⟩ : BufTy).Contents (Elt F)),
    StableHlo.binary main_v16 main_v22 main_v23 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v24 (broadcastInDim S100000x128 ![] bcast_S_S100000x128 : (⟨S_, .f32⟩ : BufTy).Contents (Elt F) → (⟨S100000x128, .f32⟩ : BufTy).Contents (Elt F)),
    StableHlo.unary main_arg2 main_v25 (broadcastInDim S1600000x1 ![0] bcast_S1600000_S1600000x1_0 : (⟨S1600000, .i32⟩ : BufTy).Contents (Elt F) → (⟨S1600000x1, .i32⟩ : BufTy).Contents (Elt F)),
    StableHlo.ternary main_v24 main_v25 main_v23 main_v26 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v27 (broadcastInDim S100000x1 ![0] bcast_S100000_S100000x1_0 : (⟨S100000, .f32⟩ : BufTy).Contents (Elt F) → (⟨S100000x1, .f32⟩ : BufTy).Contents (Elt F)),
    StableHlo.unary main_v27 main_v28 (broadcastInDim S100000x128 ![0, 1] bcast_S100000x1_S100000x128_0_1 : (⟨S100000x1, .f32⟩ : BufTy).Contents (Elt F) → (⟨S100000x128, .f32⟩ : BufTy).Contents (Elt F)),
    StableHlo.binary main_v26 main_v28 main_v29 (mulf : (⟨S100000x128, .f32⟩ : BufTy).Contents (Elt F) → (⟨S100000x128, .f32⟩ : BufTy).Contents (Elt F) → (⟨S100000x128, .f32⟩ : BufTy).Contents (Elt F)),
    StableHlo.unary main_arg4 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (addf : (⟨S100000x128, .f32⟩ : BufTy).Contents (Elt F) → (⟨S100000x128, .f32⟩ : BufTy).Contents (Elt F) → (⟨S100000x128, .f32⟩ : BufTy).Contents (Elt F)) ]
theorem opsB_sub : (opsB : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩
theorem opsB_fresh : ∀ op ∈ (opsB : List (HloOp τ sig (Elt F))), op.fresh = ∅ := by
  intro _ h; (repeat (cases h with | head => rfl | tail _ h => ?_)); exact nomatch h
/-- The buffers these operations write. -/
abbrev opsB_W : List (Ref sig .tc) := [main_v13, main_v14, main_v15, main_v16, main_c, main_v17, main_v18, main_c_6, main_v19, main_v20, main_v21, main_v22, main_v23, main_cst_7, main_v24, main_v25, main_v26, main_v27, main_v28, main_v29, main_v30, main_v31, main_v32]
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem keepB (V : Valuation τ sig (Elt F)) (r : Ref sig .tc) (h : r ∉ opsB_W) :
    after opsB V (Proc.devRef .tc r) = V (Proc.devRef .tc r) :=
  after_of_writes_sub opsB V opsB_writes h

/-- 38 operations: layer 1: the column means and variances and the normalised rows. -/
abbrev opsC1 : List (HloOp τ sig (Elt F)) :=
  [ StableHlo.nullary main_cst_8 (constant S_ .f32 0x00000000#32),
    StableHlo.binary main_v32 main_cst_8 main_v33 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary (.of main_call2_cst : StableHlo.TRef sig ⟨S_, .f32⟩) (constant S_ .f32 0x00000000#32),
    StableHlo.TRef.binary (.of main_v32 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v32 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_10 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v36 : StableHlo.TRef sig ⟨S128, .f32⟩) (fun p a b => select (broadcastInDim S128 ![] bcast_S_S128 p) a b),
    StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v38 main_v39 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v40 (broadcastInDim S128 ![] bcast_S_S128 : (⟨S_, .f32⟩ : BufTy).Contents (Elt F) → (⟨S128, .f32⟩ : BufTy).Contents (Elt F)),
    StableHlo.binary main_v36 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.rsqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v44 main_v45 (mulf : (⟨S100000x128, .f32⟩ : BufTy).Contents (Elt F) → (⟨S100000x128, .f32⟩ : BufTy).Contents (Elt F) → (⟨S100000x128, .f32⟩ : BufTy).Contents (Elt F)) ]
theorem opsC1_sub : (opsC1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
theorem opsC1_fresh : ∀ op ∈ (opsC1 : List (HloOp τ sig (Elt F))), op.fresh = ∅ := by
  intro _ h; (repeat (cases h with | head => rfl | tail _ h => ?_)); exact nomatch h
/-- The buffers these operations write. -/
abbrev opsC1_W : List (Ref sig .tc) := [main_cst_8, main_v33, main_cst_9, main_v34, main_v35, main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v36, main_v37, main_v38, main_v39, main_cst_11, main_v40, main_v41, main_v42, main_v43, main_v44, main_v45]
theorem opsC1_writes : (opsC1 : List (HloOp τ sig (Elt F))).Forall fun op => op.writes ⊆ (opsC1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem keepC1 (V : Valuation τ sig (Elt F)) (r : Ref sig .tc) (h : r ∉ opsC1_W) :
    after opsC1 V (Proc.devRef .tc r) = V (Proc.devRef .tc r) :=
  after_of_writes_sub opsC1 V opsC1_writes h

/-- 9 operations: layer 1: the gain, the shift and the positive part. -/
abbrev opsC2 : List (HloOp τ sig (Elt F)) :=
  [ StableHlo.unary main_arg5 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (mulf : (⟨S100000x128, .f32⟩ : BufTy).Contents (Elt F) → (⟨S100000x128, .f32⟩ : BufTy).Contents (Elt F) → (⟨S100000x128, .f32⟩ : BufTy).Contents (Elt F)),
    StableHlo.unary main_arg6 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v51 : StableHlo.TRef sig ⟨S100000x128, .f32⟩) (.of main_call3_v0 : StableHlo.TRef sig ⟨S100000x128, .f32⟩) (.of main_v52 : StableHlo.TRef sig ⟨S100000x128, .f32⟩) maximumf ]
theorem opsC2_sub : (opsC2 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub ..⟩
theorem opsC2_fresh : ∀ op ∈ (opsC2 : List (HloOp τ sig (Elt F))), op.fresh = ∅ := by
  intro _ h; (repeat (cases h with | head => rfl | tail _ h => ?_)); exact nomatch h
/-- The buffers these operations write. -/
abbrev opsC2_W : List (Ref sig .tc) := [main_v46, main_v47, main_v48, main_v49, main_v50, main_v51, main_call3_cst, main_call3_v0, main_v52]
theorem opsC2_writes : (opsC2 : List (HloOp τ sig (Elt F))).Forall fun op => op.writes ⊆ (opsC2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem keepC2 (V : Valuation τ sig (Elt F)) (r : Ref sig .tc) (h : r ∉ opsC2_W) :
    after opsC2 V (Proc.devRef .tc r) = V (Proc.devRef .tc r) :=
  after_of_writes_sub opsC2 V opsC2_writes h

/-- 23 operations: layer 2: the product with the weights, the scaling, the sum over the edges, the scaling, the bias. -/
abbrev opsD : List (HloOp τ sig (Elt F)) :=
  [ StableHlo.binary main_v52 main_arg7 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v10 main_v54 (broadcastInDim S100000x1 ![0] bcast_S100000_S100000x1_0 : (⟨S100000, .f32⟩ : BufTy).Contents (Elt F) → (⟨S100000x1, .f32⟩ : BufTy).Contents (Elt F)),
    StableHlo.unary main_v54 main_v55 (broadcastInDim S100000x128 ![0, 1] bcast_S100000x1_S100000x128_0_1 : (⟨S100000x1, .f32⟩ : BufTy).Contents (Elt F) → (⟨S100000x128, .f32⟩ : BufTy).Contents (Elt F)),
    StableHlo.binary main_v53 main_v55 main_v56 (mulf : (⟨S100000x128, .f32⟩ : BufTy).Contents (Elt F) → (⟨S100000x128, .f32⟩ : BufTy).Contents (Elt F) → (⟨S100000x128, .f32⟩ : BufTy).Contents (Elt F)),
    StableHlo.nullary main_c_12 (constantI S_ 32 0#32),
    StableHlo.unary main_c_12 main_v57 (broadcastInDim S1600000 ![] bcast_S_S1600000 : (⟨S_, .i32⟩ : BufTy).Contents (Elt F) → (⟨S1600000, .i32⟩ : BufTy).Contents (Elt F)),
    StableHlo.binary main_arg1 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v59 (broadcastInDim S1600000 ![] bcast_S_S1600000 : (⟨S_, .i32⟩ : BufTy).Contents (Elt F) → (⟨S1600000, .i32⟩ : BufTy).Contents (Elt F)),
    StableHlo.binary main_arg1 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_arg1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v56 main_v62 main_v63 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v64 (broadcastInDim S100000x128 ![] bcast_S_S100000x128 : (⟨S_, .f32⟩ : BufTy).Contents (Elt F) → (⟨S100000x128, .f32⟩ : BufTy).Contents (Elt F)),
    StableHlo.unary main_arg2 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v67 (broadcastInDim S100000x1 ![0] bcast_S100000_S100000x1_0 : (⟨S100000, .f32⟩ : BufTy).Contents (Elt F) → (⟨S100000x1, .f32⟩ : BufTy).Contents (Elt F)),
    StableHlo.unary main_v67 main_v68 (broadcastInDim S100000x128 ![0, 1] bcast_S100000x1_S100000x128_0_1 : (⟨S100000x1, .f32⟩ : BufTy).Contents (Elt F) → (⟨S100000x128, .f32⟩ : BufTy).Contents (Elt F)),
    StableHlo.binary main_v66 main_v68 main_v69 (mulf : (⟨S100000x128, .f32⟩ : BufTy).Contents (Elt F) → (⟨S100000x128, .f32⟩ : BufTy).Contents (Elt F) → (⟨S100000x128, .f32⟩ : BufTy).Contents (Elt F)),
    StableHlo.unary main_arg8 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v69 main_v71 main_v72 (addf : (⟨S100000x128, .f32⟩ : BufTy).Contents (Elt F) → (⟨S100000x128, .f32⟩ : BufTy).Contents (Elt F) → (⟨S100000x128, .f32⟩ : BufTy).Contents (Elt F)) ]
theorem opsD_sub : (opsD : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩
theorem opsD_fresh : ∀ op ∈ (opsD : List (HloOp τ sig (Elt F))), op.fresh = ∅ := by
  intro _ h; (repeat (cases h with | head => rfl | tail _ h => ?_)); exact nomatch h
/-- The buffers these operations write. -/
abbrev opsD_W : List (Ref sig .tc) := [main_v53, main_v54, main_v55, main_v56, main_c_12, main_v57, main_v58, main_c_13, main_v59, main_v60, main_v61, main_v62, main_v63, main_cst_14, main_v64, main_v65, main_v66, main_v67, main_v68, main_v69, main_v70, main_v71, main_v72]
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem keepD (V : Valuation τ sig (Elt F)) (r : Ref sig .tc) (h : r ∉ opsD_W) :
    after opsD V (Proc.devRef .tc r) = V (Proc.devRef .tc r) :=
  after_of_writes_sub opsD V opsD_writes h

/-- 47 operations: layer 2: the column normalisation, the gain, the shift and the positive part. -/
abbrev opsE : List (HloOp τ sig (Elt F)) :=
  [ StableHlo.nullary main_cst_15 (constant S_ .f32 0x00000000#32),
    StableHlo.binary main_v72 main_cst_15 main_v73 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v74 (broadcastInDim S128 ![] bcast_S_S128 : (⟨S_, .f32⟩ : BufTy).Contents (Elt F) → (⟨S128, .f32⟩ : BufTy).Contents (Elt F)),
    StableHlo.binary main_v73 main_v74 main_v75 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary (.of main_call4_cst : StableHlo.TRef sig ⟨S_, .f32⟩) (constant S_ .f32 0x00000000#32),
    StableHlo.TRef.binary (.of main_v72 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v72 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_17 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v76 : StableHlo.TRef sig ⟨S128, .f32⟩) (fun p a b => select (broadcastInDim S128 ![] bcast_S_S128 p) a b),
    StableHlo.unary main_v75 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v72 main_v78 main_v79 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v80 (broadcastInDim S128 ![] bcast_S_S128 : (⟨S_, .f32⟩ : BufTy).Contents (Elt F) → (⟨S128, .f32⟩ : BufTy).Contents (Elt F)),
    StableHlo.binary main_v76 main_v80 main_v81 (addf : (⟨S128, .f32⟩ : BufTy).Contents (Elt F) → (⟨S128, .f32⟩ : BufTy).Contents (Elt F) → (⟨S128, .f32⟩ : BufTy).Contents (Elt F)),
    StableHlo.unary main_v81 main_v82 (Host.rsqrt : (⟨S128, .f32⟩ : BufTy).Contents (Elt F) → (⟨S128, .f32⟩ : BufTy).Contents (Elt F)),
    StableHlo.unary main_v82 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v84 main_v85 (mulf : (⟨S100000x128, .f32⟩ : BufTy).Contents (Elt F) → (⟨S100000x128, .f32⟩ : BufTy).Contents (Elt F) → (⟨S100000x128, .f32⟩ : BufTy).Contents (Elt F)),
    StableHlo.unary main_arg9 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v87 main_v88 (mulf : (⟨S100000x128, .f32⟩ : BufTy).Contents (Elt F) → (⟨S100000x128, .f32⟩ : BufTy).Contents (Elt F) → (⟨S100000x128, .f32⟩ : BufTy).Contents (Elt F)),
    StableHlo.unary main_arg10 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v90 main_v91 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x128, .f32⟩) (broadcastInDim S100000x128 ![] bcast_S_S100000x128),
    StableHlo.TRef.binary (.of main_v91 : StableHlo.TRef sig ⟨S100000x128, .f32⟩) (.of main_call5_v0 : StableHlo.TRef sig ⟨S100000x128, .f32⟩) (.of main_v92 : StableHlo.TRef sig ⟨S100000x128, .f32⟩) maximumf ]
theorem opsE_sub : (opsE : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsE_fresh : ∀ op ∈ (opsE : List (HloOp τ sig (Elt F))), op.fresh = ∅ := by
  intro _ h; (repeat (cases h with | head => rfl | tail _ h => ?_)); exact nomatch h
/-- The buffers these operations write. -/
abbrev opsE_W : List (Ref sig .tc) := [main_cst_15, main_v73, main_cst_16, main_v74, main_v75, main_c_17, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v76, main_v77, main_v78, main_v79, main_cst_18, main_v80, main_v81, main_v82, main_v83, main_v84, main_v85, main_v86, main_v87, main_v88, main_v89, main_v90, main_v91, main_call5_cst, main_call5_v0, main_v92]
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem keepE (V : Valuation τ sig (Elt F)) (r : Ref sig .tc) (h : r ∉ opsE_W) :
    after opsE V (Proc.devRef .tc r) = V (Proc.devRef .tc r) :=
  after_of_writes_sub opsE V opsE_writes h

/-- 10 operations: the rows' lengths and the rows divided by them. -/
abbrev opsF1 : List (HloOp τ sig (Elt F)) :=
  [ StableHlo.TRef.binary (.of main_v92 : StableHlo.TRef sig ⟨S100000x128, .f32⟩) (.of main_v92 : StableHlo.TRef sig ⟨S100000x128, .f32⟩) (.of main_call6_v0 : StableHlo.TRef sig ⟨S100000x128, .f32⟩) mulf,
    StableHlo.TRef.nullary (.of main_call6_cst : StableHlo.TRef sig ⟨S_, .f32⟩) (constant S_ .f32 0x00000000#32),
    StableHlo.TRef.binary (.of main_call6_v0 : StableHlo.TRef sig ⟨S100000x128, .f32⟩) (.of main_call6_cst : StableHlo.TRef sig ⟨S_, .f32⟩) (.of main_call6_v1 : StableHlo.TRef sig ⟨S100000, .f32⟩) (fun x v => Host.reduceAdd x v reducesTo_S100000x128_S100000_d1 h_S_),
    StableHlo.TRef.unary (.of main_call6_v1 : StableHlo.TRef sig ⟨S100000, .f32⟩) (.of main_call6_v2 : StableHlo.TRef sig ⟨S100000x1, .f32⟩) (broadcastInDim S100000x1 ![0] bcast_S100000_S100000x1_0),
    StableHlo.TRef.unary (.of main_call6_v2 : StableHlo.TRef sig ⟨S100000x1, .f32⟩) (.of main_v93 : StableHlo.TRef sig ⟨S100000x1, .f32⟩) Host.sqrt,
    StableHlo.nullary main_cst_19 (constant S_ .f32 0x2B8CBCCC#32),
    StableHlo.unary main_cst_19 main_v94 (broadcastInDim S100000x1 ![] bcast_S_S100000x1 : (⟨S_, .f32⟩ : BufTy).Contents (Elt F) → (⟨S100000x1, .f32⟩ : BufTy).Contents (Elt F)),
    StableHlo.binary main_v93 main_v94 main_v95 (maximumf : (⟨S100000x1, .f32⟩ : BufTy).Contents (Elt F) → (⟨S100000x1, .f32⟩ : BufTy).Contents (Elt F) → (⟨S100000x1, .f32⟩ : BufTy).Contents (Elt F)),
    StableHlo.unary main_v95 main_v96 (broadcastInDim S100000x128 ![0, 1] bcast_S100000x1_S100000x128_0_1 : (⟨S100000x1, .f32⟩ : BufTy).Contents (Elt F) → (⟨S100000x128, .f32⟩ : BufTy).Contents (Elt F)),
    StableHlo.binary main_v92 main_v96 main_v97 (Host.divf : (⟨S100000x128, .f32⟩ : BufTy).Contents (Elt F) → (⟨S100000x128, .f32⟩ : BufTy).Contents (Elt F) → (⟨S100000x128, .f32⟩ : BufTy).Contents (Elt F)) ]
theorem opsF1_sub : (opsF1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem opsF1_fresh : ∀ op ∈ (opsF1 : List (HloOp τ sig (Elt F))), op.fresh = ∅ := by
  intro _ h; (repeat (cases h with | head => rfl | tail _ h => ?_)); exact nomatch h
/-- The buffers these operations write. -/
abbrev opsF1_W : List (Ref sig .tc) := [main_call6_v0, main_call6_cst, main_call6_v1, main_call6_v2, main_v93, main_cst_19, main_v94, main_v95, main_v96, main_v97]
theorem opsF1_writes : (opsF1 : List (HloOp τ sig (Elt F))).Forall fun op => op.writes ⊆ (opsF1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem keepF1 (V : Valuation τ sig (Elt F)) (r : Ref sig .tc) (h : r ∉ opsF1_W) :
    after opsF1 V (Proc.devRef .tc r) = V (Proc.devRef .tc r) :=
  after_of_writes_sub opsF1 V opsF1_writes h

/-- 4 operations: the projection to the classes. -/
abbrev opsF2 : List (HloOp τ sig (Elt F)) :=
  [ StableHlo.binary main_v97 main_arg11 main_v98 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg12 main_v99 (broadcastInDim S1x40 ![1] bcast_S40_S1x40_1 : (⟨S40, .f32⟩ : BufTy).Contents (Elt F) → (⟨S1x40, .f32⟩ : BufTy).Contents (Elt F)),
    StableHlo.unary main_v99 main_v100 (broadcastInDim S100000x40 ![0, 1] bcast_S1x40_S100000x40_0_1 : (⟨S1x40, .f32⟩ : BufTy).Contents (Elt F) → (⟨S100000x40, .f32⟩ : BufTy).Contents (Elt F)),
    StableHlo.binary main_v98 main_v100 main_v101 (addf : (⟨S100000x40, .f32⟩ : BufTy).Contents (Elt F) → (⟨S100000x40, .f32⟩ : BufTy).Contents (Elt F) → (⟨S100000x40, .f32⟩ : BufTy).Contents (Elt F)) ]
theorem opsF2_sub : (opsF2 : List (HloOp τ sig (Elt F))).Forall fun op => op.bufs ⊆ tcRefs τ sig :=
  ⟨binary_bufs_sub .., unary_bufs_sub .., unary_bufs_sub .., binary_bufs_sub ..⟩
theorem opsF2_fresh : ∀ op ∈ (opsF2 : List (HloOp τ sig (Elt F))), op.fresh = ∅ := by
  intro _ h; (repeat (cases h with | head => rfl | tail _ h => ?_)); exact nomatch h
/-- The buffers these operations write. -/
abbrev opsF2_W : List (Ref sig .tc) := [main_v98, main_v99, main_v100, main_v101]
theorem opsF2_writes : (opsF2 : List (HloOp τ sig (Elt F))).Forall fun op => op.writes ⊆ (opsF2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem keepF2 (V : Valuation τ sig (Elt F)) (r : Ref sig .tc) (h : r ∉ opsF2_W) :
    after opsF2 V (Proc.devRef .tc r) = V (Proc.devRef .tc r) :=
  after_of_writes_sub opsF2 V opsF2_writes h

/-- @main's 178 operations, in order. -/
abbrev ops : List (HloOp τ sig (Elt F)) :=
  opsA ++ (opsB ++ (opsC1 ++ (opsC2 ++ (opsD ++ (opsE ++ (opsF1 ++ (opsF2)))))))

set_option maxRecDepth 8192 in
set_option maxHeartbeats 4000000 in
/-- A window of @main is the straight line of its lists: the outlined functions unfolded at their calls, sequencing reassociated. -/
theorem main_part0_eq (c : Dev nD) : main_part0 (F := F) c = seq (opsA ++ (opsB ++ (opsC1))) := by
  simp only [main_part0, fn_clip.body, fn_where.body, fn_var.body, fn_relu.body, fn_norm.body, opsA, opsB, opsC1, List.cons_append, List.nil_append, seq, bind_assoc, pure_bind]
  rfl
set_option maxRecDepth 8192 in
set_option maxHeartbeats 4000000 in
/-- A window of @main is the straight line of its lists: the outlined functions unfolded at their calls, sequencing reassociated. -/
theorem main_part1_eq (c : Dev nD) : main_part1 (F := F) c = seq (opsC2 ++ (opsD ++ (opsE ++ (opsF1)))) := by
  simp only [main_part1, fn_clip.body, fn_where.body, fn_var.body, fn_relu.body, fn_norm.body, opsC2, opsD, opsE, opsF1, List.cons_append, List.nil_append, seq, bind_assoc, pure_bind]
  rfl
set_option maxRecDepth 8192 in
set_option maxHeartbeats 4000000 in
/-- A window of @main is the straight line of its lists: the outlined functions unfolded at their calls, sequencing reassociated. -/
theorem main_part2_eq (c : Dev nD) : main_part2 (F := F) c = seq (opsF2) := by
  simp only [main_part2, fn_clip.body, fn_where.body, fn_var.body, fn_relu.body, fn_norm.body, opsF2, List.cons_append, List.nil_append, seq, bind_assoc, pure_bind]
theorem main_eq (c : Dev nD) : main (F := F) c = seq ops := by
  simp only [main, main_part0_eq, main_part1_eq, main_part2_eq, ops, seq_append, bind_assoc]
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsA_sub op h, List.forall_iff_forall_mem.mp opsB_sub op h, List.forall_iff_forall_mem.mp opsC1_sub op h, List.forall_iff_forall_mem.mp opsC2_sub op h, List.forall_iff_forall_mem.mp opsD_sub op h, List.forall_iff_forall_mem.mp opsE_sub op h, List.forall_iff_forall_mem.mp opsF1_sub op h, List.forall_iff_forall_mem.mp opsF2_sub op h]
theorem ops_fresh : ∀ op ∈ (ops : List (HloOp τ sig (Elt F))), op.fresh = ∅ := fun op h => by
  simp only [ops, List.mem_append] at h
  rcases h with h | h | h | h | h | h | h | h
  exacts [opsA_fresh op h, opsB_fresh op h, opsC1_fresh op h, opsC2_fresh op h, opsD_fresh op h, opsE_fresh op h, opsF1_fresh op h, opsF2_fresh op h]

end Cert.ReferenceIdeal.HandRun

end
-- ==== Proof.RefRun.lean ====
/-
  The reference program's run, read back against the whole-array statement of the two-layer graph convolution.

  The operation list is read stage by stage from an arbitrary valuation of the buffers: after the first list
  the two degree scalings are the statement's `invSqrtDeg`; after a layer's aggregation list its buffer holds
  `scaleShift2 (aggregate (linScale2 …))` of the contents read; after a layer's normalisation lists `bnReluH` of
  them; after the last two lists `unitRows` and `project2`. Each such equation is the fold of the list's
  operations unrolled at one buffer, and the two sides then agree by unfolding the statement's definitions
  (no array is evaluated: the reductions, the scatter, the gather and the power stay folded). Between the
  stages a buffer that a list does not write keeps its contents. Chaining the stages from the launch contents
  gives `scores` and `feat` of the thirteen arguments, and the arguments themselves unchanged.
-/
import proofs.«142040_j24154896073101_1_alg».proof.Proof.Gen.ReferenceIdeal
import proofs.«142040_j24154896073101_1_alg».proof.Proof.Spec
import Idealize.ShloMosaic.Lib.StableHlo.Run
import proofs.«142040_j24154896073101_1_alg».proof.Proof.RefOps

noncomputable section

namespace Cert.ReferenceIdeal.HandRun

open Cert.ReferenceIdeal Cert.ReferenceIdeal.Facts₀ Idealize.ShloMosaic Idealize.ShloMosaic.TcCoe Idealize.SL.Sem Idealize.ShloMosaic.StableHlo
open Cert.Gcn

variable {F : FTy → Type} [FloatOps F] [Facts]

attribute [local irreducible] Host.reduceAdd Host.scatterAdd Host.gather Host.powf

/-! ## Each stage from any contents -/

section Stages

variable (V : Valuation τ sig (Elt F))

/-- The out-degree scaling: the count of each node among the sources, at least 1, to the power -1/2. -/
theorem A_v10 : after opsA V (Proc.devRef .tc main_v10) = invSqrtDeg (F := F) (V (Proc.devRef .tc main_arg1)) := by
  simp only [opsA]
  after_results_simp
  rfl

/-- The in-degree scaling, the same over the destinations. -/
theorem A_v12 : after opsA V (Proc.devRef .tc main_v12) = invSqrtDeg (F := F) (V (Proc.devRef .tc main_arg2)) := by
  simp only [opsA]
  after_results_simp
  rfl

/-- Layer 1 before its normalisation, from the rows, the weights, the two scalings, the edges and the bias. -/
theorem B_v32 : after opsB V (Proc.devRef .tc main_v32)
    = scaleShift2 (aggregate (linScale2 (V (Proc.devRef .tc main_arg0)) (V (Proc.devRef .tc main_arg3)) (col1 (V (Proc.devRef .tc main_v10))))
        (V (Proc.devRef .tc main_arg1)) (V (Proc.devRef .tc main_arg2))) (col1 (V (Proc.devRef .tc main_v12))) (row1 (V (Proc.devRef .tc main_arg4))) := by
  simp only [opsB]
  after_results_simp
  rfl

set_option maxRecDepth 8192 in
set_option maxHeartbeats 2000000 in
/-- Layer 1's normalisation: the column means, the biased variances (through the outlined variance and its
    select), the gain, the shift and the positive part. -/
theorem C_v52 : after opsC2 (after opsC1 V) (Proc.devRef .tc main_v52)
    = bnReluH (V (Proc.devRef .tc main_v32)) (V (Proc.devRef .tc main_arg5)) (V (Proc.devRef .tc main_arg6)) := by
  simp only [opsC1, opsC2]
  after_results_simp
  rfl

/-- Layer 2 before its normalisation. -/
theorem D_v72 : after opsD V (Proc.devRef .tc main_v72)
    = scaleShift2 (aggregate (linScale2 (V (Proc.devRef .tc main_v52)) (V (Proc.devRef .tc main_arg7)) (col1 (V (Proc.devRef .tc main_v10))))
        (V (Proc.devRef .tc main_arg1)) (V (Proc.devRef .tc main_arg2))) (col1 (V (Proc.devRef .tc main_v12))) (row1 (V (Proc.devRef .tc main_arg8))) := by
  simp only [opsD]
  after_results_simp
  rfl

set_option maxRecDepth 8192 in
set_option maxHeartbeats 2000000 in
/-- Layer 2's normalisation. -/
theorem E_v92 : after opsE V (Proc.devRef .tc main_v92)
    = bnReluH (V (Proc.devRef .tc main_v72)) (V (Proc.devRef .tc main_arg9)) (V (Proc.devRef .tc main_arg10)) := by
  simp only [opsE]
  after_results_simp
  rfl

/-- Every row divided by its length. -/
theorem F_v97 : after opsF1 V (Proc.devRef .tc main_v97) = unitRows (V (Proc.devRef .tc main_v92)) := by
  simp only [opsF1]
  after_results_simp
  rfl

/-- The projection to the classes. -/
theorem F_v101 : after opsF2 V (Proc.devRef .tc main_v101)
    = project2 (V (Proc.devRef .tc main_v97)) (V (Proc.devRef .tc main_arg11)) (broadcastInDim S1x40 ![1] bcast_S40_S1x40_1 (V (Proc.devRef .tc main_arg12))) := by
  simp only [opsF2]
  after_results_simp
  rfl

end Stages

/-! ## The stages chained -/

/-- The whole list run from `V` is its eight lists run in turn. -/
theorem after_ops (V : Valuation τ sig (Elt F)) :
    after ops V = after opsF2 (after opsF1 (after opsE (after opsD (after opsC2 (after opsC1 (after opsB (after opsA V))))))) := by
  simp only [ops, after_app]

/-- A buffer none of the eight lists writes holds at the end what it held at the start. -/
theorem keep_all (V : Valuation τ sig (Elt F)) (r : Ref sig .tc) (hA : r ∉ opsA_W) (hB : r ∉ opsB_W) (hC1 : r ∉ opsC1_W)
    (hC2 : r ∉ opsC2_W) (hD : r ∉ opsD_W) (hE : r ∉ opsE_W) (hF1 : r ∉ opsF1_W) (hF2 : r ∉ opsF2_W) :
    after ops V (Proc.devRef .tc r) = V (Proc.devRef .tc r) := by
  rw [after_ops, keepF2 _ r hF2, keepF1 _ r hF1, keepE _ r hE, keepD _ r hD, keepC2 _ r hC2, keepC1 _ r hC1, keepB _ r hB, keepA _ r hA]

/-- The unit feature rows and the class scores after the whole list, from any contents: the stages chained, every
    buffer a later stage reads either the earlier stage's result or an argument, kept through the lists between. -/
theorem results (V : Valuation τ sig (Elt F)) :
    after ops V (Proc.devRef .tc main_v101) = scores (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ after ops V (Proc.devRef .tc main_v97) = feat (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_ops]
  -- the contents after the degree scalings
  generalize h1 : after opsA V = V1
  have k1 : ∀ r, r ∉ opsA_W → V1 (Proc.devRef .tc r) = V (Proc.devRef .tc r) := fun r h => h1 ▸ keepA V r h
  have e10 : V1 (Proc.devRef .tc main_v10) = invSqrtDeg (F := F) (V (Proc.devRef .tc main_arg1)) := h1 ▸ A_v10 V
  have e12 : V1 (Proc.devRef .tc main_v12) = invSqrtDeg (F := F) (V (Proc.devRef .tc main_arg2)) := h1 ▸ A_v12 V
  -- after layer 1's aggregation
  generalize h2 : after opsB V1 = V2
  have k2 : ∀ r, r ∉ opsA_W → r ∉ opsB_W → V2 (Proc.devRef .tc r) = V (Proc.devRef .tc r) :=
    fun r hA hB => (h2 ▸ keepB V1 r hB).trans (k1 r hA)
  have e32 : V2 (Proc.devRef .tc main_v32)
      = scaleShift2 (aggregate (linScale2 (V (Proc.devRef .tc main_arg0)) (V (Proc.devRef .tc main_arg3)) (col1 (invSqrtDeg (F := F) (V (Proc.devRef .tc main_arg1)))))
          (V (Proc.devRef .tc main_arg1)) (V (Proc.devRef .tc main_arg2))) (col1 (invSqrtDeg (F := F) (V (Proc.devRef .tc main_arg2)))) (row1 (V (Proc.devRef .tc main_arg4))) := by
    rw [← h2, B_v32 V1, e10, e12, k1 main_arg0 (by decide), k1 main_arg1 (by decide), k1 main_arg2 (by decide),
      k1 main_arg3 (by decide), k1 main_arg4 (by decide)]
  have e10' : V2 (Proc.devRef .tc main_v10) = invSqrtDeg (F := F) (V (Proc.devRef .tc main_arg1)) := (h2 ▸ keepB V1 main_v10 (by decide)).trans e10
  have e12' : V2 (Proc.devRef .tc main_v12) = invSqrtDeg (F := F) (V (Proc.devRef .tc main_arg2)) := (h2 ▸ keepB V1 main_v12 (by decide)).trans e12
  clear h1 h2 k1 e10 e12
  -- after layer 1's normalisation
  generalize h3 : after opsC2 (after opsC1 V2) = V3
  have k3 : ∀ r, r ∉ opsA_W → r ∉ opsB_W → r ∉ opsC1_W → r ∉ opsC2_W → V3 (Proc.devRef .tc r) = V (Proc.devRef .tc r) :=
    fun r hA hB hC1 hC2 => (h3 ▸ (keepC2 _ r hC2).trans (keepC1 V2 r hC1)).trans (k2 r hA hB)
  have e52 : V3 (Proc.devRef .tc main_v52) = layer (F := F) (V (Proc.devRef .tc main_arg0)) (V (Proc.devRef .tc main_arg3)) (V (Proc.devRef .tc main_arg4)) (V (Proc.devRef .tc main_arg5)) (V (Proc.devRef .tc main_arg6)) (V (Proc.devRef .tc main_arg1)) (V (Proc.devRef .tc main_arg2)) := by
    rw [← h3, C_v52 V2, e32, k2 main_arg5 (by decide) (by decide), k2 main_arg6 (by decide) (by decide)]
    rfl
  have e10'' : V3 (Proc.devRef .tc main_v10) = invSqrtDeg (F := F) (V (Proc.devRef .tc main_arg1)) :=
    (h3 ▸ (keepC2 _ main_v10 (by decide)).trans (keepC1 V2 main_v10 (by decide))).trans e10'
  have e12'' : V3 (Proc.devRef .tc main_v12) = invSqrtDeg (F := F) (V (Proc.devRef .tc main_arg2)) :=
    (h3 ▸ (keepC2 _ main_v12 (by decide)).trans (keepC1 V2 main_v12 (by decide))).trans e12'
  clear h3 k2 e32 e10' e12'
  -- after layer 2's aggregation
  generalize h4 : after opsD V3 = V4
  have k4 : ∀ r, r ∉ opsA_W → r ∉ opsB_W → r ∉ opsC1_W → r ∉ opsC2_W → r ∉ opsD_W → V4 (Proc.devRef .tc r) = V (Proc.devRef .tc r) :=
    fun r hA hB hC1 hC2 hD => (h4 ▸ keepD V3 r hD).trans (k3 r hA hB hC1 hC2)
  have e72 : V4 (Proc.devRef .tc main_v72)
      = scaleShift2 (aggregate (linScale2 (layer (F := F) (V (Proc.devRef .tc main_arg0)) (V (Proc.devRef .tc main_arg3)) (V (Proc.devRef .tc main_arg4)) (V (Proc.devRef .tc main_arg5)) (V (Proc.devRef .tc main_arg6)) (V (Proc.devRef .tc main_arg1)) (V (Proc.devRef .tc main_arg2)))
            (V (Proc.devRef .tc main_arg7)) (col1 (invSqrtDeg (F := F) (V (Proc.devRef .tc main_arg1)))))
          (V (Proc.devRef .tc main_arg1)) (V (Proc.devRef .tc main_arg2))) (col1 (invSqrtDeg (F := F) (V (Proc.devRef .tc main_arg2)))) (row1 (V (Proc.devRef .tc main_arg8))) := by
    rw [← h4, D_v72 V3, e52, e10'', e12'', k3 main_arg1 (by decide) (by decide) (by decide) (by decide),
      k3 main_arg2 (by decide) (by decide) (by decide) (by decide), k3 main_arg7 (by decide) (by decide) (by decide) (by decide),
      k3 main_arg8 (by decide) (by decide) (by decide) (by decide)]
  clear h4 k3 e52 e10'' e12''
  -- after layer 2's normalisation
  generalize h5 : after opsE V4 = V5
  have k5 : ∀ r, r ∉ opsA_W → r ∉ opsB_W → r ∉ opsC1_W → r ∉ opsC2_W → r ∉ opsD_W → r ∉ opsE_W → V5 (Proc.devRef .tc r) = V (Proc.devRef .tc r) :=
    fun r hA hB hC1 hC2 hD hE => (h5 ▸ keepE V4 r hE).trans (k4 r hA hB hC1 hC2 hD)
  have e92 : V5 (Proc.devRef .tc main_v92)
      = layer (F := F) (layer (F := F) (V (Proc.devRef .tc main_arg0)) (V (Proc.devRef .tc main_arg3)) (V (Proc.devRef .tc main_arg4)) (V (Proc.devRef .tc main_arg5)) (V (Proc.devRef .tc main_arg6)) (V (Proc.devRef .tc main_arg1)) (V (Proc.devRef .tc main_arg2)))
          (V (Proc.devRef .tc main_arg7)) (V (Proc.devRef .tc main_arg8)) (V (Proc.devRef .tc main_arg9)) (V (Proc.devRef .tc main_arg10)) (V (Proc.devRef .tc main_arg1)) (V (Proc.devRef .tc main_arg2)) := by
    rw [← h5, E_v92 V4, e72, k4 main_arg9 (by decide) (by decide) (by decide) (by decide) (by decide),
      k4 main_arg10 (by decide) (by decide) (by decide) (by decide) (by decide)]
    rfl
  clear h5 k4 e72
  -- after the row normalisation
  generalize h6 : after opsF1 V5 = V6
  have k6 : ∀ r, r ∉ opsA_W → r ∉ opsB_W → r ∉ opsC1_W → r ∉ opsC2_W → r ∉ opsD_W → r ∉ opsE_W → r ∉ opsF1_W → V6 (Proc.devRef .tc r) = V (Proc.devRef .tc r) :=
    fun r hA hB hC1 hC2 hD hE hF1 => (h6 ▸ keepF1 V5 r hF1).trans (k5 r hA hB hC1 hC2 hD hE)
  have e97 : V6 (Proc.devRef .tc main_v97) = feat (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
    rw [← h6, F_v97 V5, e92]
    rfl
  clear h6 k5 e92
  -- after the projection
  refine ⟨?_, ?_⟩
  · rw [F_v101 V6, e97, k6 main_arg11 (by decide) (by decide) (by decide) (by decide) (by decide) (by decide) (by decide),
      k6 main_arg12 (by decide) (by decide) (by decide) (by decide) (by decide) (by decide) (by decide)]
    rfl
  · rw [keepF2 V6 main_v97 (by decide), e97]

/-! ## The run -/

/-- On every device, for any float values, from any memory with zero counters: every weakly fair execution of @main
    terminates with the class scores and the unit feature rows at the whole-array statement's functions of the
    thirteen arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101) = Cert.Gcn.scores (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v97) = Cert.Gcn.feat (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v101).trans (results (launchContents m c)).1,
      (h c main_v97).trans (results (launchContents m c)).2,
      (h c main_arg0).trans (keep_all (launchContents m c) main_arg0 (by decide) (by decide) (by decide) (by decide) (by decide) (by decide) (by decide) (by decide)),
      (h c main_arg1).trans (keep_all (launchContents m c) main_arg1 (by decide) (by decide) (by decide) (by decide) (by decide) (by decide) (by decide) (by decide)),
      (h c main_arg2).trans (keep_all (launchContents m c) main_arg2 (by decide) (by decide) (by decide) (by decide) (by decide) (by decide) (by decide) (by decide)),
      (h c main_arg3).trans (keep_all (launchContents m c) main_arg3 (by decide) (by decide) (by decide) (by decide) (by decide) (by decide) (by decide) (by decide)),
      (h c main_arg4).trans (keep_all (launchContents m c) main_arg4 (by decide) (by decide) (by decide) (by decide) (by decide) (by decide) (by decide) (by decide)),
      (h c main_arg5).trans (keep_all (launchContents m c) main_arg5 (by decide) (by decide) (by decide) (by decide) (by decide) (by decide) (by decide) (by decide)),
      (h c main_arg6).trans (keep_all (launchContents m c) main_arg6 (by decide) (by decide) (by decide) (by decide) (by decide) (by decide) (by decide) (by decide)),
      (h c main_arg7).trans (keep_all (launchContents m c) main_arg7 (by decide) (by decide) (by decide) (by decide) (by decide) (by decide) (by decide) (by decide)),
      (h c main_arg8).trans (keep_all (launchContents m c) main_arg8 (by decide) (by decide) (by decide) (by decide) (by decide) (by decide) (by decide) (by decide)),
      (h c main_arg9).trans (keep_all (launchContents m c) main_arg9 (by decide) (by decide) (by decide) (by decide) (by decide) (by decide) (by decide) (by decide)),
      (h c main_arg10).trans (keep_all (launchContents m c) main_arg10 (by decide) (by decide) (by decide) (by decide) (by decide) (by decide) (by decide) (by decide)),
      (h c main_arg11).trans (keep_all (launchContents m c) main_arg11 (by decide) (by decide) (by decide) (by decide) (by decide) (by decide) (by decide) (by decide)),
      (h c main_arg12).trans (keep_all (launchContents m c) main_arg12 (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.HandRun

end
-- ==== Proof.lean ====
/-
  The certificate's five claims for the two-layer graph convolution.

  The two kernel programs' frames are the generated frame certificates of their seven regions; the reference's
  frame is its run with the results dropped. The ideal pass rewrote nothing. For the value claim both idealized
  programs end with the same two arrays: the class scores and the unit feature rows of the whole-array
  statement (the module about the statement), as functions of the thirteen argument arrays. On the kernel's side
  the run leaves every buffer at the last boundary's contents, and those are the statement's functions by the
  chain through the regions (each region's output array is the stage's function of its input arrays; between
  the regions the host computes the same aggregation, means and variances as the reference). On the
  reference's side its operations' composed term is the statement by definition.
-/
import proofs.«142040_j24154896073101_1_alg».proof.Defs
import proofs.«142040_j24154896073101_1_alg».proof.Proof.Gen.Kernel
import proofs.«142040_j24154896073101_1_alg».proof.Proof.Gen.Kernel.Frame
import proofs.«142040_j24154896073101_1_alg».proof.Proof.Gen.KernelIdeal
import proofs.«142040_j24154896073101_1_alg».proof.Proof.Gen.KernelIdeal.Frame
import proofs.«142040_j24154896073101_1_alg».proof.Proof.Gen.ReferenceIdeal
import proofs.«142040_j24154896073101_1_alg».proof.Proof.Gen.Pre_finite_inputs
import proofs.«142040_j24154896073101_1_alg».proof.Proof.Spec
import proofs.«142040_j24154896073101_1_alg».proof.Proof.KernelRun
import proofs.«142040_j24154896073101_1_alg».proof.Proof.Chain
import proofs.«142040_j24154896073101_1_alg».proof.Proof.RowScale
import proofs.«142040_j24154896073101_1_alg».proof.Proof.ColumnNorm
import proofs.«142040_j24154896073101_1_alg».proof.Proof.UnitProject
import proofs.«142040_j24154896073101_1_alg».proof.Proof.RefRun
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.HandRun.run (F := Ideal) m ρ)

set_option maxHeartbeats 4000000 in
/-- What each region leaves in its output array: the modules about the regions. -/
theorem regionResults : Cert.KernelIdeal.Chain.RegionResults :=
  ⟨Cert.Gcn.RowScale.final0, Cert.Gcn.RowScale.final1, Cert.Gcn.ColumnNorm.final2, Cert.Gcn.RowScale.final3,
    Cert.Gcn.RowScale.final4, Cert.Gcn.ColumnNorm.final5, Cert.UnitProject.final6_feat, Cert.UnitProject.final6_out,
    Cert.Gcn.ColumnNorm.bnRelu2_eq⟩

set_option maxHeartbeats 4000000 in
/-- Both idealized programs end at the statement's class scores and unit feature rows of the arguments. -/
theorem algebraic : Cert.algebraic_KernelIdeal_ReferenceIdeal := by
  intro m ρ m' ρ' _ hagree
  refine ⟨fun c => Cert.Gcn.scores (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Gcn.feat (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Out.run (F := Ideal) m ρ)
    obtain ⟨h1, h2, hargs⟩ := h c
    exact ⟨h1.trans (Cert.KernelIdeal.Chain.W21_scores m ρ c regionResults),
      h2.trans (Cert.KernelIdeal.Chain.W21_feat m ρ c regionResults), hargs⟩
  · refine (θ_run Cert.ReferenceIdeal.defs _ _).mono (fun r h c => ?_) (Cert.ReferenceIdeal.HandRun.run (F := Ideal) m' ρ')
    obtain ⟨h1, h2, hargs⟩ := h c
    obtain ⟨e0, e1, e2, e3, e4, e5, e6, e7, e8, e9, e10, e11, e12⟩ := hagree c
    refine ⟨h1.trans ?_, h2.trans ?_, hargs⟩
    · rw [e0, e1, e2, e3, e4, e5, e6, e7, e8, e9, e10, e11, e12]
    · rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
